-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v22)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v31) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v53) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S4x512 : Shape := ⟨2, ![4, 512]⟩
abbrev S4x1024x256 : Shape := ⟨3, ![4, 1024, 256]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  bcast_S_S4x512 : S_.BroadcastsInDim S4x512 (![] : Fin 0 → Fin S4x512.rank)
  reducesTo_S4x512_S_d0_1 : S4x512.ReducesTo [0, 1] S_
  bcast_S_S4x1024x256 : S_.BroadcastsInDim S4x1024x256 (![] : Fin 0 → Fin S4x1024x256.rank)
  reducesTo_S4x1024x256_S_d0_1_2 : S4x1024x256.ReducesTo [0, 1, 2] S_

variable [Facts]

def fn_part2 {F : FTy → Type} [FloatOps F] (main_arg7 : FVec F S4x8192x3 .f32) (main_arg8 : FVec F S4x8192x3 .f32) (main_v33 : IVec S_ 1) : IVec S_ 1 :=
  let main_v34 : FVec F S4x8192x3 .f32 := Host.absf main_arg7
  let main_cst_12 : FVec F S_ .f32 := constant S_ .f32 0x7F800000#32
  let main_v35 : FVec F S4x8192x3 .f32 := broadcastInDim S4x8192x3 ![] bcast_S_S4x8192x3 main_cst_12
  let main_v36 : IVec S4x8192x3 1 := cmpf .olt main_v34 main_v35
  let main_c_13 : IVec S_ 1 := constantI S_ 1 1#1
  let main_v37 : IVec S_ 1 := (fun x v => Host.reduce IntOp.andi x v reducesTo_S4x8192x3_S_d0_1_2 h_S_) main_v36 main_c_13
  let main_v38 : IVec S_ 1 := andi main_v33 main_v37
  let main_v39 : FVec F S4x8192x3 .f32 := Host.absf main_arg8
  let main_cst_14 : FVec F S_ .f32 := constant S_ .f32 0x7F800000#32
  let main_v40 : FVec F S4x8192x3 .f32 := broadcastInDim S4x8192x3 ![] bcast_S_S4x8192x3 main_cst_14
  let main_v41 : IVec S4x8192x3 1 := cmpf .olt main_v39 main_v40
  let main_c_15 : IVec S_ 1 := constantI S_ 1 1#1
  let main_v42 : IVec S_ 1 := (fun x v => Host.reduce IntOp.andi x v reducesTo_S4x8192x3_S_d0_1_2 h_S_) main_v41 main_c_15
  let main_v43 : IVec S_ 1 := andi main_v38 main_v42
  main_v43

def fn_part1 {F : FTy → Type} [FloatOps F] (main_arg4 : FVec F S4x1024x256 .f32) (main_arg5 : FVec F S4x1024x256 .f32) (main_arg6 : FVec F S4x8192x3 .f32) (main_arg7 : FVec F S4x8192x3 .f32) (main_arg8 : FVec F S4x8192x3 .f32) (main_v13 : IVec S_ 1) (main_v16 : IVec S4x512 1) : IVec S_ 1 :=
  let main_c_5 : IVec S_ 1 := constantI S_ 1 1#1
  let main_v17 : IVec S_ 1 := (fun x v => Host.reduce IntOp.andi x v reducesTo_S4x512_S_d0_1 h_S_) main_v16 main_c_5
  let main_v18 : IVec S_ 1 := andi main_v13 main_v17
  let main_v19 : FVec F S4x1024x256 .f32 := Host.absf main_arg4
  let main_cst_6 : FVec F S_ .f32 := constant S_ .f32 0x7F800000#32
  let main_v20 : FVec F S4x1024x256 .f32 := broadcastInDim S4x1024x256 ![] bcast_S_S4x1024x256 main_cst_6
  let main_v21 : IVec S4x1024x256 1 := cmpf .olt main_v19 main_v20
  let main_c_7 : IVec S_ 1 := constantI S_ 1 1#1
  let main_v22 : IVec S_ 1 := (fun x v => Host.reduce IntOp.andi x v reducesTo_S4x1024x256_S_d0_1_2 h_S_) main_v21 main_c_7
  let main_v23 : IVec S_ 1 := andi main_v18 main_v22
  let main_v24 : FVec F S4x1024x256 .f32 := Host.absf main_arg5
  let main_cst_8 : FVec F S_ .f32 := constant S_ .f32 0x7F800000#32
  let main_v25 : FVec F S4x1024x256 .f32 := broadcastInDim S4x1024x256 ![] bcast_S_S4x1024x256 main_cst_8
  let main_v26 : IVec S4x1024x256 1 := cmpf .olt main_v24 main_v25
  let main_c_9 : IVec S_ 1 := constantI S_ 1 1#1
  let main_v27 : IVec S_ 1 := (fun x v => Host.reduce IntOp.andi x v reducesTo_S4x1024x256_S_d0_1_2 h_S_) main_v26 main_c_9
  let main_v28 : IVec S_ 1 := andi main_v23 main_v27
  let main_v29 : FVec F S4x8192x3 .f32 := Host.absf main_arg6
  let main_cst_10 : FVec F S_ .f32 := constant S_ .f32 0x7F800000#32
  let main_v30 : FVec F S4x8192x3 .f32 := broadcastInDim S4x8192x3 ![] bcast_S_S4x8192x3 main_cst_10
  let main_v31 : IVec S4x8192x3 1 := cmpf .olt main_v29 main_v30
  let main_c_11 : IVec S_ 1 := constantI S_ 1 1#1
  let main_v32 : IVec S_ 1 := (fun x v => Host.reduce IntOp.andi x v reducesTo_S4x8192x3_S_d0_1_2 h_S_) main_v31 main_c_11
  let main_v33 : IVec S_ 1 := andi main_v28 main_v32
  fn_part2 (F := F) main_arg7 main_arg8 main_v33

def fn {F : FTy → Type} [FloatOps F] (main_arg0 : FVec F S4x8192x3 .f32) (main_arg1 : FVec F S4x8192x3 .f32) (main_arg2 : FVec F S4x512 .f32) (main_arg3 : FVec F S4x512 .f32) (main_arg4 : FVec F S4x1024x256 .f32) (main_arg5 : FVec F S4x1024x256 .f32) (main_arg6 : FVec F S4x8192x3 .f32) (main_arg7 : FVec F S4x8192x3 .f32) (main_arg8 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x512 .f32 := Host.absf main_arg2
  let main_cst_2 : FVec F S_ .f32 := constant S_ .f32 0x7F800000#32
  let main_v10 : FVec F S4x512 .f32 := broadcastInDim S4x512 ![] bcast_S_S4x512 main_cst_2
  let main_v11 : IVec S4x512 1 := cmpf .olt main_v9 main_v10
  let main_c_3 : IVec S_ 1 := constantI S_ 1 1#1
  let main_v12 : IVec S_ 1 := (fun x v => Host.reduce IntOp.andi x v reducesTo_S4x512_S_d0_1 h_S_) main_v11 main_c_3
  let main_v13 : IVec S_ 1 := andi main_v8 main_v12
  let main_v14 : FVec F S4x512 .f32 := Host.absf main_arg3
  let main_cst_4 : FVec F S_ .f32 := constant S_ .f32 0x7F800000#32
  let main_v15 : FVec F S4x512 .f32 := broadcastInDim S4x512 ![] bcast_S_S4x512 main_cst_4
  let main_v16 : IVec S4x512 1 := cmpf .olt main_v14 main_v15
  fn_part1 (F := F) main_arg4 main_arg5 main_arg6 main_arg7 main_arg8 main_v13 main_v16
-- ==== Kernel.lean ====
abbrev S4x8192x3 : Shape := ⟨3, ![4, 8192, 3]⟩
abbrev S4x512 : Shape := ⟨2, ![4, 512]⟩
abbrev S4x1024x256 : Shape := ⟨3, ![4, 1024, 256]⟩
abbrev S4x1 : Shape := ⟨2, ![4, 1]⟩
abbrev S4x512x256 : Shape := ⟨3, ![4, 512, 256]⟩
abbrev S1x1 : Shape := ⟨2, ![1, 1]⟩
abbrev S3x1 : Shape := ⟨2, ![3, 1]⟩
abbrev S1x4x8192x3 : Shape := ⟨4, ![1, 4, 8192, 3]⟩
abbrev S1 : Shape := ⟨1, ![1]⟩
abbrev S1x1x1x1 : Shape := ⟨4, ![1, 1, 1, 1]⟩
abbrev S1x4x512 : Shape := ⟨3, ![1, 4, 512]⟩
abbrev S1x1x1 : Shape := ⟨3, ![1, 1, 1]⟩
abbrev S3 : Shape := ⟨1, ![3]⟩
abbrev S1x4x512x256 : Shape := ⟨4, ![1, 4, 512, 256]⟩
abbrev S_ : Shape := ⟨0, ![]⟩
abbrev S4x1x1 : Shape := ⟨3, ![4, 1, 1]⟩
abbrev S1x1024x3 : Shape := ⟨3, ![1, 1024, 3]⟩
abbrev S1024x1 : Shape := ⟨2, ![1024, 1]⟩
abbrev S1x8192 : Shape := ⟨2, ![1, 8192]⟩
abbrev S1024x3 : Shape := ⟨2, ![1024, 3]⟩
abbrev S1024 : Shape := ⟨1, ![1024]⟩
abbrev S1x1024 : Shape := ⟨2, ![1, 1024]⟩
abbrev S1024x1024 : Shape := ⟨2, ![1024, 1024]⟩
abbrev S1x1024x1 : Shape := ⟨3, ![1, 1024, 1]⟩
abbrev S1x1x8192 : Shape := ⟨3, ![1, 1, 8192]⟩
abbrev S4 : Shape := ⟨1, ![4]⟩

abbrev nBuf : Space → Nat
  | .hbm => 54
  | .vmem => 24
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x512, .f32⟩
  | .hbm, ⟨3, _⟩ => ⟨S4x512, .f32⟩
  | .hbm, ⟨4, _⟩ => ⟨S4x1024x256, .f32⟩
  | .hbm, ⟨5, _⟩ => ⟨S4x1024x256, .f32⟩
  | .hbm, ⟨6, _⟩ => ⟨S4x8192x3, .f32⟩
  | .hbm, ⟨7, _⟩ => ⟨S4x8192x3, .f32⟩
  | .hbm, ⟨8, _⟩ => ⟨S4x8192x3, .f32⟩
  | .hbm, ⟨9, _⟩ => ⟨S4x1, .f32⟩
  | .hbm, ⟨10, _⟩ => ⟨S1x1, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x1x1, .f32⟩
  | .hbm, ⟨28, _⟩ => ⟨S4x1x1, .f32⟩
  | .hbm, ⟨29, _⟩ => ⟨S4x1, .f32⟩
  | .hbm, ⟨30, _⟩ => ⟨S4x1, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S4x8192x3, .f32⟩
  | .local _ .vmem, ⟨1, _⟩ => ⟨S4x8192x3, .f32⟩
  | .local _ .vmem, ⟨2, _⟩ => ⟨S4x512, .f32⟩
  | .local _ .vmem, ⟨3, _⟩ => ⟨S4x512, .f32⟩
  | .local _ .vmem, ⟨4, _⟩ => ⟨S4x512x256, .f32⟩
  | .local _ .vmem, ⟨5, _⟩ => ⟨S4x512x256, .f32⟩
  | .local _ .vmem, ⟨6, _⟩ => ⟨S4x512x256, .f32⟩
  | .local _ .vmem, ⟨7, _⟩ => ⟨S4x512x256, .f32⟩
  | .local _ .vmem, ⟨8, _⟩ => ⟨S4x8192x3, .f32⟩
  | .local _ .vmem, ⟨9, _⟩ => ⟨S4x8192x3, .f32⟩
  | .local _ .vmem, ⟨10, _⟩ => ⟨S4x1, .f32⟩
  | .local _ .vmem, ⟨11, _⟩ => ⟨S1x1, .f32⟩
  | .local _ .vmem, ⟨12, _⟩ => ⟨S3x1, .f32⟩
  | .local _ .vmem, ⟨13, _⟩ => ⟨S1x1024x3, .f32⟩
  | .local _ .vmem, ⟨14, _⟩ => ⟨S1x1024x3, .f32⟩
  | .local _ .vmem, ⟨15, _⟩ => ⟨S1x1024x3, .f32⟩
  | .local _ .vmem, ⟨16, _⟩ => ⟨S1x1024x3, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1024x1, .f32⟩
  | .local _ .vmem, ⟨22, _⟩ => ⟨S1x8192, .f32⟩
  | .local _ .vmem, ⟨23, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v17 : BitVec 1 := Scalar.cmpi .eq arg0 c1_i32
  let v18 : BitVec 32 := Scalar.extui v17
  let c0_i32_10 : BitVec 32 := 0#32
  let v19 : BitVec 1 := Scalar.cmpi .ne v18 c0_i32_10
  v19

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x8192x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8192x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨3, ![4, 8, 8], ![false, false, false]⟩

def k1_mult1 (i : grid1.Coords) : BitVec 32 :=
  let arg2 : BitVec 32 := BitVec.ofNat 32 (i 2).val
  let c1024_i32 : BitVec 32 := 1024#32
  let v32 : BitVec 32 := Scalar.muli arg2 c1024_i32
  v32
def k1_cond4 (i : grid1.Coords) : BitVec 1 :=
  let arg1 : BitVec 32 := BitVec.ofNat 32 (i 1).val
  let c0_i32_16 : BitVec 32 := 0#32
  let v34 : BitVec 1 := Scalar.cmpi .eq arg1 c0_i32_16
  let v35 : BitVec 32 := Scalar.extui v34
  let c0_i32_17 : BitVec 32 := 0#32
  let v36 : BitVec 1 := Scalar.cmpi .ne v35 c0_i32_17
  v36

def k1_off1 (i : grid1.Coords) : Fin 2 → Nat :=
  let c0_24 : Index := 0#32
  let arg2 : BitVec 32 := BitVec.ofNat 32 (i 2).val
  let c1024_i32 : BitVec 32 := 1024#32
  let v32 : BitVec 32 := Scalar.muli arg2 c1024_i32
  let v33 : BitVec 32 := v32
  let v48 : Index := Scalar.indexCast v33
  ![0, v48.toNat]
def k1_cond5 (i : grid1.Coords) : BitVec 1 :=
  let arg1 : BitVec 32 := BitVec.ofNat 32 (i 1).val
  let c0_i32_18 : BitVec 32 := 0#32
  let v37 : BitVec 1 := Scalar.cmpi .ne arg1 c0_i32_18
  let v38 : BitVec 32 := Scalar.extui v37
  let c0_i32_19 : BitVec 32 := 0#32
  let v39 : BitVec 1 := Scalar.cmpi .ne v38 c0_i32_19
  v39

def k1_off2 (i : grid1.Coords) : Fin 2 → Nat :=
  let c0_24 : Index := 0#32
  let arg2 : BitVec 32 := BitVec.ofNat 32 (i 2).val
  let c1024_i32 : BitVec 32 := 1024#32
  let v32 : BitVec 32 := Scalar.muli arg2 c1024_i32
  let v33 : BitVec 32 := v32
  let v48 : Index := Scalar.indexCast v33
  ![0, v48.toNat]
def k1_cond7 (i : grid1.Coords) : BitVec 1 :=
  let arg1 : BitVec 32 := BitVec.ofNat 32 (i 1).val
  let c7_i32_21 : BitVec 32 := 7#32
  let v43 : BitVec 1 := Scalar.cmpi .eq arg1 c7_i32_21
  let arg2 : BitVec 32 := BitVec.ofNat 32 (i 2).val
  let c7_i32_22 : BitVec 32 := 7#32
  let v44 : BitVec 1 := Scalar.cmpi .eq arg2 c7_i32_22
  let v45 : BitVec 1 := Scalar.andi v43 v44
  let v46 : BitVec 32 := Scalar.extui v45
  let c0_i32_23 : BitVec 32 := 0#32
  let v47 : BitVec 1 := Scalar.cmpi .ne v46 c0_i32_23
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4x8192x3_S4x8192x3_0_0_0 : ∀ a, (![0, 0, 0] : Fin 3 → Nat) a + S4x8192x3.size a ≤ S4x8192x3.size a
  h_S4x8192x3 : 0 < S4x8192x3.numel
  shapeCasts_S4x8192x3_S1x4x8192x3 : S4x8192x3.ShapeCasts S1x4x8192x3
  reduces_S1x4x8192x3_S1 : S1x4x8192x3.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  inb_S4x512_S4x512_0_0 : ∀ a, (![0, 0] : Fin 2 → Nat) a + S4x512.size a ≤ S4x512.size a
  h_S4x512 : 0 < S4x512.numel
  shapeCasts_S4x512_S1x4x512 : S4x512.ShapeCasts S1x4x512
  reduces_S1x4x512_S1 : S1x4x512.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S3_d0 : Shape.Concatenates [S1, S1, S1] S3 0
  shapeCasts_S3_S3x1 : S3.ShapeCasts S3x1
  inb_S3x1_S3x1_0_0 : ∀ a, (![0, 0] : Fin 2 → Nat) a + S3x1.size a ≤ S3x1.size a
  h_S3x1 : 0 < S3x1.numel
  shapeCasts_S3x1_S3x1 : S3x1.ShapeCasts S3x1
  inb_S4x512x256_S4x512x256_0_0_0 : ∀ a, (![0, 0, 0] : Fin 3 → Nat) a + S4x512x256.size a ≤ S4x512x256.size a
  h_S4x512x256 : 0 < S4x512x256.numel
  shapeCasts_S4x512x256_S1x4x512x256 : S4x512x256.ShapeCasts S1x4x512x256
  reduces_S1x4x512x256_S1 : S1x4x512x256.Reduces [1, 2, 3] S1
  slices_S3x1_o0_0_S1x1 : S3x1.Slices ![0, 0] S1x1
  slices_S3x1_o1_0_S1x1 : S3x1.Slices ![1, 0] S1x1
  slices_S3x1_o2_0_S1x1 : S3x1.Slices ![2, 0] S1x1
  concatenates_S1x1_S1x1_S1x1_S1x1_S4x1_d0 : Shape.Concatenates [S1x1, S1x1, S1x1, S1x1] S4x1 0
  inb_S4x1_S4x1_0_0 : ∀ a, (![0, 0] : Fin 2 → Nat) a + S4x1.size a ≤ S4x1.size a
  h_S4x1 : 0 < S4x1.numel
  slices_S4x1_S1x1_0_0 : S4x1.Slices ![0, 0] S1x1
  shapeCasts_S1x1_S_ : S1x1.ShapeCasts S_
  slices_S4x1_S1x1_1_0 : S4x1.Slices ![1, 0] S1x1
  slices_S4x1_S1x1_2_0 : S4x1.Slices ![2, 0] S1x1
  slices_S4x1_S1x1_3_0 : S4x1.Slices ![3, 0] S1x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  shapeCasts_S1024x1_S1x1024x1 : S1024x1.ShapeCasts S1x1024x1
  reduces_S1x1024x1_S1 : S1x1024x1.Reduces [1, 2] S1
  inb_S1x8192_S1x8192_0_0 : ∀ a, (![0, 0] : Fin 2 → Nat) a + S1x8192.size a ≤ S1x8192.size a
  h_S1x8192 : 0 < S1x8192.numel
  shapeCasts_S1x8192_S1x1x8192 : S1x8192.ShapeCasts S1x1x8192
  reduces_S1x1x8192_S1 : S1x1x8192.Reduces [1, 2] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S4x1x1_S4x1 : S4x1x1.ShapeCasts S4x1
  shapeCasts_S4x1_S4 : S4x1.ShapeCasts S4
  reducesTo_S4_S_d0 : S4.ReducesTo [0] S_
  h_S_ : 0 < S_.numel
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x8192x3.size a ≤ S4x8192x3.size a
  hwx0_0 : ∀ i : grid0.Coords, EltTy.bits .f32 = 32 ∨ (Rect.block (s := S4x8192x3) S4x8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8192x3.size a ≤ S4x8192x3.size a
  hwx0_1 : ∀ i : grid0.Coords, EltTy.bits .f32 = 32 ∨ (Rect.block (s := S4x8192x3) S4x8192x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x512.size a
  hwx0_2 : ∀ i : grid0.Coords, EltTy.bits .f32 = 32 ∨ (Rect.block (s := S4x512) S4x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x512.size a
  hwx0_3 : ∀ i : grid0.Coords, EltTy.bits .f32 = 32 ∨ (Rect.block (s := S4x512) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x256.size a ≤ S4x1024x256.size a
  hwx0_4 : ∀ i : grid0.Coords, EltTy.bits .f32 = 32 ∨ (Rect.block (s := S4x1024x256) S4x512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512x256.size a ≤ S4x1024x256.size a
  hwx0_5 : ∀ i : grid0.Coords, EltTy.bits .f32 = 32 ∨ (Rect.block (s := S4x1024x256) S4x512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x8192x3.size a ≤ S4x8192x3.size a
  hwx0_6 : ∀ i : grid0.Coords, EltTy.bits .f32 = 32 ∨ (Rect.block (s := S4x8192x3) S4x8192x3.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x8192x3.size a ≤ S4x8192x3.size a
  hwx0_7 : ∀ i : grid0.Coords, EltTy.bits .f32 = 32 ∨ (Rect.block (s := S4x8192x3) S4x8192x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x1.size a ≤ S4x1.size a
  hwx0_8 : ∀ i : grid0.Coords, EltTy.bits .f32 = 32 ∨ (Rect.block (s := S4x1) S4x1.size (cc0_transform_8 i) (hinb0_8 i)).WholeWords (EltTy.packing .f32)
  hrank1 : 0 < grid1.rank
  k1_mult1_dvd : ∀ i : grid1.Coords, 1024 ∣ (k1_mult1 i).toNat
  k1_off1_inb : ∀ i : grid1.Coords, ∀ (k1_h4 : k1_cond4 i = 1#1), ∀ a, (k1_off1 i) a + S1x1024.size a ≤ S1x8192.size a
  k1_off2_inb : ∀ i : grid1.Coords, ∀ (k1_h5 : k1_cond5 i = 1#1), ∀ a, (k1_off2 i) a + S1x1024.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S4x8192x3.size a
  hwx1_0 : ∀ i : grid1.Coords, EltTy.bits .f32 = 32 ∨ (Rect.block (s := S4x8192x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S4x8192x3.size a
  hwx1_1 : ∀ i : grid1.Coords, EltTy.bits .f32 = 32 ∨ (Rect.block (s := S4x8192x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S4x1x1.size a
  hwx1_2 : ∀ i : grid1.Coords, EltTy.bits .f32 = 32 ∨ (Rect.block (s := S4x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1.size a ≤ S4x1x1.size a
  hwx1_3 : ∀ i : grid1.Coords, EltTy.bits .f32 = 32 ∨ (Rect.block (s := S4x1x1) S1x1x1.size (cc1_transform_3 i) (hinb1_3 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S4x8192x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S4x8192x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S4x8192x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg7) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_0) S1x1x1.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14_1) S1x1x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond7 i == 1#1) | 3 => fun i => !(k1_cond7 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S4x512 : Shape := ⟨2, ![4, 512]⟩
abbrev S4x1024x256 : Shape := ⟨3, ![4, 1024, 256]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 89
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x512, .f32⟩
  | .hbm, ⟨3, _⟩ => ⟨S4x512, .f32⟩
  | .hbm, ⟨4, _⟩ => ⟨S4x1024x256, .f32⟩
  | .hbm, ⟨5, _⟩ => ⟨S4x1024x256, .f32⟩
  | .hbm, ⟨6, _⟩ => ⟨S4x8192x3, .f32⟩
  | .hbm, ⟨7, _⟩ => ⟨S4x8192x3, .f32⟩
  | .hbm, ⟨8, _⟩ => ⟨S4x8192x3, .f32⟩
  | .hbm, ⟨9, _⟩ => ⟨S4x8192x3, .f32⟩
  | .hbm, ⟨10, _⟩ => ⟨S4x8192x3, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x512, .f32⟩
  | .hbm, ⟨16, _⟩ => ⟨S4x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x1024x256, .f32⟩
  | .hbm, ⟨23, _⟩ => ⟨S4x1024x256, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8192x3, .f32⟩
  | .hbm, ⟨29, _⟩ => ⟨S_, .f32⟩
  | .hbm, ⟨30, _⟩ => ⟨S4x8192, .f32⟩
  | .hbm, ⟨31, _⟩ => ⟨S4x8192x3, .f32⟩
  | .hbm, ⟨32, _⟩ => ⟨S_, .f32⟩
  | .hbm, ⟨33, _⟩ => ⟨S4x8192, .f32⟩
  | .hbm, ⟨34, _⟩ => ⟨S4x8192x8192, .f32⟩
  | .hbm, ⟨35, _⟩ => ⟨S4x8192x1, .f32⟩
  | .hbm, ⟨36, _⟩ => ⟨S4x1x8192, .f32⟩
  | .hbm, ⟨37, _⟩ => ⟨S4x8192x8192, .f32⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192x8192, .f32⟩
  | .hbm, ⟨42, _⟩ => ⟨S4x8192x8192, .f32⟩
  | .hbm, ⟨43, _⟩ => ⟨S4x8192x8192, .f32⟩
  | .hbm, ⟨44, _⟩ => ⟨S_, .f32⟩
  | .hbm, ⟨45, _⟩ => ⟨S4x8192x8192, .f32⟩
  | .hbm, ⟨46, _⟩ => ⟨S4x8192x8192, .f32⟩
  | .hbm, ⟨47, _⟩ => ⟨S4x8192x8192, .f32⟩
  | .hbm, ⟨48, _⟩ => ⟨S_, .f32⟩
  | .hbm, ⟨49, _⟩ => ⟨S4x8192, .f32⟩
  | .hbm, ⟨50, _⟩ => ⟨S_, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S_, .f32⟩
  | .hbm, ⟨56, _⟩ => ⟨S4x8192, .f32⟩
  | .hbm, ⟨57, _⟩ => ⟨S_, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S4x8192x3, .f32⟩
  | .hbm, ⟨70, _⟩ => ⟨S4x8192x3, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_cst_10 : Ref sig .tc := ⟨.hbm, 50, rfl⟩
abbrev main_v30 : Ref sig .tc := ⟨.hbm, 51, rfl⟩
abbrev main_cst_11 : Ref sig .tc := ⟨.hbm, 52, rfl⟩
abbrev main_v31 : Ref sig .tc := ⟨.hbm, 53, rfl⟩
abbrev main_v32 : Ref sig .tc := ⟨.hbm, 54, rfl⟩
abbrev main_cst_12 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_cst_14 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_15 : Ref sig .tc := ⟨.hbm, 63, rfl⟩
abbrev main_v38 : Ref sig .tc := ⟨.hbm, 64, rfl⟩
abbrev main_cst_16 : Ref sig .tc := ⟨.hbm, 65, rfl⟩
abbrev main_v39 : Ref sig .tc := ⟨.hbm, 66, rfl⟩
abbrev main_cst_17 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_18 : Ref sig .tc := ⟨.hbm, 71, rfl⟩
abbrev main_v43 : Ref sig .tc := ⟨.hbm, 72, rfl⟩
abbrev main_cst_19 : Ref sig .tc := ⟨.hbm, 73, rfl⟩
abbrev main_v44 : Ref sig .tc := ⟨.hbm, 74, rfl⟩
abbrev main_cst_20 : Ref sig .tc := ⟨.hbm, 75, rfl⟩
abbrev main_v45 : Ref sig .tc := ⟨.hbm, 76, rfl⟩
abbrev main_cst_21 : Ref sig .tc := ⟨.hbm, 77, rfl⟩
abbrev main_v46 : Ref sig .tc := ⟨.hbm, 78, rfl⟩
abbrev main_v47 : Ref sig .tc := ⟨.hbm, 79, rfl⟩
abbrev main_cst_22 : Ref sig .tc := ⟨.hbm, 80, rfl⟩
abbrev main_v48 : Ref sig .tc := ⟨.hbm, 81, rfl⟩
abbrev main_v49 : Ref sig .tc := ⟨.hbm, 82, rfl⟩
abbrev main_cst_23 : Ref sig .tc := ⟨.hbm, 83, rfl⟩
abbrev main_v50 : Ref sig .tc := ⟨.hbm, 84, rfl⟩
abbrev main_v51 : Ref sig .tc := ⟨.hbm, 85, rfl⟩
abbrev main_cst_24 : Ref sig .tc := ⟨.hbm, 86, rfl⟩
abbrev main_v52 : Ref sig .tc := ⟨.hbm, 87, rfl⟩
abbrev main_v53 : Ref sig .tc := ⟨.hbm, 88, rfl⟩

abbrev nD : Nat := 1
abbrev τ : Topo := Topo.v7x

variable {F : FTy → Type} [FloatOps F]

class Facts₀ : Prop where
  reducesTo_S4x8192x3_S_d0_1_2 : S4x8192x3.ReducesTo [0, 1, 2] S_
  h_S_ : 0 < S_.numel
  reducesTo_S4x512_S_d0_1 : S4x512.ReducesTo [0, 1] S_
  reducesTo_S4x1024x256_S_d0_1_2 : S4x1024x256.ReducesTo [0, 1, 2] S_
  reducesTo_S4x8192x3_S4x8192_d2 : S4x8192x3.ReducesTo [2] S4x8192
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192_S4_d1 : S4x8192.ReducesTo [1] S4
  bcast_S_S4 : S_.BroadcastsInDim S4 (![] : Fin 0 → Fin S4.rank)
  reducesTo_S4x8192x8192_S4x8192_d1 : S4x8192x8192.ReducesTo [1] S4x8192
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Kernel.R0Runs.lean ====
import proofs.«134128_j58669253263727_2_alg».proof.Proof.Gen.Kernel.Launch
import proofs.«134128_j58669253263727_2_alg».proof.Proof.Gen.Kernel.Skeleton
import proofs.«134128_j58669253263727_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The first pallas_call: what its two runs are stated over

The grid has two points. At point 0 the first conditional is taken and the second is not: the body zeroes the
running sum kept in the 1×1 scratch, stores the three whole-array sums of squared differences into the 3×1 scratch,
and adds the point's block sum to the 1×1 scratch. At point 1 only the second conditional is taken: the body adds
that point's block sum to the 1×1 scratch and then assembles the 4×1 result from the two scratch buffers. -/

/-! ## The body's branch conditions -/

/-- The first conditional's condition: the grid coordinate is zero (the skeleton's scalar chain). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition: the grid coordinate is one. -/
abbrev cond0_1 (i : grid0.Coords) : Prop := k0_cond2 i = 1#1
/-- It holds at the last point only. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- At the first point nothing is stored into the result window: it is idle there, -/
theorem idleAt0_8_A : ∀ t : Fin cfg0.N, cond0_0 (grid0.coords t) → ¬cond0_1 (grid0.coords t) → cfg0.idle 8 (grid0.coords t) = true := by decide +kernel
/-- and its block is not written back there. -/
theorem noFlush0_8_A : ∀ t : Fin cfg0.N, cond0_0 (grid0.coords t) → ¬cond0_1 (grid0.coords t) → (cfg0.win 8).flush t = false := by decide +kernel
/-- At the last point the result window is stored into: it is live there. -/
theorem liveAt0_8_B : ∀ t : Fin cfg0.N, ¬cond0_0 (grid0.coords t) → cond0_1 (grid0.coords t) → cfg0.idle 8 (grid0.coords t) = false := by decide +kernel

/-! ## The memrefs the body is called with -/

abbrev ms0_0 (t : Fin cfg0.N) : Memref sig .tc .vmem S4x8192x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x8192x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x8192x3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x8192x3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1 .f32 := win0_8.stage (cfg0.slots t 8)
abbrev hs0_8 (t : Fin cfg0.N) : (ms0_8 t).IsWhole := hstage0_8 ((cfg0.slots t 8).cast nbuf0_8)
/-- The 1×1 scratch: the running sum of the block sums. -/
abbrev scM0_0 : Memref sig .tc .vmem S1x1 .f32 := Memref.whole cc0_scratch0
/-- The 3×1 scratch: the three whole-array sums, kept from the first point to the last. -/
abbrev scM0_1 : Memref sig .tc .vmem S3x1 .f32 := Memref.whole cc0_scratch1
/-- The views through which what the scratch buffers and the result window hold is stated. -/
abbrev VS0_0 : View sig .tc .vmem S1x1 .f32 := scM0_0.view
abbrev VS0_1 : View sig .tc .vmem S3x1 .f32 := scM0_1.view
abbrev VO0_8 : View sig .tc .vmem S4x1 .f32 := (Memref.whole cc0_stg8_0 : Memref sig .tc .vmem S4x1 .f32).view

/-! ## The region invariant with the two scratch operands as memrefs -/

/-- The scoped buffers of the other pallas_call, each whole at some contents: they ride along untouched. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f))

/-- The class invariant with the two scratch operands as memrefs owned at some contents, the other call's
    scoped buffers as one conjunct, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA; rw [scopedRest0_eq]; unfold Rest0; simp only [scM0_0, scM0_1, owns_whole]; try rfl

end Cert.Kernel.H

end
-- ==== Proof.Kernel.R0RunA.lean ====
import proofs.«134128_j58669253263727_2_alg».proof.Proof.Kernel.R0Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body at the first point (the first conditional taken, the second not), on whole memrefs: the eight input
    windows at their contents, both scratch buffers at anything. It runs to the continuation holding the inputs as
    they were and each scratch buffer with the pieces its stores wrote (`LS0`: the zero, then the first block sum added
    to it; `LS1`: the three whole-array sums). The pieces are found by the run. -/
noncomputable def kernelRun0_A (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) :
    Σ' (LS0 : List (View.Piece (Elt F) S1x1 .f32)), { LS1 : List (View.Piece (Elt F) S3x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.H

end
-- ==== Proof.Kernel.R0RunB.lean ====
import proofs.«134128_j58669253263727_2_alg».proof.Proof.Kernel.R0Runs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The body at the last point (the first conditional not taken, the second taken), on whole memrefs: the two
    blocked input windows at their contents, the result window's buffer at anything, the 1×1 scratch at the running sum
    the first point left (`xs0`) and the 3×1 scratch at the three sums it left (`xs1`). It runs to the continuation
    holding the inputs and the 3×1 scratch as they were, the 1×1 scratch with the piece its store wrote (`LS0`) and
    the result window's buffer with the piece assembled from the two scratch buffers (`L8`). The pieces are found by
    the run. -/
noncomputable def kernelRun0_B (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : ¬cond0_0 i) (hc1 : cond0_1 i)
    (x4 : Vec F S4x512x256 .f32) (x5 : Vec F S4x512x256 .f32) (xs0 : Vec F S1x1 .f32) (xs1 : Vec F S3x1 .f32) :
    Σ' (L8 : List (View.Piece (Elt F) S4x1 .f32)), { LS0 : List (View.Piece (Elt F) S1x1 .f32) //
      ∀ (E : Set ℕ) (K : PUnit → sProp 𝕄),
        iprop(owns (c : Thread nD τ) arg5 fullShare x4 ∗ owns (c : Thread nD τ) arg6 fullShare x5 ∗ (∃ d, owns (c : Thread nD τ) arg9 fullShare d) ∗ owns (c : Thread nD τ) arg10 fullShare xs0 ∗ owns (c : Thread nD τ) arg11 fullShare xs1
            ∗ (iprop(owns (c : Thread nD τ) arg5 fullShare x4 ∗ owns (c : Thread nD τ) arg6 fullShare x5 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ owns (c : Thread nD τ) arg11 fullShare xs1) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_kernel_eq_skeleton]; unfold cc0_kernel_skel
    unfold owns
    iintro ⟨⟨%f4, %hf4, H4⟩, ⟨%f5, %hf5, H5⟩, ⟨%d8, %f8, -, H8⟩, ⟨%fs0, %hfs0, HS0⟩, ⟨%fs1, %hfs1, HS1⟩, Hk⟩
    obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H4]
    · iexists _; isplitr; · ipureintro; exact harg5.read_unread _
      iexact H4
    isplitl [H5]
    · iexists _; isplitr; · ipureintro; exact harg6.read_unread _
      iexact H5
    isplitl [H8]; · iexists _; iexact H8
    isplitl [HS0]; · iexists _; iexact HS0
    iexists _; isplitr; · ipureintro; exact harg11.read_unread _
    iexact HS1

end Cert.Kernel.H

end
-- ==== Proof.Kernel.R0.lean ====
import proofs.«134128_j58669253263727_2_alg».proof.Proof.Kernel.R0RunA
import proofs.«134128_j58669253263727_2_alg».proof.Proof.Kernel.R0RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The first pallas_call: proof data, body obligation and what its result window holds

Everything here is stated at a parameter `V`: the TensorCore's buffer contents when the region is entered. -/

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the scratch buffers and in the result window -/

/-- The first point's pieces for the 1×1 scratch cover it. -/
theorem scover0_A_0 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S1x1.size (by sl_kernel_rfl) y

/-- What the first point leaves in the 1×1 scratch: the canonical contents of its pieces. -/
def sout0_A_0 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) : Vec F S1x1 .f32 :=
  View.canon (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1

/-- The first point's pieces for the 3×1 scratch cover it. -/
theorem scover0_A_1 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) (y : S3x1.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S3x1.size (by sl_kernel_rfl) y

/-- What the first point leaves in the 3×1 scratch. -/
def sout0_A_1 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) : Vec F S3x1 .f32 :=
  View.canon (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1

/-- The last point's pieces for the result window cover its block. -/
theorem cover0_B_8 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : ¬cond0_0 i) (hc1 : cond0_1 i)
    (x4 : Vec F S4x512x256 .f32) (x5 : Vec F S4x512x256 .f32) (xs0 : Vec F S1x1 .f32) (xs1 : Vec F S3x1 .f32) (y : S4x1.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x4 x5 xs0 xs1).1 S4x1.size (by sl_kernel_rfl) y

/-- What the last point leaves in the result window's staging buffer. -/
def out0_B_8 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : ¬cond0_0 i) (hc1 : cond0_1 i)
    (x4 : Vec F S4x512x256 .f32) (x5 : Vec F S4x512x256 .f32) (xs0 : Vec F S1x1 .f32) (xs1 : Vec F S3x1 .f32) : Vec F S4x1 .f32 :=
  View.canon (kernelRun0_B c i arg1 harg1 arg2 harg2 arg3 harg3 arg4 harg4 arg5 harg5 arg6 harg6 arg7 harg7 arg8 harg8 arg9 harg9 arg10 harg10 arg11 harg11 hc0 hc1 x4 x5 xs0 xs1).1

/-! ## The two points -/

theorem r0_hA0 : cond0_0 (grid0.coords t0_0) := (hcond0_0 t0_0).mpr rfl
theorem r0_hA1 : ¬cond0_1 (grid0.coords t0_0) := fun h => absurd ((hcond0_1 t0_0).mp h) (by decide)
theorem r0_hB0 : ¬cond0_0 (grid0.coords t0_1) := fun h => absurd ((hcond0_0 t0_1).mp h) (by decide)
theorem r0_hB1 : cond0_1 (grid0.coords t0_1) := (hcond0_1 t0_1).mpr rfl

/-- The running sum the first point leaves in the 1×1 scratch, -/
def s0A_0 (c : Dev nD) : Vec F S1x1 .f32 :=
  sout0_A_0 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)
/-- and the three whole-array sums it leaves in the 3×1 scratch. -/
def s0A_1 (c : Dev nD) : Vec F S3x1 .f32 :=
  sout0_A_1 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)
/-- The result block the last point assembles from them and its own block sum. -/
def out0B_8 (c : Dev nD) : Vec F S4x1 .f32 :=
  out0_B_8 c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) scM0_0 (Memref.isWhole_whole _) scM0_1 (Memref.isWhole_whole _) r0_hB0 r0_hB1 (iblk0 V c 4 t0_1) (iblk0 V c 5 t0_1) (s0A_0 V c) (s0A_1 V c)

/-- The region invariant before position `n`: before the first point the class's (every scratch at anything); between the
    two points the scoped rest with both scratch buffers at what the first point left; after the last point the
    class's again (the named contents forgotten). -/
def PhiS0 (c : Dev nD) : ℕ → sProp 𝕄
  | 0 => Pipeline.ΦA spec0 c
  | 1 => iprop(iprop(owns (c : Thread nD τ) scM0_0 fullShare (s0A_0 V c) ∗ owns (c : Thread nD τ) scM0_1 fullShare (s0A_1 V c) ∗ Rest0 (F := F) c) ∗ (∃ r, prngReg c r))
  | _ + 2 => Pipeline.ΦA spec0 c

/-! ## The pipeline's proof data -/

/-- The proof data of the first pallas_call on core `c`: the arrays as the region finds them; after the body each
    input's buffer at its block, the result window's at what the last point assembles (at the first point the window is
    idle and not written back, so what is stated there is never consulted); the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0B_8 V c
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0B_8 V c := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- An input window is never idle: the body hands its buffer back at its block. -/
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) : (dat0 V c).leavesExact 5 t = owns (c : Thread nD τ) (ms0_5 t) fullShare (iblk0 V c 5 t) := by
  unfold Dat.leavesExact; rw [liveAt0_5 t, after0_5]
theorem leaves0_6 (c : Dev nD) (t : Fin cfg0.N) : (dat0 V c).leavesExact 6 t = owns (c : Thread nD τ) (ms0_6 t) fullShare (iblk0 V c 6 t) := by
  unfold Dat.leavesExact; rw [liveAt0_6 t, after0_6]
theorem leaves0_7 (c : Dev nD) (t : Fin cfg0.N) : (dat0 V c).leavesExact 7 t = owns (c : Thread nD τ) (ms0_7 t) fullShare (iblk0 V c 7 t) := by
  unfold Dat.leavesExact; rw [liveAt0_7 t, after0_7]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at the first point: the inputs' memrefs hold their blocks, the invariant hands over both scratch buffers at
    anything, the run applies; both scratch buffers come back at the contents their pieces cover them with, the result
    window's buffer untouched. -/
theorem sound_body0_A (c : Dev nD) :
    bodyPre0 V c t0_0 ⊢ wp frame (wpE (defs₀ (F := F)) Variants.none c none) Set.univ (bodyAt0 t0_0) (fun _ => bodyPost0 V c t0_0) := by
  unfold bodyPre0 bodyPost0 bodyAt0
  simp only [before0_0, before0_1, before0_2, before0_3, before0_4, before0_5, before0_6, before0_7]
  rw [show (dat0 V c).owesAt () t0_0.succ = (dat0 V c).owesAt () t0_0.castSucc from rfl]
  rw [show (dat0 V c).Φ t0_0.succ = iprop(iprop(owns (c : Thread nD τ) scM0_0 fullShare (s0A_0 V c) ∗ owns (c : Thread nD τ) scM0_1 fullShare (s0A_1 V c) ∗ Rest0 (F := F) c) ∗ (∃ r, prngReg c r)) from rfl]
  rw [show (dat0 V c).Φ t0_0.castSucc = Pipeline.ΦA spec0 c from rfl, PhiA0_eq]
  rw [leaves0_0, leaves0_1, leaves0_2, leaves0_3, leaves0_4, leaves0_5, leaves0_6, leaves0_7]
  rw [Dat.leavesExact_idle (dat0 V c) 8 t0_0 (idleAt0_8_A t0_0 r0_hA0 r0_hA1) (noFlush0_8_A t0_0 r0_hA0 r0_hA1)]
  unfold s0A_0 s0A_1 sout0_A_0 sout0_A_1
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t0_0) _ _ _ _ _ _ _ _ _ _ _ _ _ _ _ _ _ _ _ _ _ _ r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%es0, HS0⟩, ⟨%es1, HS1⟩⟩
  isplitl [HS0 HS1 HR Hg]
  · isplitl [HS0 HS1 HR]
    · isplitl [HS0]
      · unfold owns; iexists _; isplitr
        swap; · iexact HS0
        ipureintro; exact View.read_writes_eq_canon _ _ _ (scover0_A_0 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0))
      isplitl [HS1]
      · unfold owns; iexists _; isplitr
        swap; · iexact HS1
        ipureintro; exact View.read_writes_eq_canon _ _ _ (scover0_A_1 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0))
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the last point: the invariant hands over both scratch buffers at what the first point left, the result
    window's buffer is at anything, the run applies; the scratch buffers' named contents are forgotten, the result window's
    buffer comes back at the contents its piece covers it with, the inputs the case does not read untouched. -/
theorem sound_body0_B (c : Dev nD) :
    bodyPre0 V c t0_1 ⊢ wp frame (wpE (defs₀ (F := F)) Variants.none c none) Set.univ (bodyAt0 t0_1) (fun _ => bodyPost0 V c t0_1) := by
  unfold bodyPre0 bodyPost0 bodyAt0
  simp only [before0_0, before0_1, before0_2, before0_3, before0_4, before0_5, before0_6, before0_7]
  rw [show (dat0 V c).owesAt () t0_1.succ = (dat0 V c).owesAt () t0_1.castSucc from rfl]
  rw [show (dat0 V c).Φ t0_1.castSucc = iprop(iprop(owns (c : Thread nD τ) scM0_0 fullShare (s0A_0 V c) ∗ owns (c : Thread nD τ) scM0_1 fullShare (s0A_1 V c) ∗ Rest0 (F := F) c) ∗ (∃ r, prngReg c r)) from rfl]
  rw [show (dat0 V c).Φ t0_1.succ = Pipeline.ΦA spec0 c from rfl, PhiA0_eq]
  rw [leaves0_0, leaves0_1, leaves0_2, leaves0_3, leaves0_4, leaves0_5, leaves0_6, leaves0_7]
  rw [show (dat0 V c).leavesExact 8 t0_1 = owns (c : Thread nD τ) (ms0_8 t0_1) fullShare ((dat0 V c).after 8 t0_1) from by
    unfold Dat.leavesExact; rw [liveAt0_8_B t0_1 r0_hB0 r0_hB1], after0_8]
  unfold out0B_8 out0_B_8
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t0_1) _ _ _ _ _ _ _ _ _ _ _ _ _ _ _ _ _ _ _ _ _ _ r0_hB0 r0_hB1 (iblk0 V c 4 t0_1) (iblk0 V c 5 t0_1) (s0A_0 V c) (s0A_1 V c)).2.2 Set.univ _)
  isplitl [H4]; · iexact H4
  isplitl [H5]; · iexact H5
  isplitl [H8]; · iexists _; iexact H8
  isplitl [HS0]; · iexact HS0
  isplitl [HS1]; · iexact HS1
  iintro ⟨H4, H5, ⟨%e8, H8⟩, ⟨%es0, HS0⟩, HS1⟩
  isplitl [HS0 HS1 HR Hg]
  · isplitl [HS0 HS1 HR]
    · isplitl [HS0]
      · iexists _; unfold owns; iexists _; isplitr
        swap; · iexact HS0
        ipureintro; rfl
      isplitl [HS1]; · iexists _; iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_eq_canon _ _ _ (cover0_B_8 c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) scM0_0 (Memref.isWhole_whole _) scM0_1 (Memref.isWhole_whole _) r0_hB0 r0_hB1 (iblk0 V c 4 t0_1) (iblk0 V c 5 t0_1) (s0A_0 V c) (s0A_1 V c))

/-- The body at either point. -/
theorem sound_body0 (c : Dev nD) (t : Fin cfg0.N) :
    bodyPre0 V c t ⊢ wp frame (wpE (defs₀ (F := F)) Variants.none c none) Set.univ (bodyAt0 t) (fun _ => bodyPost0 V c t) := by
  rcases fin_N0 t with rfl | rfl
  · exact sound_body0_A V c
  · exact sound_body0_B V c

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant is the class's again. -/
theorem hout0 (c : Dev nD) : (dat0 V c).Φ (Fin.last cfg0.N) ⊢ Pipeline.ΦA spec0 c := by
  rw [show (dat0 V c).Φ (Fin.last cfg0.N) = Pipeline.ΦA spec0 c from rfl]

end Region0

end Cert.Kernel.H

end
-- ==== Proof.Kernel.R1State.lean ====
/- What the second kernel's three scratch buffers hold after each grid point, as a pure recursion over the point number
   t = 64 b + 8 n + m (batch b, row tile n, column tile m): the running row minimum (reset at every m = 0), the running
   column minimum (one block of 1024 columns per m, reset at n = 0) and the running sum of the rows' distances (reset at
   n = m = 0, added to at every m = 7). -/
import proofs.«134128_j58669253263727_2_alg».proof.Proof.Gen.Kernel.Launch
import proofs.«134128_j58669253263727_2_alg».proof.Proof.Gen.Kernel.Skeleton
import proofs.«134128_j58669253263727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The three scratch buffers' contents: row minima (1024×1), column minima (1×8192), running sum (1×1). -/
abbrev St (F : FTy → Type) : Type := Vec F S1024x1 .f32 × Vec F S1x8192 .f32 × Vec F S1x1 .f32

/-- Block `j` (columns 1024 j … 1024 j + 1023) of a 1×8192 row. -/
def blk8 (g : Vec F S1x8192 .f32) (j : ℕ) : Vec F S1x1024 .f32 :=
  fun y => g (ix2 0 ⟨(1024 * j + (y 1).val) % 8192, Nat.mod_lt _ (by norm_num)⟩)

/-- A 1×8192 row with block `j` replaced by `p`. -/
def upd8 (g : Vec F S1x8192 .f32) (j : ℕ) (p : Vec F S1x1024 .f32) : Vec F S1x8192 .f32 :=
  fun y => if (y 1).val / 1024 = j then p (ix2 0 ⟨(y 1).val % 1024, Nat.mod_lt _ (by norm_num)⟩) else g y

/-- One grid point's effect on the scratch buffers: point number `t`, the point's x block and y block. -/
def step1 (t : ℕ) (x y : Vec F S1x1024x3 .f32) (s : St F) : St F :=
  let s7 : Vec F S1024x1 .f32 := if t % 8 = 0 then k1_pay10 x y else k1_pay11 x y s.1
  let g8 : Vec F S1x8192 .f32 :=
    if t % 64 < 8 then upd8 s.2.1 (t % 8) (k1_pay1 (k1_pay9 x y))
    else upd8 s.2.1 (t % 8) (k1_pay2 (k1_pay9 x y) (blk8 s.2.1 (t % 8)))
  let s9a : Vec F S1x1 .f32 := if t % 64 = 0 then k1_pay6 else s.2.2
  let s9 : Vec F S1x1 .f32 := if t % 8 = 7 then k1_pay3 s7 s9a else s9a
  (s7, g8, s9)

/-- The scratch buffers after the first `k` points of a schedule of blocks `xs`, `ys`; before the first point, an arbitrary value
    that no point reads. -/
def run1 (xs ys : ℕ → Vec F S1x1024x3 .f32) : ℕ → St F
  | 0 => (constant S1024x1 .f32 0x00000000#32, constant S1x8192 .f32 0x00000000#32, constant S1x1 .f32 0x00000000#32)
  | k + 1 => step1 k (xs k) (ys k) (run1 xs ys k)

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x blocks and y blocks the grid's points are handed, by point number. -/
def xsOf (c : Dev nD) : ℕ → Vec F S1x1024x3 .f32 := fun k => if h : k < cfg1.N then iblk1 V c 0 ⟨k, h⟩ else constant S1x1024x3 .f32 0x00000000#32
def ysOf (c : Dev nD) : ℕ → Vec F S1x1024x3 .f32 := fun k => if h : k < cfg1.N then iblk1 V c 1 ⟨k, h⟩ else constant S1x1024x3 .f32 0x00000000#32

/-- The scratch buffers after the first `k` grid points. -/
def st1 (c : Dev nD) (k : ℕ) : St F := run1 (xsOf V c) (ysOf V c) k

theorem st1_succ (c : Dev nD) (t : Fin cfg1.N) : st1 V c (t.val + 1) = step1 t.val (iblk1 V c 0 t) (iblk1 V c 1 t) (st1 V c t.val) := by
  show step1 t.val (xsOf V c t.val) (ysOf V c t.val) (st1 V c t.val) = _
  unfold xsOf ysOf
  rw [dif_pos t.isLt, dif_pos t.isLt]

end Cert.Kernel.H

end
-- ==== Proof.Kernel.R1Pre.lean ====
import proofs.«134128_j58669253263727_2_alg».proof.Proof.Gen.Kernel.Launch
import proofs.«134128_j58669253263727_2_alg».proof.Proof.Gen.Kernel.Skeleton
import proofs.«134128_j58669253263727_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The second kernel's branch conditions, from the grid coordinates (b, n, m) = (i 0, i 1, i 2) -/

/-- n = 0 and m = 0: the running sum is reset. -/
abbrev c1_1 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- m = 0: the running row minimum is started. -/
abbrev c1_2 (i : grid1.Coords) : Prop := (Scalar.cmpi .ne (Scalar.extui (Scalar.cmpi .eq (BitVec.ofNat 32 (i 2).val) 0#32)) 0#32) = 1#1
/-- m ≠ 0: the running row minimum is continued. -/
abbrev c1_3 (i : grid1.Coords) : Prop := (Scalar.cmpi .ne (Scalar.extui (Scalar.cmpi .ne (BitVec.ofNat 32 (i 2).val) 0#32)) 0#32) = 1#1
/-- n = 0: the column block of the running column minimum is started. -/
abbrev c1_4 (i : grid1.Coords) : Prop := k1_cond4 i = 1#1
/-- n ≠ 0: the column block of the running column minimum is continued. -/
abbrev c1_5 (i : grid1.Coords) : Prop := k1_cond5 i = 1#1
/-- m = 7: the finished row minimum is added to the running sum. -/
abbrev c1_6 (i : grid1.Coords) : Prop := (Scalar.cmpi .ne (Scalar.extui (Scalar.cmpi .eq (BitVec.ofNat 32 (i 2).val) 7#32)) 0#32) = 1#1
/-- n = 7 and m = 7: the two outputs are stored. -/
abbrev c1_7 (i : grid1.Coords) : Prop := k1_cond7 i = 1#1

theorem hc1_1 : ∀ t : Fin cfg1.N, c1_1 (grid1.coords t) ↔ t.val % 64 = 0 :=
  (by decide +kernel : ∀ t : Fin grid1.N, c1_1 (grid1.coords t) ↔ t.val % 64 = 0)
theorem hc1_2 : ∀ t : Fin cfg1.N, c1_2 (grid1.coords t) ↔ t.val % 8 = 0 :=
  (by decide +kernel : ∀ t : Fin grid1.N, c1_2 (grid1.coords t) ↔ t.val % 8 = 0)
theorem hc1_3 : ∀ t : Fin cfg1.N, c1_3 (grid1.coords t) ↔ ¬ t.val % 8 = 0 :=
  (by decide +kernel : ∀ t : Fin grid1.N, c1_3 (grid1.coords t) ↔ ¬ t.val % 8 = 0)
theorem hc1_4 : ∀ t : Fin cfg1.N, c1_4 (grid1.coords t) ↔ t.val % 64 < 8 :=
  (by decide +kernel : ∀ t : Fin grid1.N, c1_4 (grid1.coords t) ↔ t.val % 64 < 8)
theorem hc1_5 : ∀ t : Fin cfg1.N, c1_5 (grid1.coords t) ↔ ¬ t.val % 64 < 8 :=
  (by decide +kernel : ∀ t : Fin grid1.N, c1_5 (grid1.coords t) ↔ ¬ t.val % 64 < 8)
theorem hc1_6 : ∀ t : Fin cfg1.N, c1_6 (grid1.coords t) ↔ t.val % 8 = 7 :=
  (by decide +kernel : ∀ t : Fin grid1.N, c1_6 (grid1.coords t) ↔ t.val % 8 = 7)
theorem hc1_7 : ∀ t : Fin cfg1.N, c1_7 (grid1.coords t) ↔ t.val % 64 = 63 :=
  (by decide +kernel : ∀ t : Fin grid1.N, c1_7 (grid1.coords t) ↔ t.val % 64 = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬c1_7 (grid1.coords t) → cfg1.idle 2 (grid1.coords t) = true := by decide +kernel
theorem idleAt1_3 : ∀ t : Fin cfg1.N, ¬c1_7 (grid1.coords t) → cfg1.idle 3 (grid1.coords t) = true := by decide +kernel
theorem noFlush1_2 : ∀ t : Fin cfg1.N, ¬c1_7 (grid1.coords t) → (cfg1.win 2).flush t = false := by decide +kernel
theorem noFlush1_3 : ∀ t : Fin cfg1.N, ¬c1_7 (grid1.coords t) → (cfg1.win 3).flush t = false := by decide +kernel
theorem liveAt1_2 : ∀ t : Fin cfg1.N, c1_7 (grid1.coords t) → cfg1.idle 2 (grid1.coords t) = false := by decide +kernel
theorem liveAt1_3 : ∀ t : Fin cfg1.N, c1_7 (grid1.coords t) → cfg1.idle 3 (grid1.coords t) = false := by decide +kernel

/-! ## The staging and scratch memrefs -/

abbrev ms1_0 (t : Fin cfg1.N) : Memref sig .tc .vmem S1x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The running row minimum. -/
abbrev scM1_0 : Memref sig .tc .vmem S1024x1 .f32 := Memref.whole cc1_scratch0
/-- The running column minimum. -/
abbrev scM1_1 : Memref sig .tc .vmem S1x8192 .f32 := Memref.whole cc1_scratch1
/-- The running sum. -/
abbrev scM1_2 : Memref sig .tc .vmem S1x1 .f32 := Memref.whole cc1_scratch2

/-- The scoped buffers that are neither a staging buffer nor a scratch operand of the second kernel, each at
    some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant of the second kernel with its three scratch operands as owned memrefs. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ Rest1 (F := F) c ∗ (∃ r, prngReg c r)) := by
  unfold Pipeline.ΦA Rest1; rw [scopedRest1_eq]; simp only [scM1_0, scM1_1, scM1_2, owns_whole]
  refine BI.equiv_iff.mp ⟨?_, ?_⟩
  · show (_ : sProp 𝕄) ⊢ _
    iintro ⟨⟨A1, A2, A3, A4, A5, A6, A7, A8, A9, A10, A11, A12, A13, S0, S1, S2⟩, P⟩
    isplitl [S0]; · iexact S0
    isplitl [S1]; · iexact S1
    isplitl [S2]; · iexact S2
    isplitr [P]; swap; · iexact P
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  · show (_ : sProp 𝕄) ⊢ _
    iintro ⟨S0, S1, S2, ⟨A1, A2, A3, A4, A5, A6, A7, A8, A9, A10, A11, A12, A13⟩, P⟩
    isplitr [P]; swap; · iexact P
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [S0]; · iexact S0
    isplitl [S1]; · iexact S1
    iexact S2

end Cert.Kernel.H

end
-- ==== Proof.Kernel.R1.lean ====
/- The second kernel region's proof data: what each window's buffer holds after the body at each grid point, the
   region invariant — the three scratch buffers at the contents the recursion `st1` names, the column-minimum buffer
   only on the columns already written since the launch — with the entailments at the region's two ends. -/
import proofs.«134128_j58669253263727_2_alg».proof.Proof.Gen.Kernel.Launch
import proofs.«134128_j58669253263727_2_alg».proof.Proof.Gen.Kernel.Skeleton
import proofs.«134128_j58669253263727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«134128_j58669253263727_2_alg».proof.Proof.Kernel.R1State
import proofs.«134128_j58669253263727_2_alg».proof.Proof.Kernel.R1Pre

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The invariant -/

/-- Two column-minimum rows agree on the columns the first `k` points have written since the launch (block `j` is first
    written at point `j`; from point 8 on every column has been). -/
def Agree (k : ℕ) (s g : Vec F S1x8192 .f32) : Prop := ∀ y : S1x8192.Idx, (y 1).val < 1024 * k → s y = g y

theorem Agree.full {k : ℕ} {s g : Vec F S1x8192 .f32} (h : Agree k s g) (hk : 8 ≤ k) : s = g :=
  funext fun y => h y (by have := (y 1).isLt; show (y 1).val < 1024 * k; have : (y 1).val < 8192 := (y 1).isLt; omega)

theorem Agree.upd {k j : ℕ} {s g : Vec F S1x8192 .f32} (h : Agree k s g) (hj : 8 ≤ k ∨ j = k) (p : Vec F S1x1024 .f32) :
    Agree (k + 1) (upd8 s j p) (upd8 g j p) := by
  intro y hy
  unfold upd8
  by_cases hy' : (y 1).val / 1024 = j
  · rw [if_pos hy', if_pos hy']
  · rw [if_neg hy', if_neg hy']
    refine h y ?_
    have : (y 1).val < 8192 := (y 1).isLt
    rcases hj with hk | rfl
    · omega
    · omega

/-- What the scratch buffers hold before point `k`: after the first point the row minima and the running sum exactly
    what `st1` names, the column minima on the columns written so far. -/
def Inv1 (c : Dev nD) (k : ℕ) (s7 : Vec F S1024x1 .f32) (s8 : Vec F S1x8192 .f32) (s9 : Vec F S1x1 .f32) : Prop :=
  (1 ≤ k → s7 = (st1 V c k).1 ∧ s9 = (st1 V c k).2.2) ∧ Agree k s8 (st1 V c k).2.1

/-- The region invariant before point `k`. -/
def Phi1 (c : Dev nD) (k : ℕ) : sProp 𝕄 :=
  iprop(∃ s7, ∃ s8, ∃ s9, owns (c : Thread nD τ) scM1_0 fullShare s7 ∗ owns (c : Thread nD τ) scM1_1 fullShare s8
    ∗ owns (c : Thread nD τ) scM1_2 fullShare s9 ∗ ⌜Inv1 V c k s7 s8 s9⌝ ∗ Rest1 (F := F) c ∗ (∃ r, prngReg c r))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay4 (st1 V c (t.val + 1)).2.2
    | ⟨3, _⟩ => k1_pay5 (st1 V c (t.val + 1)).2.1
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay4 (st1 V c (t.val + 1)).2.2 := by dsimp only [dat1]
theorem after1_3 (c : Dev nD) (t : Fin cfg1.N) : (dat1 V c).after 3 t = k1_pay5 (st1 V c (t.val + 1)).2.1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the launch hands the region is the invariant before the first point. -/
theorem hin1 (c : Dev nD) : Pipeline.ΦA spec1 c ⊢ (dat1 V c).Φ 0 := by
  rw [show (dat1 V c).Φ 0 = Phi1 V c 0 from rfl, PhiA1_eq]
  unfold Phi1
  iintro ⟨⟨%d7, H7⟩, ⟨%d8, H8⟩, ⟨%d9, H9⟩, Hr, Hg⟩
  iexists d7; iexists d8; iexists d9
  isplitl [H7]; · iexact H7
  isplitl [H8]; · iexact H8
  isplitl [H9]; · iexact H9
  isplitr
  · ipureintro
    exact ⟨fun h => absurd h (by decide), fun y hy => absurd hy (by omega)⟩
  isplitl [Hr]; · iexact Hr
  iexact Hg

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl, PhiA1_eq]
  unfold Phi1
  iintro ⟨%s7, %s8, %s9, H7, H8, H9, -, Hr, Hg⟩
  isplitl [H7]; · iexists _; iexact H7
  isplitl [H8]; · iexists _; iexact H8
  isplitl [H9]; · iexists _; iexact H9
  isplitl [Hr]; · iexact Hr
  iexact Hg

end Cert.Kernel.H

end
-- ==== Proof.Kernel.R1Pure.lean ====
/- Pure facts behind the second region's body obligation: what one covering store, one block store and one block
   load read as, where a point's column block sits, and the invariant's step from one grid point to the next. -/
import proofs.«134128_j58669253263727_2_alg».proof.Proof.Gen.Kernel.Launch
import proofs.«134128_j58669253263727_2_alg».proof.Proof.Gen.Kernel.Skeleton
import proofs.«134128_j58669253263727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import proofs.«134128_j58669253263727_2_alg».proof.Proof.Kernel.R1

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- One store through the whole buffer (the rectangle of the buffer's own sizes at offset zero) leaves its payload,
    whatever the buffer held. -/
theorem read_whole_store {S : Shape} {sp : Space} (v : View sig .tc sp S .f32) (f : v.ty.Contents (Elt F))
    {off : Fin S.rank → Nat} (hz : off = fun _ => 0) (inb : ∀ a, off a + S.size a ≤ S.size a) (p : S.Idx → Elt F .f32) :
    v.read (Elt F) (v.writes (Elt F) f [⟨Rect.unit off S.size inb, p⟩]) = p := by
  rw [View.read_writes_eq_canon _ _ _ (fun y => ⟨_, List.mem_singleton_self _, View.mem_set_unit_zero hz inb y⟩),
    View.canon_unit_zero hz]

/-- No store leaves the contents. -/
theorem read_no_store {S : Shape} {sp : Space} (m : Memref sig .tc sp S .f32) (h : m.IsWhole) (s : S.Idx → Elt F .f32) :
    m.view.read (Elt F) (m.view.writes (Elt F) (h.unread s) []) = s := by
  rw [View.writes_nil, h.read_unread]

/-- A store of a 1×1024 block at column offset 1024 j into a 1×8192 row replaces block j. -/
theorem read_block_store {sp : Space} (m : Memref sig .tc sp S1x8192 .f32) (h : m.IsWhole) (s : Vec F S1x8192 .f32)
    {off : Fin 2 → Nat} (j : ℕ) (hoff : off = ![0, 1024 * j]) (inb : ∀ a, off a + S1x1024.size a ≤ S1x8192.size a)
    (p : Vec F S1x1024 .f32) :
    m.view.read (Elt F) (m.view.writes (Elt F) (h.unread s) [⟨Rect.unit (s := S1x8192) off S1x1024.size inb, p⟩]) = upd8 s j p := by
  subst hoff
  funext y
  have hy1 : (y 1).val < 8192 := (y 1).isLt
  have hy0 : (y 0).val = 0 := by have : (y 0).val < 1 := (y 0).isLt; omega
  by_cases hj : (y 1).val / 1024 = j
  · have hyx : y = (Rect.unit (s := S1x8192) ![0, 1024 * j] S1x1024.size inb).emb
        (ix2 (0 : Fin 1) (⟨(y 1).val % 1024, Nat.mod_lt _ (by norm_num)⟩ : Fin 1024)) := by
      funext a
      match a with
      | ⟨0, _⟩ => exact Fin.ext (by rw [Rect.emb_apply]; show (y 0).val = 0 + 1 * 0; omega)
      | ⟨1, _⟩ => exact Fin.ext (by rw [Rect.emb_apply]; show (y 1).val = 1024 * j + 1 * ((y 1).val % 1024); omega)
    have key := View.read_writes_cons_emb m.view (h.unread s) (Rect.unit (s := S1x8192) ![0, 1024 * j] S1x1024.size inb) p []
      (ix2 (0 : Fin 1) (⟨(y 1).val % 1024, Nat.mod_lt _ (by norm_num)⟩ : Fin 1024))
    refine (congrArg (m.view.read (Elt F) (m.view.writes (Elt F) (h.unread s) [⟨Rect.unit (s := S1x8192) ![0, 1024 * j] S1x1024.size inb, p⟩])) hyx).trans (key.trans ?_)
    unfold upd8; rw [if_pos hj]
  · have hnot : y ∉ (Rect.unit (s := S1x8192) ![0, 1024 * j] S1x1024.size inb).set := by
      rw [Rect.mem_set_unit]
      intro hall
      have h1 : 1024 * j ≤ (y 1).val ∧ (y 1).val < 1024 * j + 1024 := hall 1
      omega
    rw [View.read_writes_apply_of_forall_not_mem _ _ y _ (fun p' hp' => by rw [List.mem_singleton.mp hp']; exact hnot), h.read_unread]
    unfold upd8; rw [if_neg hj]

/-- A load of the 1×1024 block at column offset 1024 j of a 1×8192 row reads block j. -/
theorem ld_block (s : Vec F S1x8192 .f32) {off : Fin 2 → Nat} (j : ℕ) (hj : j < 8) (hoff : off = ![0, 1024 * j])
    (inb : ∀ a, off a + S1x1024.size a ≤ S1x8192.size a) :
    View.ld s (Rect.unit (s := S1x8192) off S1x1024.size inb) = blk8 s j := by
  subst hoff
  funext x
  show s ((Rect.unit (s := S1x8192) ![0, 1024 * j] S1x1024.size inb).emb x) = _
  unfold blk8
  refine congrArg s (funext fun a => ?_)
  have hx1 : (x 1).val < 1024 := (x 1).isLt
  match a with
  | ⟨0, _⟩ => exact Fin.ext (by rw [Rect.emb_apply]; show 0 + 1 * (x 0).val = 0; have : (x 0).val < 1 := (x 0).isLt; omega)
  | ⟨1, _⟩ => exact Fin.ext (by rw [Rect.emb_apply]; show 1024 * j + 1 * (x 1).val = (1024 * j + (x 1).val) % 8192; omega)

/-- The column block a point writes: block m = t % 8. -/
theorem off1_eq : ∀ t : Fin cfg1.N, k1_off1 (grid1.coords t) = ![0, 1024 * (t.val % 8)] :=
  (by decide +kernel : ∀ t : Fin grid1.N, k1_off1 (grid1.coords t) = ![0, 1024 * (t.val % 8)])
theorem off2_eq : ∀ t : Fin cfg1.N, k1_off2 (grid1.coords t) = ![0, 1024 * (t.val % 8)] :=
  (by decide +kernel : ∀ t : Fin grid1.N, k1_off2 (grid1.coords t) = ![0, 1024 * (t.val % 8)])

variable (V : (c : Dev nD) → (b : Ref sig .tc) → Buf (Elt F) ((c : Thread nD τ).loc b))

/-- THE INVARIANT'S STEP: if the scratch buffers satisfy the invariant before point t and the point leaves in them what
    `step1` computes from them, they satisfy it before point t + 1. -/
theorem inv_next (c : Dev nD) (t : Fin cfg1.N) {s7 : Vec F S1024x1 .f32} {s8 : Vec F S1x8192 .f32} {s9 : Vec F S1x1 .f32}
    (hinv : Inv1 V c t.val s7 s8 s9) (n7 : Vec F S1024x1 .f32) (n8 : Vec F S1x8192 .f32) (n9 : Vec F S1x1 .f32)
    (h7 : n7 = if t.val % 8 = 0 then k1_pay10 (iblk1 V c 0 t) (iblk1 V c 1 t) else k1_pay11 (iblk1 V c 0 t) (iblk1 V c 1 t) s7)
    (h8 : n8 = if t.val % 64 < 8 then upd8 s8 (t.val % 8) (k1_pay1 (k1_pay9 (iblk1 V c 0 t) (iblk1 V c 1 t)))
      else upd8 s8 (t.val % 8) (k1_pay2 (k1_pay9 (iblk1 V c 0 t) (iblk1 V c 1 t)) (blk8 s8 (t.val % 8))))
    (h9 : n9 = if t.val % 8 = 7 then k1_pay3 n7 (if t.val % 64 = 0 then k1_pay6 else s9) else (if t.val % 64 = 0 then k1_pay6 else s9)) :
    Inv1 V c (t.val + 1) n7 n8 n9 := by
  obtain ⟨h1, h2⟩ := hinv
  have e7 : n7 = (st1 V c (t.val + 1)).1 := by
    rw [st1_succ, h7]; show _ = if t.val % 8 = 0 then _ else _
    by_cases hm : t.val % 8 = 0
    · rw [if_pos hm, if_pos hm]
    · rw [if_neg hm, if_neg hm, (h1 (by omega)).1]
  refine ⟨fun _ => ⟨e7, ?_⟩, ?_⟩
  · rw [h9, e7, st1_succ]
    show _ = if t.val % 8 = 7 then k1_pay3 (step1 t.val _ _ (st1 V c t.val)).1 (if t.val % 64 = 0 then k1_pay6 else (st1 V c t.val).2.2)
      else (if t.val % 64 = 0 then k1_pay6 else (st1 V c t.val).2.2)
    by_cases hz : t.val % 64 = 0
    · simp only [if_pos hz]
    · simp only [if_neg hz, (h1 (by omega)).2]
  · rw [h8, st1_succ]
    show Agree _ _ (if t.val % 64 < 8 then _ else _)
    by_cases hn : t.val % 64 < 8
    · rw [if_pos hn, if_pos hn]
      exact h2.upd (by omega) _
    · rw [if_neg hn, if_neg hn, h2.full (by omega)]
      exact fun _ _ => rfl

end Cert.Kernel.H

end
-- ==== Proof.Kernel.R1BodyDefs.lean ====
/- The second pallas_call's body obligation: what the body is handed and what it returns at a grid point, and the
   reading of a whole-buffer load. -/
import proofs.«134128_j58669253263727_2_alg».proof.Proof.Kernel.R1Pure

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- A load of a whole memref through the whole-buffer rectangle reads the contents the memref is owned at. -/
theorem r1_ld_whole_unread {S : Shape} {e : EltTy} (m : Memref sig .tc .vmem S e) (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The invariant at a point's start and end, by point number. -/
theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-- An input window is never idle: the body hands its buffer back at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

/-- Away from each batch's last point the two result windows are idle and not written back: their buffers go back as
    they were found. -/
theorem leaves1_2_idle (c : Dev nD) (t : Fin cfg1.N) (h : ¬ t.val % 64 = 63) :
    (dat1 V c).leavesExact 2 t = iprop(∃ d, owns (c : Thread nD τ) (ms1_2 t) fullShare ((dat1 V c).before 2 t d)) :=
  Dat.leavesExact_idle (dat1 V c) 2 t (idleAt1_2 t (fun h' => h ((hc1_7 t).mp h'))) (noFlush1_2 t (fun h' => h ((hc1_7 t).mp h')))
theorem leaves1_3_idle (c : Dev nD) (t : Fin cfg1.N) (h : ¬ t.val % 64 = 63) :
    (dat1 V c).leavesExact 3 t = iprop(∃ d, owns (c : Thread nD τ) (ms1_3 t) fullShare ((dat1 V c).before 3 t d)) :=
  Dat.leavesExact_idle (dat1 V c) 3 t (idleAt1_3 t (fun h' => h ((hc1_7 t).mp h'))) (noFlush1_3 t (fun h' => h ((hc1_7 t).mp h')))

/-- At each batch's last point they are stored into: their buffers go back at what the body leaves. -/
theorem leaves1_2_live (c : Dev nD) (t : Fin cfg1.N) (h : t.val % 64 = 63) :
    (dat1 V c).leavesExact 2 t = owns (c : Thread nD τ) (ms1_2 t) fullShare (k1_pay4 (st1 V c (t.val + 1)).2.2) := by
  unfold Dat.leavesExact; rw [liveAt1_2 t ((hc1_7 t).mpr h), after1_2]
theorem leaves1_3_live (c : Dev nD) (t : Fin cfg1.N) (h : t.val % 64 = 63) :
    (dat1 V c).leavesExact 3 t = owns (c : Thread nD τ) (ms1_3 t) fullShare (k1_pay5 (st1 V c (t.val + 1)).2.1) := by
  unfold Dat.leavesExact; rw [liveAt1_3 t ((hc1_7 t).mpr h), after1_3]

end Cert.Kernel.H

end
-- ==== Proof.Kernel.R1RunA.lean ====
import proofs.«134128_j58669253263727_2_alg».proof.Proof.Kernel.R1Pre

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The second kernel's body in case A: on whole memrefs, the inputs at their contents, the body runs to the
    continuation holding the inputs as they were and every buffer it stored into with its pieces written (last
    first); the pieces are the witness the run finds. -/
noncomputable def kernelRun1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i)
    (x0 x1 : Vec F S1x1024x3 .f32) (xs8 : Vec F S1x8192 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ owns (c : Thread nD τ) arg8 fullShare xs8 ∗ (∃ d, owns (c : Thread nD τ) arg9 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS7) ∗ (arg8.view.loc (c : Thread nD τ) ↦[arg8.view.set]{fullShare} arg8.view.writes (Elt F) (harg8.unread xs8) LS8) ∗ (∃ f, arg9.view.loc (c : Thread nD τ) ↦[arg9.view.set]{fullShare} arg9.view.writes (Elt F) f LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, ?_, fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg8.eq_unread hf8
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexact H8
    iexists _; iexact H9

end Cert.Kernel.H

end
-- ==== Proof.Kernel.R1RunB.lean ====
import proofs.«134128_j58669253263727_2_alg».proof.Proof.Kernel.R1RunA

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The second kernel's body in case B: on whole memrefs, the inputs at their contents, the body runs to the
    continuation holding the inputs as they were and every buffer it stored into with its pieces written (last
    first); the pieces are the witness the run finds. -/
noncomputable def kernelRun1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, [], fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.Kernel.H

end
-- ==== Proof.Kernel.R1RunC.lean ====
import proofs.«134128_j58669253263727_2_alg».proof.Proof.Kernel.R1RunB

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The second kernel's body in case C: on whole memrefs, the inputs at their contents, the body runs to the
    continuation holding the inputs as they were and every buffer it stored into with its pieces written (last
    first); the pieces are the witness the run finds. -/
noncomputable def kernelRun1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, ?_, fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.Kernel.H

end
-- ==== Proof.Kernel.R1RunD.lean ====
import proofs.«134128_j58669253263727_2_alg».proof.Proof.Kernel.R1RunC

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The second kernel's body in case D: on whole memrefs, the inputs at their contents, the body runs to the
    continuation holding the inputs as they were and every buffer it stored into with its pieces written (last
    first); the pieces are the witness the run finds. -/
noncomputable def kernelRun1_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i)
    (x0 x1 : Vec F S1x1024x3 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, [], fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexact H8
    iexact H9

end Cert.Kernel.H

end
-- ==== Proof.Kernel.R1RunE.lean ====
import proofs.«134128_j58669253263727_2_alg».proof.Proof.Kernel.R1RunD

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The second kernel's body in case E: on whole memrefs, the inputs at their contents, the body runs to the
    continuation holding the inputs as they were and every buffer it stored into with its pieces written (last
    first); the pieces are the witness the run finds. -/
noncomputable def kernelRun1_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, [], fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.Kernel.H

end
-- ==== Proof.Kernel.R1RunF.lean ====
import proofs.«134128_j58669253263727_2_alg».proof.Proof.Kernel.R1RunE

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The second kernel's body in case F: on whole memrefs, the inputs at their contents, the body runs to the
    continuation holding the inputs as they were and every buffer it stored into with its pieces written (last
    first); the pieces are the witness the run finds. -/
noncomputable def kernelRun1_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, ?_, fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.Kernel.H

end
-- ==== Proof.Kernel.R1RunG.lean ====
import proofs.«134128_j58669253263727_2_alg».proof.Proof.Kernel.R1RunF

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 1000000 in
/-- The second kernel's body in case G: on whole memrefs, the inputs at their contents, the body runs to the
    continuation holding the inputs as they were and every buffer it stored into with its pieces written (last
    first); the pieces are the witness the run finds. -/
noncomputable def kernelRun1_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H7]; · iexact H7
    isplitl [H8]; · iexact H8
    iexact H9

end Cert.Kernel.H

end
-- ==== Proof.Kernel.R1Pieces.lean ====
import proofs.«134128_j58669253263727_2_alg».proof.Proof.Kernel.R1RunG
import Idealize.ShloMosaic.Lib.Pipeline.Value

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as explicit pieces (last first): every whole-buffer load read as the
    contents, a load of what one covering store left read as its payload, the column block as a load of the
    running column minimum through its rectangle. -/

theorem L2_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).1 = [] := by unfold kernelRun1_A; rfl

theorem L3_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.1 = [] := by unfold kernelRun1_A; rfl

theorem LS7_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.2.1 = [(⟨Rect.unit (s := S1024x1) ![0, 0] S1024x1.size inb_S1024x1_S1024x1_0_0, k1_pay10 x0 x1⟩ : View.Piece (Elt F) S1024x1 .f32)] := by
  unfold kernelRun1_A; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.2.2.1 = [(⟨Rect.unit (s := S1x8192) (k1_off1 i) S1x1024.size (k1_off1_inb i h4), k1_pay1 (k1_pay9 x0 x1)⟩ : View.Piece (Elt F) S1x8192 .f32)] := by
  unfold kernelRun1_A; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.2.2.2.1 = [(⟨Rect.unit (s := S1x1) ![0, 0] S1x1.size inb_S1x1_S1x1_0_0, k1_pay6 (F := F)⟩ : View.Piece (Elt F) S1x1 .f32)] := by
  unfold kernelRun1_A; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L2_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).1 = [] := by unfold kernelRun1_B; rfl

theorem L3_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.1 = [] := by unfold kernelRun1_B; rfl

theorem LS7_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_B; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off1 i) S1x1024.size (k1_off1_inb i h4), k1_pay1 (k1_pay9 x0 x1)⟩ : View.Piece (Elt F) S1x8192 .f32)] := by
  unfold kernelRun1_B; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.2.2.2.1 = [] := by unfold kernelRun1_B; rfl

theorem L2_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).1 = [] := by unfold kernelRun1_C; rfl

theorem L3_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.1 = [] := by unfold kernelRun1_C; rfl

theorem LS7_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_C; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off1 i) S1x1024.size (k1_off1_inb i h4), k1_pay1 (k1_pay9 x0 x1)⟩ : View.Piece (Elt F) S1x8192 .f32)] := by
  unfold kernelRun1_C; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.2.2.2.1 = [(⟨Rect.unit (s := S1x1) ![0, 0] S1x1.size inb_S1x1_S1x1_0_0, k1_pay3 (k1_pay11 x0 x1 xs7) xs9⟩ : View.Piece (Elt F) S1x1 .f32)] := by
  unfold kernelRun1_C; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L2_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).1 = [] := by unfold kernelRun1_D; rfl

theorem L3_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.1 = [] := by unfold kernelRun1_D; rfl

theorem LS7_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.2.1 = [(⟨Rect.unit (s := S1024x1) ![0, 0] S1024x1.size inb_S1024x1_S1024x1_0_0, k1_pay10 x0 x1⟩ : View.Piece (Elt F) S1024x1 .f32)] := by
  unfold kernelRun1_D; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_D; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.2.2.2.1 = [] := by unfold kernelRun1_D; rfl

theorem L2_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).1 = [] := by unfold kernelRun1_E; rfl

theorem L3_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.1 = [] := by unfold kernelRun1_E; rfl

theorem LS7_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_E; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_E; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.2.2.2.1 = [] := by unfold kernelRun1_E; rfl

theorem L2_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).1 = [] := by unfold kernelRun1_F; rfl

theorem L3_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.1 = [] := by unfold kernelRun1_F; rfl

theorem LS7_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_F; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_F; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.2.2.2.1 = [(⟨Rect.unit (s := S1x1) ![0, 0] S1x1.size inb_S1x1_S1x1_0_0, k1_pay3 (k1_pay11 x0 x1 xs7) xs9⟩ : View.Piece (Elt F) S1x1 .f32)] := by
  unfold kernelRun1_F; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L2_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).1 = [(⟨Rect.unit (s := S1x1x1) ![0, 0, 0] S1x1x1.size inb_S1x1x1_S1x1x1_0_0_0, k1_pay4 (k1_pay3 (k1_pay11 x0 x1 xs7) xs9)⟩ : View.Piece (Elt F) S1x1x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L3_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.1 = [(⟨Rect.unit (s := S1x1x1) ![0, 0, 0] S1x1x1.size inb_S1x1x1_S1x1x1_0_0_0, k1_pay5 (arg8.view.read (Elt F) (arg8.view.writes (Elt F) (harg8.unread xs8) [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)]))⟩ : View.Piece (Elt F) S1x1x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS7_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.2.2.2.1 = [(⟨Rect.unit (s := S1x1) ![0, 0] S1x1.size inb_S1x1_S1x1_0_0, k1_pay3 (k1_pay11 x0 x1 xs7) xs9⟩ : View.Piece (Elt F) S1x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

end Cert.Kernel.H

end
-- ==== Proof.Kernel.R1BodyA.lean ====
/- The second pallas_call's body at the first point of a batch (n = 0, m = 0): the running sum is reset, the row minimum
   and the column block's minimum are started. -/
import proofs.«134128_j58669253263727_2_alg».proof.Proof.Kernel.R1BodyDefs
import proofs.«134128_j58669253263727_2_alg».proof.Proof.Kernel.R1Pieces

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_A (c : Dev nD) (t : Fin cfg1.N) (hA : t.val % 64 = 0) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 (grid1.coords t)) (h2 : c1_2 (grid1.coords t)) (h3 : ¬c1_3 (grid1.coords t)) (h4 : c1_4 (grid1.coords t)) (h5 : ¬c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) (f7 : arg7.view.ty.Contents (Elt F)) (f9 : arg9.view.ty.Contents (Elt F)) :
    Inv1 V c (t.val + 1) (arg7.view.read (Elt F) (arg7.view.writes (Elt F) f7 (kernelRun1_A c (grid1.coords t) arg3 harg3 arg4 harg4 arg5 harg5 arg6 harg6 arg7 harg7 arg8 harg8 arg9 harg9 h1 h2 h3 h4 h5 h6 h7 (iblk1 V c 0 t) (iblk1 V c 1 t) s8).2.2.1))
      (arg8.view.read (Elt F) (arg8.view.writes (Elt F) (harg8.unread s8) (kernelRun1_A c (grid1.coords t) arg3 harg3 arg4 harg4 arg5 harg5 arg6 harg6 arg7 harg7 arg8 harg8 arg9 harg9 h1 h2 h3 h4 h5 h6 h7 (iblk1 V c 0 t) (iblk1 V c 1 t) s8).2.2.2.1))
      (arg9.view.read (Elt F) (arg9.view.writes (Elt F) f9 (kernelRun1_A c (grid1.coords t) arg3 harg3 arg4 harg4 arg5 harg5 arg6 harg6 arg7 harg7 arg8 harg8 arg9 harg9 h1 h2 h3 h4 h5 h6 h7 (iblk1 V c 0 t) (iblk1 V c 1 t) s8).2.2.2.2.1)) := by
  have hN : t.val < 256 := lt_of_lt_of_eq t.isLt (show cfg1.N = 256 from N_1)
  refine inv_next V c t hinv _ _ _ ?_ ?_ ?_
  · rw [if_pos (by omega), LS7_A]; exact read_whole_store _ _ r1_hz2 _ _
  · rw [if_pos (by omega), LS8_A]; exact read_block_store arg8 harg8 s8 (t.val % 8) (off1_eq t) _ _
  · rw [if_neg (by omega), if_pos hA, LS9_A]; exact read_whole_store _ _ r1_hz2 _ _

set_option maxHeartbeats 4800000 in
/-- The body at such a point: the invariant hands over the scratch buffers, the case's run applies, and the invariant is
    re-established at the next point. -/
theorem sound_body1_A (c : Dev nD) (t : Fin cfg1.N) (hA : t.val % 64 = 0) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : c1_1 (grid1.coords t) := (hc1_1 t).mpr (by omega)
  have h2 : c1_2 (grid1.coords t) := (hc1_2 t).mpr (by omega)
  have h3 : ¬c1_3 (grid1.coords t) := fun h => by have := (hc1_3 t).mp h; omega
  have h4 : c1_4 (grid1.coords t) := (hc1_4 t).mpr (by omega)
  have h5 : ¬c1_5 (grid1.coords t) := fun h => by have := (hc1_5 t).mp h; omega
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s8).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexists _; iexact H7
  isplitl [H8]; · iexact H8
  isplitl [H9]; · iexists _; iexact H9
  iintro ⟨H0, H1, H2, H3, ⟨%f7, H7⟩, H8, ⟨%f9, H9⟩⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_A V c t hA _ _ _ _ _ _ _ _ _ _ _ _ _ _ h1 h2 h3 h4 h5 h6 h7 hinv _ _
    isplitl [Hr]; · iexact Hr
    iexact Hg
  isplitl [Ho]; · iexact Ho
  isplitl [H0]; · iexact H0
  isplitl [H1]; · iexact H1
  isplitl [H2]; · iexists _; iexact H2
  iexists _; iexact H3

end Cert.Kernel.H

end
-- ==== Proof.Kernel.R1BodyB.lean ====
/- The second pallas_call's body at a point with n = 0 and 0 < m < 7: the row minimum is continued, the column block's
   minimum is started. -/
import proofs.«134128_j58669253263727_2_alg».proof.Proof.Kernel.R1BodyDefs
import proofs.«134128_j58669253263727_2_alg».proof.Proof.Kernel.R1Pieces

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_B (c : Dev nD) (t : Fin cfg1.N) (hA : ¬ t.val % 64 = 0) (hn : t.val % 64 < 8) (hm : ¬ t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : c1_4 (grid1.coords t)) (h5 : ¬c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_B c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_B c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_B c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_B]; exact read_whole_store _ _ r1_hz2 _ _
  · rw [if_pos (by omega), LS8_B]; exact read_block_store arg8 harg8 s8 (t.val % 8) (off1_eq t) _ _
  · rw [if_neg (by omega), if_neg (by omega), LS9_B]; exact read_no_store arg9 harg9 s9

set_option maxHeartbeats 4800000 in
/-- The body at such a point: the invariant hands over the scratch buffers, the case's run applies, and the invariant is
    re-established at the next point. -/
theorem sound_body1_B (c : Dev nD) (t : Fin cfg1.N) (hA : ¬ t.val % 64 = 0) (hn : t.val % 64 < 8) (hm : ¬ t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : c1_4 (grid1.coords t) := (hc1_4 t).mpr (by omega)
  have h5 : ¬c1_5 (grid1.coords t) := fun h => by have := (hc1_5 t).mp h; omega
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_B V c t hA hn hm _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.Kernel.H

end
-- ==== Proof.Kernel.R1BodyC.lean ====
/- The second pallas_call's body at the point n = 0, m = 7: the row minimum is continued and finished — it is added to
   the running sum —, the column block's minimum is started. -/
import proofs.«134128_j58669253263727_2_alg».proof.Proof.Kernel.R1BodyDefs
import proofs.«134128_j58669253263727_2_alg».proof.Proof.Kernel.R1Pieces

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_C (c : Dev nD) (t : Fin cfg1.N) (hn : t.val % 64 < 8) (hm : t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : c1_4 (grid1.coords t)) (h5 : ¬c1_5 (grid1.coords t)) (h6 : c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_C c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_C c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_C c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_C]; exact read_whole_store _ _ r1_hz2 _ _
  · rw [if_pos (by omega), LS8_C]; exact read_block_store arg8 harg8 s8 (t.val % 8) (off1_eq t) _ _
  · rw [if_pos (by omega), if_neg (by omega), LS9_C, LS7_C]
    rw [read_whole_store _ _ r1_hz2, read_whole_store _ _ r1_hz2]

set_option maxHeartbeats 4800000 in
/-- The body at such a point: the invariant hands over the scratch buffers, the case's run applies, and the invariant is
    re-established at the next point. -/
theorem sound_body1_C (c : Dev nD) (t : Fin cfg1.N) (hn : t.val % 64 < 8) (hm : t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : c1_4 (grid1.coords t) := (hc1_4 t).mpr (by omega)
  have h5 : ¬c1_5 (grid1.coords t) := fun h => by have := (hc1_5 t).mp h; omega
  have h6 : c1_6 (grid1.coords t) := (hc1_6 t).mpr (by omega)
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_C V c t hn hm _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.Kernel.H

end
-- ==== Proof.Kernel.R1BodyD.lean ====
/- The second pallas_call's body at a point with n > 0 and m = 0: the row minimum is started, the column block's minimum
   is continued. -/
import proofs.«134128_j58669253263727_2_alg».proof.Proof.Kernel.R1BodyDefs
import proofs.«134128_j58669253263727_2_alg».proof.Proof.Kernel.R1Pieces

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_D (c : Dev nD) (t : Fin cfg1.N) (hn : ¬ t.val % 64 < 8) (hm : t.val % 8 = 0) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : c1_2 (grid1.coords t)) (h3 : ¬c1_3 (grid1.coords t)) (h4 : ¬c1_4 (grid1.coords t)) (h5 : c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) (f7 : arg7.view.ty.Contents (Elt F)) :
    Inv1 V c (t.val + 1) (arg7.view.read (Elt F) (arg7.view.writes (Elt F) f7 (kernelRun1_D c (grid1.coords t) arg3 harg3 arg4 harg4 arg5 harg5 arg6 harg6 arg7 harg7 arg8 harg8 arg9 harg9 h1 h2 h3 h4 h5 h6 h7 (iblk1 V c 0 t) (iblk1 V c 1 t) s8 s9).2.2.1))
      (arg8.view.read (Elt F) (arg8.view.writes (Elt F) (harg8.unread s8) (kernelRun1_D c (grid1.coords t) arg3 harg3 arg4 harg4 arg5 harg5 arg6 harg6 arg7 harg7 arg8 harg8 arg9 harg9 h1 h2 h3 h4 h5 h6 h7 (iblk1 V c 0 t) (iblk1 V c 1 t) s8 s9).2.2.2.1))
      (arg9.view.read (Elt F) (arg9.view.writes (Elt F) (harg9.unread s9) (kernelRun1_D c (grid1.coords t) arg3 harg3 arg4 harg4 arg5 harg5 arg6 harg6 arg7 harg7 arg8 harg8 arg9 harg9 h1 h2 h3 h4 h5 h6 h7 (iblk1 V c 0 t) (iblk1 V c 1 t) s8 s9).2.2.2.2.1)) := by
  have hN : t.val < 256 := lt_of_lt_of_eq t.isLt (show cfg1.N = 256 from N_1)
  refine inv_next V c t hinv _ _ _ ?_ ?_ ?_
  · rw [if_pos (by omega), LS7_D]; exact read_whole_store _ _ r1_hz2 _ _
  · rw [if_neg (by omega), LS8_D]
    refine (read_block_store arg8 harg8 s8 (t.val % 8) (off2_eq t) _ _).trans ?_
    rw [ld_block s8 (t.val % 8) (by omega) (off2_eq t)]
  · rw [if_neg (by omega), if_neg (by omega), LS9_D]; exact read_no_store arg9 harg9 s9

set_option maxHeartbeats 4800000 in
/-- The body at such a point: the invariant hands over the scratch buffers, the case's run applies, and the invariant is
    re-established at the next point. -/
theorem sound_body1_D (c : Dev nD) (t : Fin cfg1.N) (hn : ¬ t.val % 64 < 8) (hm : t.val % 8 = 0) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : c1_2 (grid1.coords t) := (hc1_2 t).mpr (by omega)
  have h3 : ¬c1_3 (grid1.coords t) := fun h => by have := (hc1_3 t).mp h; omega
  have h4 : ¬c1_4 (grid1.coords t) := fun h => by have := (hc1_4 t).mp h; omega
  have h5 : c1_5 (grid1.coords t) := (hc1_5 t).mpr (by omega)
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexists _; iexact H7
  isplitl [H8]; · iexact H8
  isplitl [H9]; · iexact H9
  iintro ⟨H0, H1, H2, H3, ⟨%f7, H7⟩, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_D V c t hn hm _ _ _ _ _ _ _ _ _ _ _ _ _ _ h1 h2 h3 h4 h5 h6 h7 hinv _
    isplitl [Hr]; · iexact Hr
    iexact Hg
  isplitl [Ho]; · iexact Ho
  isplitl [H0]; · iexact H0
  isplitl [H1]; · iexact H1
  isplitl [H2]; · iexists _; iexact H2
  iexists _; iexact H3

end Cert.Kernel.H

end
-- ==== Proof.Kernel.R1BodyE.lean ====
/- The second pallas_call's body at a point with n > 0 and 0 < m < 7: both running minima are continued. -/
import proofs.«134128_j58669253263727_2_alg».proof.Proof.Kernel.R1BodyDefs
import proofs.«134128_j58669253263727_2_alg».proof.Proof.Kernel.R1Pieces

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_E (c : Dev nD) (t : Fin cfg1.N) (hn : ¬ t.val % 64 < 8) (hm0 : ¬ t.val % 8 = 0) (hm7 : ¬ t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_E c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_E c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_E c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_E]; exact read_whole_store _ _ r1_hz2 _ _
  · rw [if_neg (by omega), LS8_E]
    refine (read_block_store arg8 harg8 s8 (t.val % 8) (off2_eq t) _ _).trans ?_
    rw [ld_block s8 (t.val % 8) (by omega) (off2_eq t)]
  · rw [if_neg (by omega), if_neg (by omega), LS9_E]; exact read_no_store arg9 harg9 s9

set_option maxHeartbeats 4800000 in
/-- The body at such a point: the invariant hands over the scratch buffers, the case's run applies, and the invariant is
    re-established at the next point. -/
theorem sound_body1_E (c : Dev nD) (t : Fin cfg1.N) (hn : ¬ t.val % 64 < 8) (hm0 : ¬ t.val % 8 = 0) (hm7 : ¬ t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : ¬c1_4 (grid1.coords t) := fun h => by have := (hc1_4 t).mp h; omega
  have h5 : c1_5 (grid1.coords t) := (hc1_5 t).mpr (by omega)
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_E V c t hn hm0 hm7 _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.Kernel.H

end
-- ==== Proof.Kernel.R1BodyF.lean ====
/- The second pallas_call's body at a point with 0 < n, m = 7, not the batch's last: both running minima are continued
   and the finished row minimum is added to the running sum. -/
import proofs.«134128_j58669253263727_2_alg».proof.Proof.Kernel.R1BodyDefs
import proofs.«134128_j58669253263727_2_alg».proof.Proof.Kernel.R1Pieces

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_F (c : Dev nD) (t : Fin cfg1.N) (hG : ¬ t.val % 64 = 63) (hn : ¬ t.val % 64 < 8) (hm : t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_F c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_F c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_F c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_F]; exact read_whole_store _ _ r1_hz2 _ _
  · rw [if_neg (by omega), LS8_F]
    refine (read_block_store arg8 harg8 s8 (t.val % 8) (off2_eq t) _ _).trans ?_
    rw [ld_block s8 (t.val % 8) (by omega) (off2_eq t)]
  · rw [if_pos (by omega), if_neg (by omega), LS9_F, LS7_F]
    rw [read_whole_store _ _ r1_hz2, read_whole_store _ _ r1_hz2]

set_option maxHeartbeats 4800000 in
/-- The body at such a point: the invariant hands over the scratch buffers, the case's run applies, and the invariant is
    re-established at the next point. -/
theorem sound_body1_F (c : Dev nD) (t : Fin cfg1.N) (hG : ¬ t.val % 64 = 63) (hn : ¬ t.val % 64 < 8) (hm : t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : ¬c1_4 (grid1.coords t) := fun h => by have := (hc1_4 t).mp h; omega
  have h5 : c1_5 (grid1.coords t) := (hc1_5 t).mpr (by omega)
  have h6 : c1_6 (grid1.coords t) := (hc1_6 t).mpr (by omega)
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_F c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_F V c t hG hn hm _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.Kernel.H

end
-- ==== Proof.Kernel.R1BodyG.lean ====
/- The second pallas_call's body at the last point of a batch (n = 7, m = 7): both running minima are continued, the
   finished row minimum is added to the running sum, and the two result blocks are stored. -/
import proofs.«134128_j58669253263727_2_alg».proof.Proof.Kernel.R1BodyDefs
import proofs.«134128_j58669253263727_2_alg».proof.Proof.Kernel.R1Pieces

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_G (c : Dev nD) (t : Fin cfg1.N) (hG : t.val % 64 = 63) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_G]; exact read_whole_store _ _ r1_hz2 _ _
  · rw [if_neg (by omega), LS8_G]
    refine (read_block_store arg8 harg8 s8 (t.val % 8) (off2_eq t) _ _).trans ?_
    rw [ld_block s8 (t.val % 8) (by omega) (off2_eq t)]
  · rw [if_pos (by omega), if_neg (by omega), LS9_G, LS7_G]
    rw [read_whole_store _ _ r1_hz2, read_whole_store _ _ r1_hz2]

set_option maxHeartbeats 2000000 in
/-- The first result block: the mean of the running sum as the next point's state names it. -/
theorem out2_G (c : Dev nD) (t : Fin cfg1.N) (hG : t.val % 64 = 63) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : c1_7 (grid1.coords t))
    {s7 : Vec F S1024x1 .f32} {s8 : Vec F S1x8192 .f32} {s9 : Vec F S1x1 .f32} (hinv : Inv1 V c t.val s7 s8 s9) (f2 : arg5.view.ty.Contents (Elt F)) :
    arg5.view.read (Elt F) (arg5.view.writes (Elt F) f2 (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).1) = k1_pay4 (st1 V c (t.val + 1)).2.2 := by
  have hN : t.val < 256 := lt_of_lt_of_eq t.isLt (show cfg1.N = 256 from N_1)
  have e9 := ((inv1_G V c t hG arg3 harg3 arg4 harg4 arg5 harg5 arg6 harg6 arg7 harg7 arg8 harg8 arg9 harg9 h1 h2 h3 h4 h5 h6 h7 hinv).1 (by omega)).2
  rw [← e9, LS9_G, L2_G]
  refine (read_whole_store arg5.view f2 r1_hz3 _ _).trans ?_
  refine congrArg (k1_pay4 (F := F)) ?_
  exact (read_whole_store arg9.view _ r1_hz2 _ _).symm

set_option maxHeartbeats 2000000 in
/-- The second result block: the mean over the finished column minima as the next point's state names them. -/
theorem out3_G (c : Dev nD) (t : Fin cfg1.N) (hG : t.val % 64 = 63) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : c1_7 (grid1.coords t))
    {s7 : Vec F S1024x1 .f32} {s8 : Vec F S1x8192 .f32} {s9 : Vec F S1x1 .f32} (hinv : Inv1 V c t.val s7 s8 s9) (f3 : arg6.view.ty.Contents (Elt F)) :
    arg6.view.read (Elt F) (arg6.view.writes (Elt F) f3 (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.1) = k1_pay5 (st1 V c (t.val + 1)).2.1 := by
  have hN : t.val < 256 := lt_of_lt_of_eq t.isLt (show cfg1.N = 256 from N_1)
  have e8 := (inv1_G V c t hG arg3 harg3 arg4 harg4 arg5 harg5 arg6 harg6 arg7 harg7 arg8 harg8 arg9 harg9 h1 h2 h3 h4 h5 h6 h7 hinv).2.full (by omega)
  rw [← e8, LS8_G, L3_G]
  exact read_whole_store arg6.view f3 r1_hz3 _ _

set_option maxHeartbeats 4800000 in
/-- The body at such a point: the invariant hands over the scratch buffers, the case's run applies, and the invariant is
    re-established at the next point. -/
theorem sound_body1_G (c : Dev nD) (t : Fin cfg1.N) (hG : t.val % 64 = 63) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : ¬c1_4 (grid1.coords t) := fun h => by have := (hc1_4 t).mp h; omega
  have h5 : c1_5 (grid1.coords t) := (hc1_5 t).mpr (by omega)
  have h6 : c1_6 (grid1.coords t) := (hc1_6 t).mpr (by omega)
  have h7 : c1_7 (grid1.coords t) := (hc1_7 t).mpr (by omega)
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_live V c t (by omega), leaves1_3_live V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_G c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 Set.univ _)
  isplitl [H0]; · iexact H0
  isplitl [H1]; · iexact H1
  isplitl [H2]; · iexists _; iexact H2
  isplitl [H3]; · iexists _; iexact H3
  isplitl [H7]; · iexact H7
  isplitl [H8]; · iexact H8
  isplitl [H9]; · iexact H9
  iintro ⟨H0, H1, ⟨%f2, H2⟩, ⟨%f3, H3⟩, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_G V c t hG _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]
  · unfold owns; iexists _; isplitr
    swap; · iexact H2
    ipureintro; exact out2_G V c t hG _ _ _ _ _ _ _ _ _ _ _ _ _ _ h1 h2 h3 h4 h5 h6 h7 hinv _
  unfold owns; iexists _; isplitr
  swap; · iexact H3
  ipureintro; exact out3_G V c t hG _ _ _ _ _ _ _ _ _ _ _ _ _ _ h1 h2 h3 h4 h5 h6 h7 hinv _

end Cert.Kernel.H

end
-- ==== Proof.Kernel.R1Body.lean ====
/- The second pallas_call's body obligation: the point number decides which of the seven control cases a grid point is
   in (point t = 64 b + 8 n + m), and that case's lemma applies. -/
import proofs.«134128_j58669253263727_2_alg».proof.Proof.Kernel.R1BodyA
import proofs.«134128_j58669253263727_2_alg».proof.Proof.Kernel.R1BodyB
import proofs.«134128_j58669253263727_2_alg».proof.Proof.Kernel.R1BodyC
import proofs.«134128_j58669253263727_2_alg».proof.Proof.Kernel.R1BodyD
import proofs.«134128_j58669253263727_2_alg».proof.Proof.Kernel.R1BodyE
import proofs.«134128_j58669253263727_2_alg».proof.Proof.Kernel.R1BodyF
import proofs.«134128_j58669253263727_2_alg».proof.Proof.Kernel.R1BodyG

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The body at any point, by cases on n = (t / 8) % 8 and m = t % 8. -/
theorem sound_body1 (c : Dev nD) (t : Fin cfg1.N) :
    bodyPre1 V c t ⊢ wp frame (wpE (defs₀ (F := F)) Variants.none c none) Set.univ (bodyAt1 t) (fun _ => bodyPost1 V c t) := by
  by_cases hA : t.val % 64 = 0
  · exact sound_body1_A V c t hA
  by_cases hG : t.val % 64 = 63
  · exact sound_body1_G V c t hG
  by_cases hn : t.val % 64 < 8
  · by_cases hm : t.val % 8 = 7
    · exact sound_body1_C V c t hn hm
    · exact sound_body1_B V c t hA hn hm
  by_cases hm0 : t.val % 8 = 0
  · exact sound_body1_D V c t hn hm0
  by_cases hm7 : t.val % 8 = 7
  · exact sound_body1_F V c t hG hn hm7
  · exact sound_body1_E V c t hn hm0 hm7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.Kernel.Run.lean ====
/- The whole program's run: its two kernel regions and the host lines between and after them composed in order, with
   the contents of every buffer named at each boundary. From it: the argument arrays end as launched, and every result
   buffer ends at the host lines' terms over what the two regions wrote back. -/
import proofs.«134128_j58669253263727_2_alg».proof.Proof.Gen.Kernel.Launch
import proofs.«134128_j58669253263727_2_alg».proof.Proof.Gen.Kernel.Skeleton
import proofs.«134128_j58669253263727_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134128_j58669253263727_2_alg».proof.Proof.Gen.Kernel.Regions
import proofs.«134128_j58669253263727_2_alg».proof.Proof.Kernel.R0
import proofs.«134128_j58669253263727_2_alg».proof.Proof.Kernel.R1Body

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry: no host line comes before it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what its write-backs leave, every other buffer untouched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host lines between the regions (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host lines: the program's end. -/
abbrev W4 : Dev nD → Valuation τ sig (Elt F) := fun c => StableHlo.after hostOps2 (W3 m ρ c)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L₀ : GSem nD τ sig → Finset Unit := fun _ => ∅
abbrev lv₀ : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L₀ lv₀ 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm' (pdats m ρ) () defs₀ 𝒱₀ L₀ lv₀) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state every unscoped buffer holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, Ho⟩
      isplitl [Hh Hp]
      · isplitl [Hh]; · iexact Hh
        iexact Hp
      iexact Ho⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What no segment changes -/

/-- A buffer that neither stretch of host lines writes and that is no output array of a region ends as launched. -/
theorem W4_keep (c : Dev nD) (r : Ref sig .tc) (h2 : r ∉ hostOps2_W) (h1 : r ∉ hostOps1_W)
    (hne : r ≠ main_v0 ∧ r ≠ main_v14_0 ∧ r ≠ main_v14_1) :
    W4 m ρ c (Proc.devRef .tc r) = m ((c : Thread nD τ).loc r) := by
  have e43 : W4 m ρ c (Proc.devRef .tc r) = W3 m ρ c (Proc.devRef .tc r) :=
    StableHlo.after_of_writes_sub hostOps2 _ hostOps2_writes h2
  have e32 : W3 m ρ c (Proc.devRef .tc r) = W2 m ρ c (Proc.devRef .tc r) := by
    by_cases h : ∃ w, Pipeline.arrRef spec1 w = r
    · obtain ⟨w, rfl⟩ := h
      fin_cases w
      · exact (W3_arr m ρ c 0).trans (((dat1 (V2 m ρ) c).arrAt_in 0 rfl _).trans (A_eq1 (V2 m ρ) c 0))
      · exact (W3_arr m ρ c 1).trans (((dat1 (V2 m ρ) c).arrAt_in 1 rfl _).trans (A_eq1 (V2 m ρ) c 1))
      · exact absurd rfl hne.2.1
      · exact absurd rfl hne.2.2
    · exact W3_of_ne m ρ c r fun w e => h ⟨w, e⟩
  have e21 : W2 m ρ c (Proc.devRef .tc r) = W1 m ρ c (Proc.devRef .tc r) :=
    StableHlo.after_of_writes_sub hostOps1 _ hostOps1_writes h1
  have e10 : W1 m ρ c (Proc.devRef .tc r) = W0 m ρ c (Proc.devRef .tc r) := by
    by_cases h : ∃ w, Pipeline.arrRef spec0 w = r
    · obtain ⟨w, rfl⟩ := h
      fin_cases w
      · exact (W1_arr m ρ c 0).trans (((dat0 (V0 m ρ) c).arrAt_in 0 rfl _).trans (A_eq0 (V0 m ρ) c 0))
      · exact (W1_arr m ρ c 1).trans (((dat0 (V0 m ρ) c).arrAt_in 1 rfl _).trans (A_eq0 (V0 m ρ) c 1))
      · exact (W1_arr m ρ c 2).trans (((dat0 (V0 m ρ) c).arrAt_in 2 rfl _).trans (A_eq0 (V0 m ρ) c 2))
      · exact (W1_arr m ρ c 3).trans (((dat0 (V0 m ρ) c).arrAt_in 3 rfl _).trans (A_eq0 (V0 m ρ) c 3))
      · exact (W1_arr m ρ c 4).trans (((dat0 (V0 m ρ) c).arrAt_in 4 rfl _).trans (A_eq0 (V0 m ρ) c 4))
      · exact (W1_arr m ρ c 5).trans (((dat0 (V0 m ρ) c).arrAt_in 5 rfl _).trans (A_eq0 (V0 m ρ) c 5))
      · exact (W1_arr m ρ c 6).trans (((dat0 (V0 m ρ) c).arrAt_in 6 rfl _).trans (A_eq0 (V0 m ρ) c 6))
      · exact (W1_arr m ρ c 7).trans (((dat0 (V0 m ρ) c).arrAt_in 7 rfl _).trans (A_eq0 (V0 m ρ) c 7))
      · exact absurd rfl hne.1
    · exact W1_of_ne m ρ c r fun w e => h ⟨w, e⟩
  exact e43.trans (e32.trans (e21.trans (e10.trans rfl)))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_keep m ρ c main_arg0 (by decide) (by decide) (by decide)),
     (h c _ (mem_uc main_arg1 (by decide))).trans (W4_keep m ρ c main_arg1 (by decide) (by decide) (by decide)),
     (h c _ (mem_uc main_arg2 (by decide))).trans (W4_keep m ρ c main_arg2 (by decide) (by decide) (by decide)),
     (h c _ (mem_uc main_arg3 (by decide))).trans (W4_keep m ρ c main_arg3 (by decide) (by decide) (by decide)),
     (h c _ (mem_uc main_arg4 (by decide))).trans (W4_keep m ρ c main_arg4 (by decide) (by decide) (by decide)),
     (h c _ (mem_uc main_arg5 (by decide))).trans (W4_keep m ρ c main_arg5 (by decide) (by decide) (by decide)),
     (h c _ (mem_uc main_arg6 (by decide))).trans (W4_keep m ρ c main_arg6 (by decide) (by decide) (by decide)),
     (h c _ (mem_uc main_arg7 (by decide))).trans (W4_keep m ρ c main_arg7 (by decide) (by decide) (by decide)),
     (h c _ (mem_uc main_arg8 (by decide))).trans (W4_keep m ρ c main_arg8 (by decide) (by decide) (by decide))⟩)
    (run_all m ρ)

end Cert.Kernel.H

end
-- ==== Proof.KernelIdeal.R0Runs.lean ====
import proofs.«134128_j58669253263727_2_alg».proof.Proof.Gen.KernelIdeal.Launch
import proofs.«134128_j58669253263727_2_alg».proof.Proof.Gen.KernelIdeal.Skeleton
import proofs.«134128_j58669253263727_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The first pallas_call: what its two runs are stated over

The grid has two points. At point 0 the first conditional is taken and the second is not: the body zeroes the
running sum kept in the 1×1 scratch, stores the three whole-array sums of squared differences into the 3×1 scratch,
and adds the point's block sum to the 1×1 scratch. At point 1 only the second conditional is taken: the body adds
that point's block sum to the 1×1 scratch and then assembles the 4×1 result from the two scratch buffers. -/

/-! ## The body's branch conditions -/

/-- The first conditional's condition: the grid coordinate is zero (the skeleton's scalar chain). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional's condition: the grid coordinate is one. -/
abbrev cond0_1 (i : grid0.Coords) : Prop := k0_cond2 i = 1#1
/-- It holds at the last point only. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
/-- At the first point nothing is stored into the result window: it is idle there, -/
theorem idleAt0_8_A : ∀ t : Fin cfg0.N, cond0_0 (grid0.coords t) → ¬cond0_1 (grid0.coords t) → cfg0.idle 8 (grid0.coords t) = true := by decide +kernel
/-- and its block is not written back there. -/
theorem noFlush0_8_A : ∀ t : Fin cfg0.N, cond0_0 (grid0.coords t) → ¬cond0_1 (grid0.coords t) → (cfg0.win 8).flush t = false := by decide +kernel
/-- At the last point the result window is stored into: it is live there. -/
theorem liveAt0_8_B : ∀ t : Fin cfg0.N, ¬cond0_0 (grid0.coords t) → cond0_1 (grid0.coords t) → cfg0.idle 8 (grid0.coords t) = false := by decide +kernel

/-! ## The memrefs the body is called with -/

abbrev ms0_0 (t : Fin cfg0.N) : Memref sig .tc .vmem S4x8192x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x8192x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x512x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x8192x3 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x8192x3 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x1 .f32 := win0_8.stage (cfg0.slots t 8)
abbrev hs0_8 (t : Fin cfg0.N) : (ms0_8 t).IsWhole := hstage0_8 ((cfg0.slots t 8).cast nbuf0_8)
/-- The 1×1 scratch: the running sum of the block sums. -/
abbrev scM0_0 : Memref sig .tc .vmem S1x1 .f32 := Memref.whole cc0_scratch0
/-- The 3×1 scratch: the three whole-array sums, kept from the first point to the last. -/
abbrev scM0_1 : Memref sig .tc .vmem S3x1 .f32 := Memref.whole cc0_scratch1
/-- The views through which what the scratch buffers and the result window hold is stated. -/
abbrev VS0_0 : View sig .tc .vmem S1x1 .f32 := scM0_0.view
abbrev VS0_1 : View sig .tc .vmem S3x1 .f32 := scM0_1.view
abbrev VO0_8 : View sig .tc .vmem S4x1 .f32 := (Memref.whole cc0_stg8_0 : Memref sig .tc .vmem S4x1 .f32).view

/-! ## The region invariant with the two scratch operands as memrefs -/

/-- The scoped buffers of the other pallas_call, each whole at some contents: they ride along untouched. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_scratch1), ((c : Thread nD τ).loc cc1_scratch1) ↦{fullShare} f)
    ∗ (∃ f : Buf (Elt F) ((c : Thread nD τ).loc cc1_scratch2), ((c : Thread nD τ).loc cc1_scratch2) ↦{fullShare} f))

/-- The class invariant with the two scratch operands as memrefs owned at some contents, the other call's
    scoped buffers as one conjunct, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Rest0 (F := F) c) ∗ (∃ r, prngReg c r)) := by
  unfold Pipeline.ΦA; rw [scopedRest0_eq]; unfold Rest0; simp only [scM0_0, scM0_1, owns_whole]; try rfl

end Cert.KernelIdeal.H

end
-- ==== Proof.KernelIdeal.R0RunA.lean ====
import proofs.«134128_j58669253263727_2_alg».proof.Proof.KernelIdeal.R0Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at the first point (the first conditional taken, the second not), on whole memrefs: the eight input
    windows at their contents, both scratch buffers at anything. It runs to the continuation holding the inputs as
    they were and each scratch buffer with the pieces its stores wrote (`LS0`: the zero, then the first block sum added
    to it; `LS1`: the three whole-array sums). The pieces are found by the run. -/
noncomputable def kernelRun0_A (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) :
    Σ' (LS0 : List (View.Piece (Elt F) S1x1 .f32)), { LS1 : List (View.Piece (Elt F) S3x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.H

end
-- ==== Proof.KernelIdeal.R0RunB.lean ====
import proofs.«134128_j58669253263727_2_alg».proof.Proof.KernelIdeal.R0Runs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The body at the last point (the first conditional not taken, the second taken), on whole memrefs: the two
    blocked input windows at their contents, the result window's buffer at anything, the 1×1 scratch at the running sum
    the first point left (`xs0`) and the 3×1 scratch at the three sums it left (`xs1`). It runs to the continuation
    holding the inputs and the 3×1 scratch as they were, the 1×1 scratch with the piece its store wrote (`LS0`) and
    the result window's buffer with the piece assembled from the two scratch buffers (`L8`). The pieces are found by
    the run. -/
noncomputable def kernelRun0_B (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : ¬cond0_0 i) (hc1 : cond0_1 i)
    (x4 : Vec F S4x512x256 .f32) (x5 : Vec F S4x512x256 .f32) (xs0 : Vec F S1x1 .f32) (xs1 : Vec F S3x1 .f32) :
    Σ' (L8 : List (View.Piece (Elt F) S4x1 .f32)), { LS0 : List (View.Piece (Elt F) S1x1 .f32) //
      ∀ (E : Set ℕ) (K : PUnit → sProp 𝕄),
        iprop(owns (c : Thread nD τ) arg5 fullShare x4 ∗ owns (c : Thread nD τ) arg6 fullShare x5 ∗ (∃ d, owns (c : Thread nD τ) arg9 fullShare d) ∗ owns (c : Thread nD τ) arg10 fullShare xs0 ∗ owns (c : Thread nD τ) arg11 fullShare xs1
            ∗ (iprop(owns (c : Thread nD τ) arg5 fullShare x4 ∗ owns (c : Thread nD τ) arg6 fullShare x5 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS0) ∗ owns (c : Thread nD τ) arg11 fullShare xs1) -∗ K ⟨⟩))
          ⊢ wp frame (wpE (defs₀ (F := F)) Variants.none c none) E (cc0_kernel i arg1 harg1 arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_kernel_eq_skeleton]; unfold cc0_kernel_skel
    unfold owns
    iintro ⟨⟨%f4, %hf4, H4⟩, ⟨%f5, %hf5, H5⟩, ⟨%d8, %f8, -, H8⟩, ⟨%fs0, %hfs0, HS0⟩, ⟨%fs1, %hfs1, HS1⟩, Hk⟩
    obtain rfl := harg5.eq_unread hf4; obtain rfl := harg6.eq_unread hf5; obtain rfl := harg10.eq_unread hfs0; obtain rfl := harg11.eq_unread hfs1
    sl_exec (disch := first | exact hc0 | exact hc1)
    sl_step
    iapply Hk
    isplitl [H4]
    · iexists _; isplitr; · ipureintro; exact harg5.read_unread _
      iexact H4
    isplitl [H5]
    · iexists _; isplitr; · ipureintro; exact harg6.read_unread _
      iexact H5
    isplitl [H8]; · iexists _; iexact H8
    isplitl [HS0]; · iexists _; iexact HS0
    iexists _; isplitr; · ipureintro; exact harg11.read_unread _
    iexact HS1

end Cert.KernelIdeal.H

end
-- ==== Proof.KernelIdeal.R0.lean ====
import proofs.«134128_j58669253263727_2_alg».proof.Proof.KernelIdeal.R0RunA
import proofs.«134128_j58669253263727_2_alg».proof.Proof.KernelIdeal.R0RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The first pallas_call: proof data, body obligation and what its result window holds

Everything here is stated at a parameter `V`: the TensorCore's buffer contents when the region is entered. -/

section Region0

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the scratch buffers and in the result window -/

/-- The first point's pieces for the 1×1 scratch cover it. -/
theorem scover0_A_0 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1 S1x1.size (by sl_kernel_rfl) y

/-- What the first point leaves in the 1×1 scratch: the canonical contents of its pieces. -/
def sout0_A_0 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) : Vec F S1x1 .f32 :=
  View.canon (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).1

/-- The first point's pieces for the 3×1 scratch cover it. -/
theorem scover0_A_1 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) (y : S3x1.Idx) :
    ∃ pc ∈ (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1 S3x1.size (by sl_kernel_rfl) y

/-- What the first point leaves in the 3×1 scratch. -/
def sout0_A_1 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : cond0_0 i) (hc1 : ¬cond0_1 i)
    (x0 : Vec F S4x8192x3 .f32) (x1 : Vec F S4x8192x3 .f32) (x2 : Vec F S4x512 .f32) (x3 : Vec F S4x512 .f32) (x4 : Vec F S4x512x256 .f32) (x5 : Vec F S4x512x256 .f32) (x6 : Vec F S4x8192x3 .f32) (x7 : Vec F S4x8192x3 .f32) : Vec F S3x1 .f32 :=
  View.canon (kernelRun0_A c i arg1 harg1 arg2 harg2 arg3 harg3 arg4 harg4 arg5 harg5 arg6 harg6 arg7 harg7 arg8 harg8 arg9 harg9 arg10 harg10 arg11 harg11 hc0 hc1 x0 x1 x2 x3 x4 x5 x6 x7).2.1

/-- The last point's pieces for the result window cover its block. -/
theorem cover0_B_8 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : ¬cond0_0 i) (hc1 : cond0_1 i)
    (x4 : Vec F S4x512x256 .f32) (x5 : Vec F S4x512x256 .f32) (xs0 : Vec F S1x1 .f32) (xs1 : Vec F S3x1 .f32) (y : S4x1.Idx) :
    ∃ pc ∈ (kernelRun0_B c i arg1 harg1 arg2 harg2 arg3 harg3 arg4 harg4 arg5 harg5 arg6 harg6 arg7 harg7 arg8 harg8 arg9 harg9 arg10 harg10 arg11 harg11 hc0 hc1 x4 x5 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 hc1 x4 x5 xs0 xs1).1 S4x1.size (by sl_kernel_rfl) y

/-- What the last point leaves in the result window's staging buffer. -/
def out0_B_8 (c : Dev nD) (i : grid0.Coords) (arg1 : Memref sig .tc .vmem S4x8192x3 .f32) (harg1 : arg1.IsWhole) (arg2 : Memref sig .tc .vmem S4x8192x3 .f32) (harg2 : arg2.IsWhole) (arg3 : Memref sig .tc .vmem S4x512 .f32) (harg3 : arg3.IsWhole) (arg4 : Memref sig .tc .vmem S4x512 .f32) (harg4 : arg4.IsWhole) (arg5 : Memref sig .tc .vmem S4x512x256 .f32) (harg5 : arg5.IsWhole) (arg6 : Memref sig .tc .vmem S4x512x256 .f32) (harg6 : arg6.IsWhole) (arg7 : Memref sig .tc .vmem S4x8192x3 .f32) (harg7 : arg7.IsWhole) (arg8 : Memref sig .tc .vmem S4x8192x3 .f32) (harg8 : arg8.IsWhole) (arg9 : Memref sig .tc .vmem S4x1 .f32) (harg9 : arg9.IsWhole) (arg10 : Memref sig .tc .vmem S1x1 .f32) (harg10 : arg10.IsWhole) (arg11 : Memref sig .tc .vmem S3x1 .f32) (harg11 : arg11.IsWhole) (hc0 : ¬cond0_0 i) (hc1 : cond0_1 i)
    (x4 : Vec F S4x512x256 .f32) (x5 : Vec F S4x512x256 .f32) (xs0 : Vec F S1x1 .f32) (xs1 : Vec F S3x1 .f32) : Vec F S4x1 .f32 :=
  View.canon (kernelRun0_B c i arg1 harg1 arg2 harg2 arg3 harg3 arg4 harg4 arg5 harg5 arg6 harg6 arg7 harg7 arg8 harg8 arg9 harg9 arg10 harg10 arg11 harg11 hc0 hc1 x4 x5 xs0 xs1).1

/-! ## The two points -/

theorem r0_hA0 : cond0_0 (grid0.coords t0_0) := (hcond0_0 t0_0).mpr rfl
theorem r0_hA1 : ¬cond0_1 (grid0.coords t0_0) := fun h => absurd ((hcond0_1 t0_0).mp h) (by decide)
theorem r0_hB0 : ¬cond0_0 (grid0.coords t0_1) := fun h => absurd ((hcond0_0 t0_1).mp h) (by decide)
theorem r0_hB1 : cond0_1 (grid0.coords t0_1) := (hcond0_1 t0_1).mpr rfl

/-- The running sum the first point leaves in the 1×1 scratch, -/
def s0A_0 (c : Dev nD) : Vec F S1x1 .f32 :=
  sout0_A_0 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)
/-- and the three whole-array sums it leaves in the 3×1 scratch. -/
def s0A_1 (c : Dev nD) : Vec F S3x1 .f32 :=
  sout0_A_1 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)
/-- The result block the last point assembles from them and its own block sum. -/
def out0B_8 (c : Dev nD) : Vec F S4x1 .f32 :=
  out0_B_8 c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) scM0_0 (Memref.isWhole_whole _) scM0_1 (Memref.isWhole_whole _) r0_hB0 r0_hB1 (iblk0 V c 4 t0_1) (iblk0 V c 5 t0_1) (s0A_0 V c) (s0A_1 V c)

/-- The region invariant before position `n`: before the first point the class's (every scratch at anything); between the
    two points the scoped rest with both scratch buffers at what the first point left; after the last point the
    class's again (the named contents forgotten). -/
def PhiS0 (c : Dev nD) : ℕ → sProp 𝕄
  | 0 => Pipeline.ΦA spec0 c
  | 1 => iprop(iprop(owns (c : Thread nD τ) scM0_0 fullShare (s0A_0 V c) ∗ owns (c : Thread nD τ) scM0_1 fullShare (s0A_1 V c) ∗ Rest0 (F := F) c) ∗ (∃ r, prngReg c r))
  | _ + 2 => Pipeline.ΦA spec0 c

/-! ## The pipeline's proof data -/

/-- The proof data of the first pallas_call on core `c`: the arrays as the region finds them; after the body each
    input's buffer at its block, the result window's at what the last point assembles (at the first point the window is
    idle and not written back, so what is stated there is never consulted); the invariant `PhiS0`; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0B_8 V c
  Φ t := PhiS0 V c t.val
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0B_8 V c := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d

/-- An input window is never idle: the body hands its buffer back at its block. -/
theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]
theorem leaves0_3 (c : Dev nD) (t : Fin cfg0.N) : (dat0 V c).leavesExact 3 t = owns (c : Thread nD τ) (ms0_3 t) fullShare (iblk0 V c 3 t) := by
  unfold Dat.leavesExact; rw [liveAt0_3 t, after0_3]
theorem leaves0_4 (c : Dev nD) (t : Fin cfg0.N) : (dat0 V c).leavesExact 4 t = owns (c : Thread nD τ) (ms0_4 t) fullShare (iblk0 V c 4 t) := by
  unfold Dat.leavesExact; rw [liveAt0_4 t, after0_4]
theorem leaves0_5 (c : Dev nD) (t : Fin cfg0.N) : (dat0 V c).leavesExact 5 t = owns (c : Thread nD τ) (ms0_5 t) fullShare (iblk0 V c 5 t) := by
  unfold Dat.leavesExact; rw [liveAt0_5 t, after0_5]
theorem leaves0_6 (c : Dev nD) (t : Fin cfg0.N) : (dat0 V c).leavesExact 6 t = owns (c : Thread nD τ) (ms0_6 t) fullShare (iblk0 V c 6 t) := by
  unfold Dat.leavesExact; rw [liveAt0_6 t, after0_6]
theorem leaves0_7 (c : Dev nD) (t : Fin cfg0.N) : (dat0 V c).leavesExact 7 t = owns (c : Thread nD τ) (ms0_7 t) fullShare (iblk0 V c 7 t) := by
  unfold Dat.leavesExact; rw [liveAt0_7 t, after0_7]

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at the first point: the inputs' memrefs hold their blocks, the invariant hands over both scratch buffers at
    anything, the run applies; both scratch buffers come back at the contents their pieces cover them with, the result
    window's buffer untouched. -/
theorem sound_body0_A (c : Dev nD) :
    bodyPre0 V c t0_0 ⊢ wp frame (wpE (defs₀ (F := F)) Variants.none c none) Set.univ (bodyAt0 t0_0) (fun _ => bodyPost0 V c t0_0) := by
  unfold bodyPre0 bodyPost0 bodyAt0
  simp only [before0_0, before0_1, before0_2, before0_3, before0_4, before0_5, before0_6, before0_7]
  rw [show (dat0 V c).owesAt () t0_0.succ = (dat0 V c).owesAt () t0_0.castSucc from rfl]
  rw [show (dat0 V c).Φ t0_0.succ = iprop(iprop(owns (c : Thread nD τ) scM0_0 fullShare (s0A_0 V c) ∗ owns (c : Thread nD τ) scM0_1 fullShare (s0A_1 V c) ∗ Rest0 (F := F) c) ∗ (∃ r, prngReg c r)) from rfl]
  rw [show (dat0 V c).Φ t0_0.castSucc = Pipeline.ΦA spec0 c from rfl, PhiA0_eq]
  rw [leaves0_0, leaves0_1, leaves0_2, leaves0_3, leaves0_4, leaves0_5, leaves0_6, leaves0_7]
  rw [Dat.leavesExact_idle (dat0 V c) 8 t0_0 (idleAt0_8_A t0_0 r0_hA0 r0_hA1) (noFlush0_8_A t0_0 r0_hA0 r0_hA1)]
  unfold s0A_0 s0A_1 sout0_A_0 sout0_A_1
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t0_0) _ _ _ _ _ _ _ _ _ _ _ _ _ _ _ _ _ _ _ _ _ _ r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, H4, H5, H6, H7, ⟨%es0, HS0⟩, ⟨%es1, HS1⟩⟩
  isplitl [HS0 HS1 HR Hg]
  · isplitl [HS0 HS1 HR]
    · isplitl [HS0]
      · unfold owns; iexists _; isplitr
        swap; · iexact HS0
        ipureintro; exact View.read_writes_eq_canon _ _ _ (scover0_A_0 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0))
      isplitl [HS1]
      · unfold owns; iexists _; isplitr
        swap; · iexact HS1
        ipureintro; exact View.read_writes_eq_canon _ _ _ (scover0_A_1 c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) scM0_0 (Memref.isWhole_whole _) scM0_1 (Memref.isWhole_whole _) r0_hA0 r0_hA1 (iblk0 V c 0 t0_0) (iblk0 V c 1 t0_0) (iblk0 V c 2 t0_0) (iblk0 V c 3 t0_0) (iblk0 V c 4 t0_0) (iblk0 V c 5 t0_0) (iblk0 V c 6 t0_0) (iblk0 V c 7 t0_0))
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; iexact H8

set_option maxHeartbeats 4800000 in
/-- The body at the last point: the invariant hands over both scratch buffers at what the first point left, the result
    window's buffer is at anything, the run applies; the scratch buffers' named contents are forgotten, the result window's
    buffer comes back at the contents its piece covers it with, the inputs the case does not read untouched. -/
theorem sound_body0_B (c : Dev nD) :
    bodyPre0 V c t0_1 ⊢ wp frame (wpE (defs₀ (F := F)) Variants.none c none) Set.univ (bodyAt0 t0_1) (fun _ => bodyPost0 V c t0_1) := by
  unfold bodyPre0 bodyPost0 bodyAt0
  simp only [before0_0, before0_1, before0_2, before0_3, before0_4, before0_5, before0_6, before0_7]
  rw [show (dat0 V c).owesAt () t0_1.succ = (dat0 V c).owesAt () t0_1.castSucc from rfl]
  rw [show (dat0 V c).Φ t0_1.castSucc = iprop(iprop(owns (c : Thread nD τ) scM0_0 fullShare (s0A_0 V c) ∗ owns (c : Thread nD τ) scM0_1 fullShare (s0A_1 V c) ∗ Rest0 (F := F) c) ∗ (∃ r, prngReg c r)) from rfl]
  rw [show (dat0 V c).Φ t0_1.succ = Pipeline.ΦA spec0 c from rfl, PhiA0_eq]
  rw [leaves0_0, leaves0_1, leaves0_2, leaves0_3, leaves0_4, leaves0_5, leaves0_6, leaves0_7]
  rw [show (dat0 V c).leavesExact 8 t0_1 = owns (c : Thread nD τ) (ms0_8 t0_1) fullShare ((dat0 V c).after 8 t0_1) from by
    unfold Dat.leavesExact; rw [liveAt0_8_B t0_1 r0_hB0 r0_hB1], after0_8]
  unfold out0B_8 out0_B_8
  iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t0_1) _ _ _ _ _ _ _ _ _ _ _ _ _ _ _ _ _ _ _ _ _ _ r0_hB0 r0_hB1 (iblk0 V c 4 t0_1) (iblk0 V c 5 t0_1) (s0A_0 V c) (s0A_1 V c)).2.2 Set.univ _)
  isplitl [H4]; · iexact H4
  isplitl [H5]; · iexact H5
  isplitl [H8]; · iexists _; iexact H8
  isplitl [HS0]; · iexact HS0
  isplitl [HS1]; · iexact HS1
  iintro ⟨H4, H5, ⟨%e8, H8⟩, ⟨%es0, HS0⟩, HS1⟩
  isplitl [HS0 HS1 HR Hg]
  · isplitl [HS0 HS1 HR]
    · isplitl [HS0]
      · iexists _; unfold owns; iexists _; isplitr
        swap; · iexact HS0
        ipureintro; rfl
      isplitl [HS1]; · iexists _; iexact HS1
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_eq_canon _ _ _ (cover0_B_8 c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (ms0_7 t0_1) (hs0_7 t0_1) (ms0_8 t0_1) (hs0_8 t0_1) scM0_0 (Memref.isWhole_whole _) scM0_1 (Memref.isWhole_whole _) r0_hB0 r0_hB1 (iblk0 V c 4 t0_1) (iblk0 V c 5 t0_1) (s0A_0 V c) (s0A_1 V c))

/-- The body at either point. -/
theorem sound_body0 (c : Dev nD) (t : Fin cfg0.N) :
    bodyPre0 V c t ⊢ wp frame (wpE (defs₀ (F := F)) Variants.none c none) Set.univ (bodyAt0 t) (fun _ => bodyPost0 V c t) := by
  rcases fin_N0 t with rfl | rfl
  · exact sound_body0_A V c
  · exact sound_body0_B V c

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Pipeline.ΦA spec0 c from rfl]

/-- After the last point the invariant is the class's again. -/
theorem hout0 (c : Dev nD) : (dat0 V c).Φ (Fin.last cfg0.N) ⊢ Pipeline.ΦA spec0 c := by
  rw [show (dat0 V c).Φ (Fin.last cfg0.N) = Pipeline.ΦA spec0 c from rfl]

end Region0

end Cert.KernelIdeal.H

end
-- ==== Proof.KernelIdeal.R1State.lean ====
/- What the second kernel's three scratch buffers hold after each grid point, as a pure recursion over the point number
   t = 64 b + 8 n + m (batch b, row tile n, column tile m): the running row minimum (reset at every m = 0), the running
   column minimum (one block of 1024 columns per m, reset at n = 0) and the running sum of the rows' distances (reset at
   n = m = 0, added to at every m = 7). -/
import proofs.«134128_j58669253263727_2_alg».proof.Proof.Gen.KernelIdeal.Launch
import proofs.«134128_j58669253263727_2_alg».proof.Proof.Gen.KernelIdeal.Skeleton
import proofs.«134128_j58669253263727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The three scratch buffers' contents: row minima (1024×1), column minima (1×8192), running sum (1×1). -/
abbrev St (F : FTy → Type) : Type := Vec F S1024x1 .f32 × Vec F S1x8192 .f32 × Vec F S1x1 .f32

/-- Block `j` (columns 1024 j … 1024 j + 1023) of a 1×8192 row. -/
def blk8 (g : Vec F S1x8192 .f32) (j : ℕ) : Vec F S1x1024 .f32 :=
  fun y => g (ix2 0 ⟨(1024 * j + (y 1).val) % 8192, Nat.mod_lt _ (by norm_num)⟩)

/-- A 1×8192 row with block `j` replaced by `p`. -/
def upd8 (g : Vec F S1x8192 .f32) (j : ℕ) (p : Vec F S1x1024 .f32) : Vec F S1x8192 .f32 :=
  fun y => if (y 1).val / 1024 = j then p (ix2 0 ⟨(y 1).val % 1024, Nat.mod_lt _ (by norm_num)⟩) else g y

/-- One grid point's effect on the scratch buffers: point number `t`, the point's x block and y block. -/
def step1 (t : ℕ) (x y : Vec F S1x1024x3 .f32) (s : St F) : St F :=
  let s7 : Vec F S1024x1 .f32 := if t % 8 = 0 then k1_pay10 x y else k1_pay11 x y s.1
  let g8 : Vec F S1x8192 .f32 :=
    if t % 64 < 8 then upd8 s.2.1 (t % 8) (k1_pay1 (k1_pay9 x y))
    else upd8 s.2.1 (t % 8) (k1_pay2 (k1_pay9 x y) (blk8 s.2.1 (t % 8)))
  let s9a : Vec F S1x1 .f32 := if t % 64 = 0 then k1_pay6 else s.2.2
  let s9 : Vec F S1x1 .f32 := if t % 8 = 7 then k1_pay3 s7 s9a else s9a
  (s7, g8, s9)

/-- The scratch buffers after the first `k` points of a schedule of blocks `xs`, `ys`; before the first point, an arbitrary value
    that no point reads. -/
def run1 (xs ys : ℕ → Vec F S1x1024x3 .f32) : ℕ → St F
  | 0 => (constant S1024x1 .f32 0x00000000#32, constant S1x8192 .f32 0x00000000#32, constant S1x1 .f32 0x00000000#32)
  | k + 1 => step1 k (xs k) (ys k) (run1 xs ys k)

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x blocks and y blocks the grid's points are handed, by point number. -/
def xsOf (c : Dev nD) : ℕ → Vec F S1x1024x3 .f32 := fun k => if h : k < cfg1.N then iblk1 V c 0 ⟨k, h⟩ else constant S1x1024x3 .f32 0x00000000#32
def ysOf (c : Dev nD) : ℕ → Vec F S1x1024x3 .f32 := fun k => if h : k < cfg1.N then iblk1 V c 1 ⟨k, h⟩ else constant S1x1024x3 .f32 0x00000000#32

/-- The scratch buffers after the first `k` grid points. -/
def st1 (c : Dev nD) (k : ℕ) : St F := run1 (xsOf V c) (ysOf V c) k

theorem st1_succ (c : Dev nD) (t : Fin cfg1.N) : st1 V c (t.val + 1) = step1 t.val (iblk1 V c 0 t) (iblk1 V c 1 t) (st1 V c t.val) := by
  show step1 t.val (xsOf V c t.val) (ysOf V c t.val) (st1 V c t.val) = _
  unfold xsOf ysOf
  rw [dif_pos t.isLt, dif_pos t.isLt]

end Cert.KernelIdeal.H

end
-- ==== Proof.KernelIdeal.R1Pre.lean ====
import proofs.«134128_j58669253263727_2_alg».proof.Proof.Gen.KernelIdeal.Launch
import proofs.«134128_j58669253263727_2_alg».proof.Proof.Gen.KernelIdeal.Skeleton
import proofs.«134128_j58669253263727_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The second kernel's branch conditions, from the grid coordinates (b, n, m) = (i 0, i 1, i 2) -/

/-- n = 0 and m = 0: the running sum is reset. -/
abbrev c1_1 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- m = 0: the running row minimum is started. -/
abbrev c1_2 (i : grid1.Coords) : Prop := (Scalar.cmpi .ne (Scalar.extui (Scalar.cmpi .eq (BitVec.ofNat 32 (i 2).val) 0#32)) 0#32) = 1#1
/-- m ≠ 0: the running row minimum is continued. -/
abbrev c1_3 (i : grid1.Coords) : Prop := (Scalar.cmpi .ne (Scalar.extui (Scalar.cmpi .ne (BitVec.ofNat 32 (i 2).val) 0#32)) 0#32) = 1#1
/-- n = 0: the column block of the running column minimum is started. -/
abbrev c1_4 (i : grid1.Coords) : Prop := k1_cond4 i = 1#1
/-- n ≠ 0: the column block of the running column minimum is continued. -/
abbrev c1_5 (i : grid1.Coords) : Prop := k1_cond5 i = 1#1
/-- m = 7: the finished row minimum is added to the running sum. -/
abbrev c1_6 (i : grid1.Coords) : Prop := (Scalar.cmpi .ne (Scalar.extui (Scalar.cmpi .eq (BitVec.ofNat 32 (i 2).val) 7#32)) 0#32) = 1#1
/-- n = 7 and m = 7: the two outputs are stored. -/
abbrev c1_7 (i : grid1.Coords) : Prop := k1_cond7 i = 1#1

theorem hc1_1 : ∀ t : Fin cfg1.N, c1_1 (grid1.coords t) ↔ t.val % 64 = 0 :=
  (by decide +kernel : ∀ t : Fin grid1.N, c1_1 (grid1.coords t) ↔ t.val % 64 = 0)
theorem hc1_2 : ∀ t : Fin cfg1.N, c1_2 (grid1.coords t) ↔ t.val % 8 = 0 :=
  (by decide +kernel : ∀ t : Fin grid1.N, c1_2 (grid1.coords t) ↔ t.val % 8 = 0)
theorem hc1_3 : ∀ t : Fin cfg1.N, c1_3 (grid1.coords t) ↔ ¬ t.val % 8 = 0 :=
  (by decide +kernel : ∀ t : Fin grid1.N, c1_3 (grid1.coords t) ↔ ¬ t.val % 8 = 0)
theorem hc1_4 : ∀ t : Fin cfg1.N, c1_4 (grid1.coords t) ↔ t.val % 64 < 8 :=
  (by decide +kernel : ∀ t : Fin grid1.N, c1_4 (grid1.coords t) ↔ t.val % 64 < 8)
theorem hc1_5 : ∀ t : Fin cfg1.N, c1_5 (grid1.coords t) ↔ ¬ t.val % 64 < 8 :=
  (by decide +kernel : ∀ t : Fin grid1.N, c1_5 (grid1.coords t) ↔ ¬ t.val % 64 < 8)
theorem hc1_6 : ∀ t : Fin cfg1.N, c1_6 (grid1.coords t) ↔ t.val % 8 = 7 :=
  (by decide +kernel : ∀ t : Fin grid1.N, c1_6 (grid1.coords t) ↔ t.val % 8 = 7)
theorem hc1_7 : ∀ t : Fin cfg1.N, c1_7 (grid1.coords t) ↔ t.val % 64 = 63 :=
  (by decide +kernel : ∀ t : Fin grid1.N, c1_7 (grid1.coords t) ↔ t.val % 64 = 63)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬c1_7 (grid1.coords t) → cfg1.idle 2 (grid1.coords t) = true := by decide +kernel
theorem idleAt1_3 : ∀ t : Fin cfg1.N, ¬c1_7 (grid1.coords t) → cfg1.idle 3 (grid1.coords t) = true := by decide +kernel
theorem noFlush1_2 : ∀ t : Fin cfg1.N, ¬c1_7 (grid1.coords t) → (cfg1.win 2).flush t = false := by decide +kernel
theorem noFlush1_3 : ∀ t : Fin cfg1.N, ¬c1_7 (grid1.coords t) → (cfg1.win 3).flush t = false := by decide +kernel
theorem liveAt1_2 : ∀ t : Fin cfg1.N, c1_7 (grid1.coords t) → cfg1.idle 2 (grid1.coords t) = false := by decide +kernel
theorem liveAt1_3 : ∀ t : Fin cfg1.N, c1_7 (grid1.coords t) → cfg1.idle 3 (grid1.coords t) = false := by decide +kernel

/-! ## The staging and scratch memrefs -/

abbrev ms1_0 (t : Fin cfg1.N) : Memref sig .tc .vmem S1x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x1 .f32 := win1_3.stage (cfg1.slots t 3)
abbrev hs1_3 (t : Fin cfg1.N) : (ms1_3 t).IsWhole := hstage1_3 ((cfg1.slots t 3).cast nbuf1_3)
/-- The running row minimum. -/
abbrev scM1_0 : Memref sig .tc .vmem S1024x1 .f32 := Memref.whole cc1_scratch0
/-- The running column minimum. -/
abbrev scM1_1 : Memref sig .tc .vmem S1x8192 .f32 := Memref.whole cc1_scratch1
/-- The running sum. -/
abbrev scM1_2 : Memref sig .tc .vmem S1x1 .f32 := Memref.whole cc1_scratch2

/-- The scoped buffers that are neither a staging buffer nor a scratch operand of the second kernel, each at
    some contents. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant of the second kernel with its three scratch operands as owned memrefs. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ (∃ d, owns (c : Thread nD τ) scM1_2 fullShare d) ∗ Rest1 (F := F) c ∗ (∃ r, prngReg c r)) := by
  unfold Pipeline.ΦA Rest1; rw [scopedRest1_eq]; simp only [scM1_0, scM1_1, scM1_2, owns_whole]
  refine BI.equiv_iff.mp ⟨?_, ?_⟩
  · show (_ : sProp 𝕄) ⊢ _
    iintro ⟨⟨A1, A2, A3, A4, A5, A6, A7, A8, A9, A10, A11, A12, A13, S0, S1, S2⟩, P⟩
    isplitl [S0]; · iexact S0
    isplitl [S1]; · iexact S1
    isplitl [S2]; · iexact S2
    isplitr [P]; swap; · iexact P
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  · show (_ : sProp 𝕄) ⊢ _
    iintro ⟨S0, S1, S2, ⟨A1, A2, A3, A4, A5, A6, A7, A8, A9, A10, A11, A12, A13⟩, P⟩
    isplitr [P]; swap; · iexact P
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [S0]; · iexact S0
    isplitl [S1]; · iexact S1
    iexact S2

end Cert.KernelIdeal.H

end
-- ==== Proof.KernelIdeal.R1.lean ====
/- The second kernel region's proof data: what each window's buffer holds after the body at each grid point, the
   region invariant — the three scratch buffers at the contents the recursion `st1` names, the column-minimum buffer
   only on the columns already written since the launch — with the entailments at the region's two ends. -/
import proofs.«134128_j58669253263727_2_alg».proof.Proof.Gen.KernelIdeal.Launch
import proofs.«134128_j58669253263727_2_alg».proof.Proof.Gen.KernelIdeal.Skeleton
import proofs.«134128_j58669253263727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import proofs.«134128_j58669253263727_2_alg».proof.Proof.KernelIdeal.R1State
import proofs.«134128_j58669253263727_2_alg».proof.Proof.KernelIdeal.R1Pre

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The invariant -/

/-- Two column-minimum rows agree on the columns the first `k` points have written since the launch (block `j` is first
    written at point `j`; from point 8 on every column has been). -/
def Agree (k : ℕ) (s g : Vec F S1x8192 .f32) : Prop := ∀ y : S1x8192.Idx, (y 1).val < 1024 * k → s y = g y

theorem Agree.full {k : ℕ} {s g : Vec F S1x8192 .f32} (h : Agree k s g) (hk : 8 ≤ k) : s = g :=
  funext fun y => h y (by have := (y 1).isLt; show (y 1).val < 1024 * k; have : (y 1).val < 8192 := (y 1).isLt; omega)

theorem Agree.upd {k j : ℕ} {s g : Vec F S1x8192 .f32} (h : Agree k s g) (hj : 8 ≤ k ∨ j = k) (p : Vec F S1x1024 .f32) :
    Agree (k + 1) (upd8 s j p) (upd8 g j p) := by
  intro y hy
  unfold upd8
  by_cases hy' : (y 1).val / 1024 = j
  · rw [if_pos hy', if_pos hy']
  · rw [if_neg hy', if_neg hy']
    refine h y ?_
    have : (y 1).val < 8192 := (y 1).isLt
    rcases hj with hk | rfl
    · omega
    · omega

/-- What the scratch buffers hold before point `k`: after the first point the row minima and the running sum exactly
    what `st1` names, the column minima on the columns written so far. -/
def Inv1 (c : Dev nD) (k : ℕ) (s7 : Vec F S1024x1 .f32) (s8 : Vec F S1x8192 .f32) (s9 : Vec F S1x1 .f32) : Prop :=
  (1 ≤ k → s7 = (st1 V c k).1 ∧ s9 = (st1 V c k).2.2) ∧ Agree k s8 (st1 V c k).2.1

/-- The region invariant before point `k`. -/
def Phi1 (c : Dev nD) (k : ℕ) : sProp 𝕄 :=
  iprop(∃ s7, ∃ s8, ∃ s9, owns (c : Thread nD τ) scM1_0 fullShare s7 ∗ owns (c : Thread nD τ) scM1_1 fullShare s8
    ∗ owns (c : Thread nD τ) scM1_2 fullShare s9 ∗ ⌜Inv1 V c k s7 s8 s9⌝ ∗ Rest1 (F := F) c ∗ (∃ r, prngReg c r))

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay4 (st1 V c (t.val + 1)).2.2
    | ⟨3, _⟩ => k1_pay5 (st1 V c (t.val + 1)).2.1
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay4 (st1 V c (t.val + 1)).2.2 := by dsimp only [dat1]
theorem after1_3 (c : Dev nD) (t : Fin cfg1.N) : (dat1 V c).after 3 t = k1_pay5 (st1 V c (t.val + 1)).2.1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- What the launch hands the region is the invariant before the first point. -/
theorem hin1 (c : Dev nD) : Pipeline.ΦA spec1 c ⊢ (dat1 V c).Φ 0 := by
  rw [show (dat1 V c).Φ 0 = Phi1 V c 0 from rfl, PhiA1_eq]
  unfold Phi1
  iintro ⟨⟨%d7, H7⟩, ⟨%d8, H8⟩, ⟨%d9, H9⟩, Hr, Hg⟩
  iexists d7; iexists d8; iexists d9
  isplitl [H7]; · iexact H7
  isplitl [H8]; · iexact H8
  isplitl [H9]; · iexact H9
  isplitr
  · ipureintro
    exact ⟨fun h => absurd h (by decide), fun y hy => absurd hy (by omega)⟩
  isplitl [Hr]; · iexact Hr
  iexact Hg

/-- After the last point the invariant gives the class's back: the scratch buffers' named contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val from rfl, PhiA1_eq]
  unfold Phi1
  iintro ⟨%s7, %s8, %s9, H7, H8, H9, -, Hr, Hg⟩
  isplitl [H7]; · iexists _; iexact H7
  isplitl [H8]; · iexists _; iexact H8
  isplitl [H9]; · iexists _; iexact H9
  isplitl [Hr]; · iexact Hr
  iexact Hg

end Cert.KernelIdeal.H

end
-- ==== Proof.KernelIdeal.R1Pure.lean ====
/- Pure facts behind the second region's body obligation: what one covering store, one block store and one block
   load read as, where a point's column block sits, and the invariant's step from one grid point to the next. -/
import proofs.«134128_j58669253263727_2_alg».proof.Proof.Gen.KernelIdeal.Launch
import proofs.«134128_j58669253263727_2_alg».proof.Proof.Gen.KernelIdeal.Skeleton
import proofs.«134128_j58669253263727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.Pipeline.Value
import proofs.«134128_j58669253263727_2_alg».proof.Proof.KernelIdeal.R1

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- One store through the whole buffer (the rectangle of the buffer's own sizes at offset zero) leaves its payload,
    whatever the buffer held. -/
theorem read_whole_store {S : Shape} {sp : Space} (v : View sig .tc sp S .f32) (f : v.ty.Contents (Elt F))
    {off : Fin S.rank → Nat} (hz : off = fun _ => 0) (inb : ∀ a, off a + S.size a ≤ S.size a) (p : S.Idx → Elt F .f32) :
    v.read (Elt F) (v.writes (Elt F) f [⟨Rect.unit off S.size inb, p⟩]) = p := by
  rw [View.read_writes_eq_canon _ _ _ (fun y => ⟨_, List.mem_singleton_self _, View.mem_set_unit_zero hz inb y⟩),
    View.canon_unit_zero hz]

/-- No store leaves the contents. -/
theorem read_no_store {S : Shape} {sp : Space} (m : Memref sig .tc sp S .f32) (h : m.IsWhole) (s : S.Idx → Elt F .f32) :
    m.view.read (Elt F) (m.view.writes (Elt F) (h.unread s) []) = s := by
  rw [View.writes_nil, h.read_unread]

/-- A store of a 1×1024 block at column offset 1024 j into a 1×8192 row replaces block j. -/
theorem read_block_store {sp : Space} (m : Memref sig .tc sp S1x8192 .f32) (h : m.IsWhole) (s : Vec F S1x8192 .f32)
    {off : Fin 2 → Nat} (j : ℕ) (hoff : off = ![0, 1024 * j]) (inb : ∀ a, off a + S1x1024.size a ≤ S1x8192.size a)
    (p : Vec F S1x1024 .f32) :
    m.view.read (Elt F) (m.view.writes (Elt F) (h.unread s) [⟨Rect.unit (s := S1x8192) off S1x1024.size inb, p⟩]) = upd8 s j p := by
  subst hoff
  funext y
  have hy1 : (y 1).val < 8192 := (y 1).isLt
  have hy0 : (y 0).val = 0 := by have : (y 0).val < 1 := (y 0).isLt; omega
  by_cases hj : (y 1).val / 1024 = j
  · have hyx : y = (Rect.unit (s := S1x8192) ![0, 1024 * j] S1x1024.size inb).emb
        (ix2 (0 : Fin 1) (⟨(y 1).val % 1024, Nat.mod_lt _ (by norm_num)⟩ : Fin 1024)) := by
      funext a
      match a with
      | ⟨0, _⟩ => exact Fin.ext (by rw [Rect.emb_apply]; show (y 0).val = 0 + 1 * 0; omega)
      | ⟨1, _⟩ => exact Fin.ext (by rw [Rect.emb_apply]; show (y 1).val = 1024 * j + 1 * ((y 1).val % 1024); omega)
    have key := View.read_writes_cons_emb m.view (h.unread s) (Rect.unit (s := S1x8192) ![0, 1024 * j] S1x1024.size inb) p []
      (ix2 (0 : Fin 1) (⟨(y 1).val % 1024, Nat.mod_lt _ (by norm_num)⟩ : Fin 1024))
    refine (congrArg (m.view.read (Elt F) (m.view.writes (Elt F) (h.unread s) [⟨Rect.unit (s := S1x8192) ![0, 1024 * j] S1x1024.size inb, p⟩])) hyx).trans (key.trans ?_)
    unfold upd8; rw [if_pos hj]
  · have hnot : y ∉ (Rect.unit (s := S1x8192) ![0, 1024 * j] S1x1024.size inb).set := by
      rw [Rect.mem_set_unit]
      intro hall
      have h1 : 1024 * j ≤ (y 1).val ∧ (y 1).val < 1024 * j + 1024 := hall 1
      omega
    rw [View.read_writes_apply_of_forall_not_mem _ _ y _ (fun p' hp' => by rw [List.mem_singleton.mp hp']; exact hnot), h.read_unread]
    unfold upd8; rw [if_neg hj]

/-- A load of the 1×1024 block at column offset 1024 j of a 1×8192 row reads block j. -/
theorem ld_block (s : Vec F S1x8192 .f32) {off : Fin 2 → Nat} (j : ℕ) (hj : j < 8) (hoff : off = ![0, 1024 * j])
    (inb : ∀ a, off a + S1x1024.size a ≤ S1x8192.size a) :
    View.ld s (Rect.unit (s := S1x8192) off S1x1024.size inb) = blk8 s j := by
  subst hoff
  funext x
  show s ((Rect.unit (s := S1x8192) ![0, 1024 * j] S1x1024.size inb).emb x) = _
  unfold blk8
  refine congrArg s (funext fun a => ?_)
  have hx1 : (x 1).val < 1024 := (x 1).isLt
  match a with
  | ⟨0, _⟩ => exact Fin.ext (by rw [Rect.emb_apply]; show 0 + 1 * (x 0).val = 0; have : (x 0).val < 1 := (x 0).isLt; omega)
  | ⟨1, _⟩ => exact Fin.ext (by rw [Rect.emb_apply]; show 1024 * j + 1 * (x 1).val = (1024 * j + (x 1).val) % 8192; omega)

/-- The column block a point writes: block m = t % 8. -/
theorem off1_eq : ∀ t : Fin cfg1.N, k1_off1 (grid1.coords t) = ![0, 1024 * (t.val % 8)] :=
  (by decide +kernel : ∀ t : Fin grid1.N, k1_off1 (grid1.coords t) = ![0, 1024 * (t.val % 8)])
theorem off2_eq : ∀ t : Fin cfg1.N, k1_off2 (grid1.coords t) = ![0, 1024 * (t.val % 8)] :=
  (by decide +kernel : ∀ t : Fin grid1.N, k1_off2 (grid1.coords t) = ![0, 1024 * (t.val % 8)])

variable (V : (c : Dev nD) → (b : Ref sig .tc) → Buf (Elt F) ((c : Thread nD τ).loc b))

/-- THE INVARIANT'S STEP: if the scratch buffers satisfy the invariant before point t and the point leaves in them what
    `step1` computes from them, they satisfy it before point t + 1. -/
theorem inv_next (c : Dev nD) (t : Fin cfg1.N) {s7 : Vec F S1024x1 .f32} {s8 : Vec F S1x8192 .f32} {s9 : Vec F S1x1 .f32}
    (hinv : Inv1 V c t.val s7 s8 s9) (n7 : Vec F S1024x1 .f32) (n8 : Vec F S1x8192 .f32) (n9 : Vec F S1x1 .f32)
    (h7 : n7 = if t.val % 8 = 0 then k1_pay10 (iblk1 V c 0 t) (iblk1 V c 1 t) else k1_pay11 (iblk1 V c 0 t) (iblk1 V c 1 t) s7)
    (h8 : n8 = if t.val % 64 < 8 then upd8 s8 (t.val % 8) (k1_pay1 (k1_pay9 (iblk1 V c 0 t) (iblk1 V c 1 t)))
      else upd8 s8 (t.val % 8) (k1_pay2 (k1_pay9 (iblk1 V c 0 t) (iblk1 V c 1 t)) (blk8 s8 (t.val % 8))))
    (h9 : n9 = if t.val % 8 = 7 then k1_pay3 n7 (if t.val % 64 = 0 then k1_pay6 else s9) else (if t.val % 64 = 0 then k1_pay6 else s9)) :
    Inv1 V c (t.val + 1) n7 n8 n9 := by
  obtain ⟨h1, h2⟩ := hinv
  have e7 : n7 = (st1 V c (t.val + 1)).1 := by
    rw [st1_succ, h7]; show _ = if t.val % 8 = 0 then _ else _
    by_cases hm : t.val % 8 = 0
    · rw [if_pos hm, if_pos hm]
    · rw [if_neg hm, if_neg hm, (h1 (by omega)).1]
  refine ⟨fun _ => ⟨e7, ?_⟩, ?_⟩
  · rw [h9, e7, st1_succ]
    show _ = if t.val % 8 = 7 then k1_pay3 (step1 t.val _ _ (st1 V c t.val)).1 (if t.val % 64 = 0 then k1_pay6 else (st1 V c t.val).2.2)
      else (if t.val % 64 = 0 then k1_pay6 else (st1 V c t.val).2.2)
    by_cases hz : t.val % 64 = 0
    · simp only [if_pos hz]
    · simp only [if_neg hz, (h1 (by omega)).2]
  · rw [h8, st1_succ]
    show Agree _ _ (if t.val % 64 < 8 then _ else _)
    by_cases hn : t.val % 64 < 8
    · rw [if_pos hn, if_pos hn]
      exact h2.upd (by omega) _
    · rw [if_neg hn, if_neg hn, h2.full (by omega)]
      exact fun _ _ => rfl

end Cert.KernelIdeal.H

end
-- ==== Proof.KernelIdeal.R1BodyDefs.lean ====
/- The second pallas_call's body obligation: what the body is handed and what it returns at a grid point, and the
   reading of a whole-buffer load. -/
import proofs.«134128_j58669253263727_2_alg».proof.Proof.KernelIdeal.R1Pure

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem r1_hz2 : (![0, 0] : Fin 2 → Nat) = fun _ => 0 := funext fun a => by fin_cases a <;> rfl
theorem r1_hz3 : (![0, 0, 0] : Fin 3 → Nat) = fun _ => 0 := funext fun a => by fin_cases a <;> rfl

/-- A load of a whole memref through the whole-buffer rectangle reads the contents the memref is owned at. -/
theorem r1_ld_whole_unread {S : Shape} {e : EltTy} (m : Memref sig .tc .vmem S e) (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

/-- The invariant at a point's start and end, by point number. -/
theorem Phi1_castSucc (c : Dev nD) (t : Fin cfg1.N) : (dat1 V c).Φ t.castSucc = Phi1 V c t.val := by
  dsimp only [dat1]; simp only [Fin.coe_castSucc]
theorem Phi1_succ (c : Dev nD) (t : Fin cfg1.N) : (dat1 V c).Φ t.succ = Phi1 V c (t.val + 1) := rfl

/-- An input window is never idle: the body hands its buffer back at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]

/-- Away from each batch's last point the two result windows are idle and not written back: their buffers go back as
    they were found. -/
theorem leaves1_2_idle (c : Dev nD) (t : Fin cfg1.N) (h : ¬ t.val % 64 = 63) :
    (dat1 V c).leavesExact 2 t = iprop(∃ d, owns (c : Thread nD τ) (ms1_2 t) fullShare ((dat1 V c).before 2 t d)) :=
  Dat.leavesExact_idle (dat1 V c) 2 t (idleAt1_2 t (fun h' => h ((hc1_7 t).mp h'))) (noFlush1_2 t (fun h' => h ((hc1_7 t).mp h')))
theorem leaves1_3_idle (c : Dev nD) (t : Fin cfg1.N) (h : ¬ t.val % 64 = 63) :
    (dat1 V c).leavesExact 3 t = iprop(∃ d, owns (c : Thread nD τ) (ms1_3 t) fullShare ((dat1 V c).before 3 t d)) :=
  Dat.leavesExact_idle (dat1 V c) 3 t (idleAt1_3 t (fun h' => h ((hc1_7 t).mp h'))) (noFlush1_3 t (fun h' => h ((hc1_7 t).mp h')))

/-- At each batch's last point they are stored into: their buffers go back at what the body leaves. -/
theorem leaves1_2_live (c : Dev nD) (t : Fin cfg1.N) (h : t.val % 64 = 63) :
    (dat1 V c).leavesExact 2 t = owns (c : Thread nD τ) (ms1_2 t) fullShare (k1_pay4 (st1 V c (t.val + 1)).2.2) := by
  unfold Dat.leavesExact; rw [liveAt1_2 t ((hc1_7 t).mpr h), after1_2]
theorem leaves1_3_live (c : Dev nD) (t : Fin cfg1.N) (h : t.val % 64 = 63) :
    (dat1 V c).leavesExact 3 t = owns (c : Thread nD τ) (ms1_3 t) fullShare (k1_pay5 (st1 V c (t.val + 1)).2.1) := by
  unfold Dat.leavesExact; rw [liveAt1_3 t ((hc1_7 t).mpr h), after1_3]

end Cert.KernelIdeal.H

end
-- ==== Proof.KernelIdeal.R1RunA.lean ====
import proofs.«134128_j58669253263727_2_alg».proof.Proof.KernelIdeal.R1Pre

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The second kernel's body in case A: on whole memrefs, the inputs at their contents, the body runs to the
    continuation holding the inputs as they were and every buffer it stored into with its pieces written (last
    first); the pieces are the witness the run finds. -/
noncomputable def kernelRun1_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i)
    (x0 x1 : Vec F S1x1024x3 .f32) (xs8 : Vec F S1x8192 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ owns (c : Thread nD τ) arg8 fullShare xs8 ∗ (∃ d, owns (c : Thread nD τ) arg9 fullShare d)
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS7) ∗ (arg8.view.loc (c : Thread nD τ) ↦[arg8.view.set]{fullShare} arg8.view.writes (Elt F) (harg8.unread xs8) LS8) ∗ (∃ f, arg9.view.loc (c : Thread nD τ) ↦[arg9.view.set]{fullShare} arg9.view.writes (Elt F) f LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, ?_, fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg8.eq_unread hf8
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexact H8
    iexists _; iexact H9

end Cert.KernelIdeal.H

end
-- ==== Proof.KernelIdeal.R1RunB.lean ====
import proofs.«134128_j58669253263727_2_alg».proof.Proof.KernelIdeal.R1RunA

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The second kernel's body in case B: on whole memrefs, the inputs at their contents, the body runs to the
    continuation holding the inputs as they were and every buffer it stored into with its pieces written (last
    first); the pieces are the witness the run finds. -/
noncomputable def kernelRun1_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, [], fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.KernelIdeal.H

end
-- ==== Proof.KernelIdeal.R1RunC.lean ====
import proofs.«134128_j58669253263727_2_alg».proof.Proof.KernelIdeal.R1RunB

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The second kernel's body in case C: on whole memrefs, the inputs at their contents, the body runs to the
    continuation holding the inputs as they were and every buffer it stored into with its pieces written (last
    first); the pieces are the witness the run finds. -/
noncomputable def kernelRun1_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, ?_, fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.KernelIdeal.H

end
-- ==== Proof.KernelIdeal.R1RunD.lean ====
import proofs.«134128_j58669253263727_2_alg».proof.Proof.KernelIdeal.R1RunC

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The second kernel's body in case D: on whole memrefs, the inputs at their contents, the body runs to the
    continuation holding the inputs as they were and every buffer it stored into with its pieces written (last
    first); the pieces are the witness the run finds. -/
noncomputable def kernelRun1_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i)
    (x0 x1 : Vec F S1x1024x3 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ (∃ d, owns (c : Thread nD τ) arg7 fullShare d) ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (∃ f, arg7.view.loc (c : Thread nD τ) ↦[arg7.view.set]{fullShare} arg7.view.writes (Elt F) f LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, [], fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%d7, %f7, -, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexists _; iexact H7
    isplitl [H8]; · iexact H8
    iexact H9

end Cert.KernelIdeal.H

end
-- ==== Proof.KernelIdeal.R1RunE.lean ====
import proofs.«134128_j58669253263727_2_alg».proof.Proof.KernelIdeal.R1RunD

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The second kernel's body in case E: on whole memrefs, the inputs at their contents, the body runs to the
    continuation holding the inputs as they were and every buffer it stored into with its pieces written (last
    first); the pieces are the witness the run finds. -/
noncomputable def kernelRun1_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, [], fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.KernelIdeal.H

end
-- ==== Proof.KernelIdeal.R1RunF.lean ====
import proofs.«134128_j58669253263727_2_alg».proof.Proof.KernelIdeal.R1RunE

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The second kernel's body in case F: on whole memrefs, the inputs at their contents, the body runs to the
    continuation holding the inputs as they were and every buffer it stored into with its pieces written (last
    first); the pieces are the witness the run finds. -/
noncomputable def kernelRun1_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (xi2 xi3 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xi3 ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare xi2 ∗ owns (c : Thread nD τ) arg6 fullShare xi3 ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨[], [], ?_, ?_, ?_, fun xi2 xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2; obtain rfl := harg6.eq_unread hf3; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]; · iexact H7
    isplitl [H8]; · iexact H8
    iexact H9

end Cert.KernelIdeal.H

end
-- ==== Proof.KernelIdeal.R1RunG.lean ====
import proofs.«134128_j58669253263727_2_alg».proof.Proof.KernelIdeal.R1RunF

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The second kernel's body in case G: on whole memrefs, the inputs at their contents, the body runs to the
    continuation holding the inputs as they were and every buffer it stored into with its pieces written (last
    first); the pieces are the witness the run finds. -/
noncomputable def kernelRun1_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i)
    (x0 x1 : Vec F S1x1024x3 .f32) (xs7 : Vec F S1024x1 .f32) (xs8 : Vec F S1x8192 .f32) (xs9 : Vec F S1x1 .f32) :
    Σ' (L2 L3 : List (View.Piece (Elt F) S1x1x1 .f32)) (LS7 : List (View.Piece (Elt F) S1024x1 .f32)) (LS8 : List (View.Piece (Elt F) S1x8192 .f32)), { LS9 : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d) ∗ owns (c : Thread nD τ) arg7 fullShare xs7 ∗ owns (c : Thread nD τ) arg8 fullShare xs8 ∗ owns (c : Thread nD τ) arg9 fullShare xs9
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f L3) ∗ (arg7.view.loc (c : Thread nD τ) ↦[arg7.view.set]{fullShare} arg7.view.writes (Elt F) (harg7.unread xs7) LS7) ∗ (arg8.view.loc (c : Thread nD τ) ↦[arg8.view.set]{fullShare} arg8.view.writes (Elt F) (harg8.unread xs8) LS8) ∗ (arg9.view.loc (c : Thread nD τ) ↦[arg9.view.set]{fullShare} arg9.view.writes (Elt F) (harg9.unread xs9) LS9)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%f7, %hf7, H7⟩, ⟨%f8, %hf8, H8⟩, ⟨%f9, %hf9, H9⟩, Hk⟩
    obtain rfl := harg3.eq_unread hf0; obtain rfl := harg4.eq_unread hf1; obtain rfl := harg7.eq_unread hf7; obtain rfl := harg8.eq_unread hf8; obtain rfl := harg9.eq_unread hf9
    sl_exec (disch := first | exact h1 | exact h2 | exact h3 | exact h4 | exact h5 | exact h6 | exact h7)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [H3]; · iexists _; iexact H3
    isplitl [H7]; · iexact H7
    isplitl [H8]; · iexact H8
    iexact H9

end Cert.KernelIdeal.H

end
-- ==== Proof.KernelIdeal.R1Pieces.lean ====
import proofs.«134128_j58669253263727_2_alg».proof.Proof.KernelIdeal.R1RunG
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case's stores leave, as explicit pieces (last first): every whole-buffer load read as the
    contents, a load of what one covering store left read as its payload, the column block as a load of the
    running column minimum through its rectangle. -/

theorem L2_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).1 = [] := by unfold kernelRun1_A; rfl

theorem L3_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.1 = [] := by unfold kernelRun1_A; rfl

theorem LS7_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.2.1 = [(⟨Rect.unit (s := S1024x1) ![0, 0] S1024x1.size inb_S1024x1_S1024x1_0_0, k1_pay10 x0 x1⟩ : View.Piece (Elt F) S1024x1 .f32)] := by
  unfold kernelRun1_A; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.2.2.1 = [(⟨Rect.unit (s := S1x8192) (k1_off1 i) S1x1024.size (k1_off1_inb i h4), k1_pay1 (k1_pay9 x0 x1)⟩ : View.Piece (Elt F) S1x8192 .f32)] := by
  unfold kernelRun1_A; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_A (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 i) (h2 : c1_2 i) (h3 : ¬c1_3 i) (h4 : c1_4 i) (h5 : ¬c1_5 i) (h6 : ¬c1_6 i) (h7 : ¬c1_7 i) (x0 x1 : Vec F S1x1024x3 .f32) (xs8 : Vec F S1x8192 .f32) :
    (kernelRun1_A c i arg3 harg3 arg4 harg4 arg5 harg5 arg6 harg6 arg7 harg7 arg8 harg8 arg9 harg9 h1 h2 h3 h4 h5 h6 h7 x0 x1 xs8).2.2.2.2.1 = [(⟨Rect.unit (s := S1x1) ![0, 0] S1x1.size inb_S1x1_S1x1_0_0, k1_pay6 (F := F)⟩ : View.Piece (Elt F) S1x1 .f32)] := by
  unfold kernelRun1_A; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L2_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).1 = [] := by unfold kernelRun1_B; rfl

theorem L3_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.1 = [] := by unfold kernelRun1_B; rfl

theorem LS7_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_B; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off1 i) S1x1024.size (k1_off1_inb i h4), k1_pay1 (k1_pay9 x0 x1)⟩ : View.Piece (Elt F) S1x8192 .f32)] := by
  unfold kernelRun1_B; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_B (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_B c i arg3 harg3 arg4 harg4 arg5 harg5 arg6 harg6 arg7 harg7 arg8 harg8 arg9 harg9 h1 h2 h3 h4 h5 h6 h7 x0 x1 xs7 xs8 xs9).2.2.2.2.1 = [] := by unfold kernelRun1_B; rfl

theorem L2_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).1 = [] := by unfold kernelRun1_C; rfl

theorem L3_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.1 = [] := by unfold kernelRun1_C; rfl

theorem LS7_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_C; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off1 i) S1x1024.size (k1_off1_inb i h4), k1_pay1 (k1_pay9 x0 x1)⟩ : View.Piece (Elt F) S1x8192 .f32)] := by
  unfold kernelRun1_C; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_C (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : c1_4 i) (h5 : ¬c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_C c i arg3 harg3 arg4 harg4 arg5 harg5 arg6 harg6 arg7 harg7 arg8 harg8 arg9 harg9 h1 h2 h3 h4 h5 h6 h7 x0 x1 xs7 xs8 xs9).2.2.2.2.1 = [(⟨Rect.unit (s := S1x1) ![0, 0] S1x1.size inb_S1x1_S1x1_0_0, k1_pay3 (k1_pay11 x0 x1 xs7) xs9⟩ : View.Piece (Elt F) S1x1 .f32)] := by
  unfold kernelRun1_C; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L2_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).1 = [] := by unfold kernelRun1_D; rfl

theorem L3_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.1 = [] := by unfold kernelRun1_D; rfl

theorem LS7_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.2.1 = [(⟨Rect.unit (s := S1024x1) ![0, 0] S1024x1.size inb_S1024x1_S1024x1_0_0, k1_pay10 x0 x1⟩ : View.Piece (Elt F) S1024x1 .f32)] := by
  unfold kernelRun1_D; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_D; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_D (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : c1_2 i) (h3 : ¬c1_3 i) (h4 : ¬c1_4 i) (h5 : c1_5 i) (h6 : ¬c1_6 i) (h7 : ¬c1_7 i) (x0 x1 : Vec F S1x1024x3 .f32) (xs8 : Vec F S1x8192 .f32) (xs9 : Vec F S1x1 .f32) :
    (kernelRun1_D c i arg3 harg3 arg4 harg4 arg5 harg5 arg6 harg6 arg7 harg7 arg8 harg8 arg9 harg9 h1 h2 h3 h4 h5 h6 h7 x0 x1 xs8 xs9).2.2.2.2.1 = [] := by unfold kernelRun1_D; rfl

theorem L2_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).1 = [] := by unfold kernelRun1_E; rfl

theorem L3_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.1 = [] := by unfold kernelRun1_E; rfl

theorem LS7_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_E; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_E; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_E (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : ¬c1_6 i) (h7 : ¬c1_7 i) (x0 x1 : Vec F S1x1024x3 .f32) (xs7 : Vec F S1024x1 .f32) (xs8 : Vec F S1x8192 .f32) (xs9 : Vec F S1x1 .f32) :
    (kernelRun1_E c i arg3 harg3 arg4 harg4 arg5 harg5 arg6 harg6 arg7 harg7 arg8 harg8 arg9 harg9 h1 h2 h3 h4 h5 h6 h7 x0 x1 xs7 xs8 xs9).2.2.2.2.1 = [] := by unfold kernelRun1_E; rfl

theorem L2_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).1 = [] := by unfold kernelRun1_F; rfl

theorem L3_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.1 = [] := by unfold kernelRun1_F; rfl

theorem LS7_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_F; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_F; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_F (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : ¬c1_7 i) (x0 x1 : Vec F S1x1024x3 .f32) (xs7 : Vec F S1024x1 .f32) (xs8 : Vec F S1x8192 .f32) (xs9 : Vec F S1x1 .f32) :
    (kernelRun1_F c i arg3 harg3 arg4 harg4 arg5 harg5 arg6 harg6 arg7 harg7 arg8 harg8 arg9 harg9 h1 h2 h3 h4 h5 h6 h7 x0 x1 xs7 xs8 xs9).2.2.2.2.1 = [(⟨Rect.unit (s := S1x1) ![0, 0] S1x1.size inb_S1x1_S1x1_0_0, k1_pay3 (k1_pay11 x0 x1 xs7) xs9⟩ : View.Piece (Elt F) S1x1 .f32)] := by
  unfold kernelRun1_F; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L2_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).1 = [(⟨Rect.unit (s := S1x1x1) ![0, 0, 0] S1x1x1.size inb_S1x1x1_S1x1x1_0_0_0, k1_pay4 (k1_pay3 (k1_pay11 x0 x1 xs7) xs9)⟩ : View.Piece (Elt F) S1x1x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem L3_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.1 = [(⟨Rect.unit (s := S1x1x1) ![0, 0, 0] S1x1x1.size inb_S1x1x1_S1x1x1_0_0_0, k1_pay5 (arg8.view.read (Elt F) (arg8.view.writes (Elt F) (harg8.unread xs8) [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)]))⟩ : View.Piece (Elt F) S1x1x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS7_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.2.1 = [(⟨Rect.unit (s := S1024x1) ![0, 0] S1024x1.size inb_S1024x1_S1024x1_0_0, k1_pay11 x0 x1 xs7⟩ : View.Piece (Elt F) S1024x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS8_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.2.2.1 = [(⟨Rect.unit (s := S1x8192) (k1_off2 i) S1x1024.size (k1_off2_inb i h5), k1_pay2 (k1_pay9 x0 x1) (View.ld xs8 (Rect.unit (s := S1x8192) (k1_off2 i) S1x1024.size (k1_off2_inb i h5)))⟩ : View.Piece (Elt F) S1x8192 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

theorem LS9_G (c : Dev nD) (i : grid1.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 i) (h2 : ¬c1_2 i) (h3 : c1_3 i) (h4 : ¬c1_4 i) (h5 : c1_5 i) (h6 : c1_6 i) (h7 : c1_7 i) (x0 x1 : Vec F S1x1024x3 .f32) (xs7 : Vec F S1024x1 .f32) (xs8 : Vec F S1x8192 .f32) (xs9 : Vec F S1x1 .f32) :
    (kernelRun1_G c i arg3 harg3 arg4 harg4 arg5 harg5 arg6 harg6 arg7 harg7 arg8 harg8 arg9 harg9 h1 h2 h3 h4 h5 h6 h7 x0 x1 xs7 xs8 xs9).2.2.2.2.1 = [(⟨Rect.unit (s := S1x1) ![0, 0] S1x1.size inb_S1x1_S1x1_0_0, k1_pay3 (k1_pay11 x0 x1 xs7) xs9⟩ : View.Piece (Elt F) S1x1 .f32)] := by
  unfold kernelRun1_G; dsimp only
  all_goals sl_unfold_run_names
  all_goals simp only [View.readAt_eq_ld, harg3.read_unread, harg4.read_unread, harg7.read_unread, harg8.read_unread, harg9.read_unread, View.ld_unit_zero (S := S1x1024x3) hz3, View.ld_unit_zero (S := S1024x1) hz2, View.ld_unit_zero (S := S1x1) hz2, View.ld_unit_zero (S := S1x8192) hz2, View.readCov_unit_zero (S := S1024x1) _ hz2, View.readCov_unit_zero (S := S1x1) _ hz2]
  all_goals rfl

end Cert.KernelIdeal.H

end
-- ==== Proof.KernelIdeal.R1BodyA.lean ====
/- The second pallas_call's body at the first point of a batch (n = 0, m = 0): the running sum is reset, the row minimum
   and the column block's minimum are started. -/
import proofs.«134128_j58669253263727_2_alg».proof.Proof.KernelIdeal.R1BodyDefs
import proofs.«134128_j58669253263727_2_alg».proof.Proof.KernelIdeal.R1Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_A (c : Dev nD) (t : Fin cfg1.N) (hA : t.val % 64 = 0) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : c1_1 (grid1.coords t)) (h2 : c1_2 (grid1.coords t)) (h3 : ¬c1_3 (grid1.coords t)) (h4 : c1_4 (grid1.coords t)) (h5 : ¬c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) (f7 : arg7.view.ty.Contents (Elt F)) (f9 : arg9.view.ty.Contents (Elt F)) :
    Inv1 V c (t.val + 1) (arg7.view.read (Elt F) (arg7.view.writes (Elt F) f7 (kernelRun1_A c (grid1.coords t) arg3 harg3 arg4 harg4 arg5 harg5 arg6 harg6 arg7 harg7 arg8 harg8 arg9 harg9 h1 h2 h3 h4 h5 h6 h7 (iblk1 V c 0 t) (iblk1 V c 1 t) s8).2.2.1))
      (arg8.view.read (Elt F) (arg8.view.writes (Elt F) (harg8.unread s8) (kernelRun1_A c (grid1.coords t) arg3 harg3 arg4 harg4 arg5 harg5 arg6 harg6 arg7 harg7 arg8 harg8 arg9 harg9 h1 h2 h3 h4 h5 h6 h7 (iblk1 V c 0 t) (iblk1 V c 1 t) s8).2.2.2.1))
      (arg9.view.read (Elt F) (arg9.view.writes (Elt F) f9 (kernelRun1_A c (grid1.coords t) arg3 harg3 arg4 harg4 arg5 harg5 arg6 harg6 arg7 harg7 arg8 harg8 arg9 harg9 h1 h2 h3 h4 h5 h6 h7 (iblk1 V c 0 t) (iblk1 V c 1 t) s8).2.2.2.2.1)) := by
  have hN : t.val < 256 := lt_of_lt_of_eq t.isLt (show cfg1.N = 256 from N_1)
  refine inv_next V c t hinv _ _ _ ?_ ?_ ?_
  · rw [if_pos (by omega), LS7_A]; exact read_whole_store _ _ r1_hz2 _ _
  · rw [if_pos (by omega), LS8_A]; exact read_block_store arg8 harg8 s8 (t.val % 8) (off1_eq t) _ _
  · rw [if_neg (by omega), if_pos hA, LS9_A]; exact read_whole_store _ _ r1_hz2 _ _

set_option maxHeartbeats 4800000 in
/-- The body at such a point: the invariant hands over the scratch buffers, the case's run applies, and the invariant is
    re-established at the next point. -/
theorem sound_body1_A (c : Dev nD) (t : Fin cfg1.N) (hA : t.val % 64 = 0) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : c1_1 (grid1.coords t) := (hc1_1 t).mpr (by omega)
  have h2 : c1_2 (grid1.coords t) := (hc1_2 t).mpr (by omega)
  have h3 : ¬c1_3 (grid1.coords t) := fun h => by have := (hc1_3 t).mp h; omega
  have h4 : c1_4 (grid1.coords t) := (hc1_4 t).mpr (by omega)
  have h5 : ¬c1_5 (grid1.coords t) := fun h => by have := (hc1_5 t).mp h; omega
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s8).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexists _; iexact H7
  isplitl [H8]; · iexact H8
  isplitl [H9]; · iexists _; iexact H9
  iintro ⟨H0, H1, H2, H3, ⟨%f7, H7⟩, H8, ⟨%f9, H9⟩⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_A V c t hA _ _ _ _ _ _ _ _ _ _ _ _ _ _ h1 h2 h3 h4 h5 h6 h7 hinv _ _
    isplitl [Hr]; · iexact Hr
    iexact Hg
  isplitl [Ho]; · iexact Ho
  isplitl [H0]; · iexact H0
  isplitl [H1]; · iexact H1
  isplitl [H2]; · iexists _; iexact H2
  iexists _; iexact H3

end Cert.KernelIdeal.H

end
-- ==== Proof.KernelIdeal.R1BodyB.lean ====
/- The second pallas_call's body at a point with n = 0 and 0 < m < 7: the row minimum is continued, the column block's
   minimum is started. -/
import proofs.«134128_j58669253263727_2_alg».proof.Proof.KernelIdeal.R1BodyDefs
import proofs.«134128_j58669253263727_2_alg».proof.Proof.KernelIdeal.R1Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_B (c : Dev nD) (t : Fin cfg1.N) (hA : ¬ t.val % 64 = 0) (hn : t.val % 64 < 8) (hm : ¬ t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : c1_4 (grid1.coords t)) (h5 : ¬c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_B c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_B c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_B c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_B]; exact read_whole_store _ _ r1_hz2 _ _
  · rw [if_pos (by omega), LS8_B]; exact read_block_store arg8 harg8 s8 (t.val % 8) (off1_eq t) _ _
  · rw [if_neg (by omega), if_neg (by omega), LS9_B]; exact read_no_store arg9 harg9 s9

set_option maxHeartbeats 4800000 in
/-- The body at such a point: the invariant hands over the scratch buffers, the case's run applies, and the invariant is
    re-established at the next point. -/
theorem sound_body1_B (c : Dev nD) (t : Fin cfg1.N) (hA : ¬ t.val % 64 = 0) (hn : t.val % 64 < 8) (hm : ¬ t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : c1_4 (grid1.coords t) := (hc1_4 t).mpr (by omega)
  have h5 : ¬c1_5 (grid1.coords t) := fun h => by have := (hc1_5 t).mp h; omega
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_B V c t hA hn hm _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.KernelIdeal.H

end
-- ==== Proof.KernelIdeal.R1BodyC.lean ====
/- The second pallas_call's body at the point n = 0, m = 7: the row minimum is continued and finished — it is added to
   the running sum —, the column block's minimum is started. -/
import proofs.«134128_j58669253263727_2_alg».proof.Proof.KernelIdeal.R1BodyDefs
import proofs.«134128_j58669253263727_2_alg».proof.Proof.KernelIdeal.R1Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_C (c : Dev nD) (t : Fin cfg1.N) (hn : t.val % 64 < 8) (hm : t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : c1_4 (grid1.coords t)) (h5 : ¬c1_5 (grid1.coords t)) (h6 : c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_C c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_C c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_C c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_C]; exact read_whole_store _ _ r1_hz2 _ _
  · rw [if_pos (by omega), LS8_C]; exact read_block_store arg8 harg8 s8 (t.val % 8) (off1_eq t) _ _
  · rw [if_pos (by omega), if_neg (by omega), LS9_C, LS7_C]
    rw [read_whole_store _ _ r1_hz2, read_whole_store _ _ r1_hz2]

set_option maxHeartbeats 4800000 in
/-- The body at such a point: the invariant hands over the scratch buffers, the case's run applies, and the invariant is
    re-established at the next point. -/
theorem sound_body1_C (c : Dev nD) (t : Fin cfg1.N) (hn : t.val % 64 < 8) (hm : t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : c1_4 (grid1.coords t) := (hc1_4 t).mpr (by omega)
  have h5 : ¬c1_5 (grid1.coords t) := fun h => by have := (hc1_5 t).mp h; omega
  have h6 : c1_6 (grid1.coords t) := (hc1_6 t).mpr (by omega)
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_C V c t hn hm _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.KernelIdeal.H

end
-- ==== Proof.KernelIdeal.R1BodyD.lean ====
/- The second pallas_call's body at a point with n > 0 and m = 0: the row minimum is started, the column block's minimum
   is continued. -/
import proofs.«134128_j58669253263727_2_alg».proof.Proof.KernelIdeal.R1BodyDefs
import proofs.«134128_j58669253263727_2_alg».proof.Proof.KernelIdeal.R1Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_D (c : Dev nD) (t : Fin cfg1.N) (hn : ¬ t.val % 64 < 8) (hm : t.val % 8 = 0) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : c1_2 (grid1.coords t)) (h3 : ¬c1_3 (grid1.coords t)) (h4 : ¬c1_4 (grid1.coords t)) (h5 : c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) (f7 : arg7.view.ty.Contents (Elt F)) :
    Inv1 V c (t.val + 1) (arg7.view.read (Elt F) (arg7.view.writes (Elt F) f7 (kernelRun1_D c (grid1.coords t) arg3 harg3 arg4 harg4 arg5 harg5 arg6 harg6 arg7 harg7 arg8 harg8 arg9 harg9 h1 h2 h3 h4 h5 h6 h7 (iblk1 V c 0 t) (iblk1 V c 1 t) s8 s9).2.2.1))
      (arg8.view.read (Elt F) (arg8.view.writes (Elt F) (harg8.unread s8) (kernelRun1_D c (grid1.coords t) arg3 harg3 arg4 harg4 arg5 harg5 arg6 harg6 arg7 harg7 arg8 harg8 arg9 harg9 h1 h2 h3 h4 h5 h6 h7 (iblk1 V c 0 t) (iblk1 V c 1 t) s8 s9).2.2.2.1))
      (arg9.view.read (Elt F) (arg9.view.writes (Elt F) (harg9.unread s9) (kernelRun1_D c (grid1.coords t) arg3 harg3 arg4 harg4 arg5 harg5 arg6 harg6 arg7 harg7 arg8 harg8 arg9 harg9 h1 h2 h3 h4 h5 h6 h7 (iblk1 V c 0 t) (iblk1 V c 1 t) s8 s9).2.2.2.2.1)) := by
  have hN : t.val < 256 := lt_of_lt_of_eq t.isLt (show cfg1.N = 256 from N_1)
  refine inv_next V c t hinv _ _ _ ?_ ?_ ?_
  · rw [if_pos (by omega), LS7_D]; exact read_whole_store _ _ r1_hz2 _ _
  · rw [if_neg (by omega), LS8_D]
    refine (read_block_store arg8 harg8 s8 (t.val % 8) (off2_eq t) _ _).trans ?_
    rw [ld_block s8 (t.val % 8) (by omega) (off2_eq t)]
  · rw [if_neg (by omega), if_neg (by omega), LS9_D]; exact read_no_store arg9 harg9 s9

set_option maxHeartbeats 4800000 in
/-- The body at such a point: the invariant hands over the scratch buffers, the case's run applies, and the invariant is
    re-established at the next point. -/
theorem sound_body1_D (c : Dev nD) (t : Fin cfg1.N) (hn : ¬ t.val % 64 < 8) (hm : t.val % 8 = 0) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : c1_2 (grid1.coords t) := (hc1_2 t).mpr (by omega)
  have h3 : ¬c1_3 (grid1.coords t) := fun h => by have := (hc1_3 t).mp h; omega
  have h4 : ¬c1_4 (grid1.coords t) := fun h => by have := (hc1_4 t).mp h; omega
  have h5 : c1_5 (grid1.coords t) := (hc1_5 t).mpr (by omega)
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexists _; iexact H7
  isplitl [H8]; · iexact H8
  isplitl [H9]; · iexact H9
  iintro ⟨H0, H1, H2, H3, ⟨%f7, H7⟩, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_D V c t hn hm _ _ _ _ _ _ _ _ _ _ _ _ _ _ h1 h2 h3 h4 h5 h6 h7 hinv _
    isplitl [Hr]; · iexact Hr
    iexact Hg
  isplitl [Ho]; · iexact Ho
  isplitl [H0]; · iexact H0
  isplitl [H1]; · iexact H1
  isplitl [H2]; · iexists _; iexact H2
  iexists _; iexact H3

end Cert.KernelIdeal.H

end
-- ==== Proof.KernelIdeal.R1BodyE.lean ====
/- The second pallas_call's body at a point with n > 0 and 0 < m < 7: both running minima are continued. -/
import proofs.«134128_j58669253263727_2_alg».proof.Proof.KernelIdeal.R1BodyDefs
import proofs.«134128_j58669253263727_2_alg».proof.Proof.KernelIdeal.R1Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_E (c : Dev nD) (t : Fin cfg1.N) (hn : ¬ t.val % 64 < 8) (hm0 : ¬ t.val % 8 = 0) (hm7 : ¬ t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : ¬c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_E c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_E c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_E c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_E]; exact read_whole_store _ _ r1_hz2 _ _
  · rw [if_neg (by omega), LS8_E]
    refine (read_block_store arg8 harg8 s8 (t.val % 8) (off2_eq t) _ _).trans ?_
    rw [ld_block s8 (t.val % 8) (by omega) (off2_eq t)]
  · rw [if_neg (by omega), if_neg (by omega), LS9_E]; exact read_no_store arg9 harg9 s9

set_option maxHeartbeats 4800000 in
/-- The body at such a point: the invariant hands over the scratch buffers, the case's run applies, and the invariant is
    re-established at the next point. -/
theorem sound_body1_E (c : Dev nD) (t : Fin cfg1.N) (hn : ¬ t.val % 64 < 8) (hm0 : ¬ t.val % 8 = 0) (hm7 : ¬ t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : ¬c1_4 (grid1.coords t) := fun h => by have := (hc1_4 t).mp h; omega
  have h5 : c1_5 (grid1.coords t) := (hc1_5 t).mpr (by omega)
  have h6 : ¬c1_6 (grid1.coords t) := fun h => by have := (hc1_6 t).mp h; omega
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_E c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_E V c t hn hm0 hm7 _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.KernelIdeal.H

end
-- ==== Proof.KernelIdeal.R1BodyF.lean ====
/- The second pallas_call's body at a point with 0 < n, m = 7, not the batch's last: both running minima are continued
   and the finished row minimum is added to the running sum. -/
import proofs.«134128_j58669253263727_2_alg».proof.Proof.KernelIdeal.R1BodyDefs
import proofs.«134128_j58669253263727_2_alg».proof.Proof.KernelIdeal.R1Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_F (c : Dev nD) (t : Fin cfg1.N) (hG : ¬ t.val % 64 = 63) (hn : ¬ t.val % 64 < 8) (hm : t.val % 8 = 7) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : ¬c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_F c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_F c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_F c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_F]; exact read_whole_store _ _ r1_hz2 _ _
  · rw [if_neg (by omega), LS8_F]
    refine (read_block_store arg8 harg8 s8 (t.val % 8) (off2_eq t) _ _).trans ?_
    rw [ld_block s8 (t.val % 8) (by omega) (off2_eq t)]
  · rw [if_pos (by omega), if_neg (by omega), LS9_F, LS7_F]
    rw [read_whole_store _ _ r1_hz2, read_whole_store _ _ r1_hz2]

set_option maxHeartbeats 4800000 in
/-- The body at such a point: the invariant hands over the scratch buffers, the case's run applies, and the invariant is
    re-established at the next point. -/
theorem sound_body1_F (c : Dev nD) (t : Fin cfg1.N) (hG : ¬ t.val % 64 = 63) (hn : ¬ t.val % 64 < 8) (hm : t.val % 8 = 7) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : ¬c1_4 (grid1.coords t) := fun h => by have := (hc1_4 t).mp h; omega
  have h5 : c1_5 (grid1.coords t) := (hc1_5 t).mpr (by omega)
  have h6 : c1_6 (grid1.coords t) := (hc1_6 t).mpr (by omega)
  have h7 : ¬c1_7 (grid1.coords t) := fun h => by have := (hc1_7 t).mp h; omega
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_idle V c t (by omega), leaves1_3_idle V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_F c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 ((dat1 V c).before 2 t d2) ((dat1 V c).before 3 t d3) Set.univ _)
  isplitl [H0]; · iexact H0
  isplitl [H1]; · iexact H1
  isplitl [H2]; · iexact H2
  isplitl [H3]; · iexact H3
  isplitl [H7]; · iexact H7
  isplitl [H8]; · iexact H8
  isplitl [H9]; · iexact H9
  iintro ⟨H0, H1, H2, H3, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_F V c t hG hn hm _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]; · iexists _; iexact H2
  iexists _; iexact H3

end Cert.KernelIdeal.H

end
-- ==== Proof.KernelIdeal.R1BodyG.lean ====
/- The second pallas_call's body at the last point of a batch (n = 7, m = 7): both running minima are continued, the
   finished row minimum is added to the running sum, and the two result blocks are stored. -/
import proofs.«134128_j58669253263727_2_alg».proof.Proof.KernelIdeal.R1BodyDefs
import proofs.«134128_j58669253263727_2_alg».proof.Proof.KernelIdeal.R1Pieces

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

set_option maxHeartbeats 2000000 in
/-- What the point leaves in the three scratch buffers satisfies the invariant at the next point. -/
theorem inv1_G (c : Dev nD) (t : Fin cfg1.N) (hG : t.val % 64 = 63) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : c1_7 (grid1.coords t))
    {s7 : Vec F S1024x1 .f32} {s8 : Vec F S1x8192 .f32} {s9 : Vec F S1x1 .f32} (hinv : Inv1 V c t.val s7 s8 s9) :
    Inv1 V c (t.val + 1) (arg7.view.read (Elt F) (arg7.view.writes (Elt F) (harg7.unread s7) (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.1))
      (arg8.view.read (Elt F) (arg8.view.writes (Elt F) (harg8.unread s8) (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.1))
      (arg9.view.read (Elt F) (arg9.view.writes (Elt F) (harg9.unread s9) (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.2.2.2.1)) := by
  have hN : t.val < 256 := lt_of_lt_of_eq t.isLt (show cfg1.N = 256 from N_1)
  refine inv_next V c t hinv _ _ _ ?_ ?_ ?_
  · rw [if_neg (by omega), LS7_G]; exact read_whole_store _ _ r1_hz2 _ _
  · rw [if_neg (by omega), LS8_G]
    refine (read_block_store arg8 harg8 s8 (t.val % 8) (off2_eq t) _ _).trans ?_
    rw [ld_block s8 (t.val % 8) (by omega) (off2_eq t)]
  · rw [if_pos (by omega), if_neg (by omega), LS9_G, LS7_G]
    rw [read_whole_store _ _ r1_hz2, read_whole_store _ _ r1_hz2]

set_option maxHeartbeats 2000000 in
/-- The first result block: the mean of the running sum as the next point's state names it. -/
theorem out2_G (c : Dev nD) (t : Fin cfg1.N) (hG : t.val % 64 = 63) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : c1_7 (grid1.coords t))
    {s7 : Vec F S1024x1 .f32} {s8 : Vec F S1x8192 .f32} {s9 : Vec F S1x1 .f32} (hinv : Inv1 V c t.val s7 s8 s9) (f2 : arg5.view.ty.Contents (Elt F)) :
    arg5.view.read (Elt F) (arg5.view.writes (Elt F) f2 (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).1) = k1_pay4 (st1 V c (t.val + 1)).2.2 := by
  have hN : t.val < 256 := lt_of_lt_of_eq t.isLt (show cfg1.N = 256 from N_1)
  have e9 := ((inv1_G V c t hG arg3 harg3 arg4 harg4 arg5 harg5 arg6 harg6 arg7 harg7 arg8 harg8 arg9 harg9 h1 h2 h3 h4 h5 h6 h7 hinv).1 (by omega)).2
  rw [← e9, LS9_G, L2_G]
  refine (read_whole_store arg5.view f2 r1_hz3 _ _).trans ?_
  refine congrArg (k1_pay4 (F := F)) ?_
  exact (read_whole_store arg9.view _ r1_hz2 _ _).symm

set_option maxHeartbeats 2000000 in
/-- The second result block: the mean over the finished column minima as the next point's state names them. -/
theorem out3_G (c : Dev nD) (t : Fin cfg1.N) (hG : t.val % 64 = 63) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1024x1 .f32) (harg7 : arg7.IsWhole) (arg8 : Memref sig .tc .vmem S1x8192 .f32) (harg8 : arg8.IsWhole) (arg9 : Memref sig .tc .vmem S1x1 .f32) (harg9 : arg9.IsWhole) (h1 : ¬c1_1 (grid1.coords t)) (h2 : ¬c1_2 (grid1.coords t)) (h3 : c1_3 (grid1.coords t)) (h4 : ¬c1_4 (grid1.coords t)) (h5 : c1_5 (grid1.coords t)) (h6 : c1_6 (grid1.coords t)) (h7 : c1_7 (grid1.coords t))
    {s7 : Vec F S1024x1 .f32} {s8 : Vec F S1x8192 .f32} {s9 : Vec F S1x1 .f32} (hinv : Inv1 V c t.val s7 s8 s9) (f3 : arg6.view.ty.Contents (Elt F)) :
    arg6.view.read (Elt F) (arg6.view.writes (Elt F) f3 (kernelRun1_G c (grid1.coords t) arg3 harg3 arg4 harg4 arg5 harg5 arg6 harg6 arg7 harg7 arg8 harg8 arg9 harg9 h1 h2 h3 h4 h5 h6 h7 (iblk1 V c 0 t) (iblk1 V c 1 t) s7 s8 s9).2.1) = k1_pay5 (st1 V c (t.val + 1)).2.1 := by
  have hN : t.val < 256 := lt_of_lt_of_eq t.isLt (show cfg1.N = 256 from N_1)
  have e8 := (inv1_G V c t hG arg3 harg3 arg4 harg4 arg5 harg5 arg6 harg6 arg7 harg7 arg8 harg8 arg9 harg9 h1 h2 h3 h4 h5 h6 h7 hinv).2.full (by omega)
  rw [← e8, LS8_G, L3_G]
  exact read_whole_store arg6.view f3 r1_hz3 _ _

set_option maxHeartbeats 4800000 in
/-- The body at such a point: the invariant hands over the scratch buffers, the case's run applies, and the invariant is
    re-established at the next point. -/
theorem sound_body1_G (c : Dev nD) (t : Fin cfg1.N) (hG : t.val % 64 = 63) :
    bodyPre1 V c t ⊢ wp frame (wpE (defs₀ (F := F)) Variants.none c none) Set.univ (bodyAt1 t) (fun _ => bodyPost1 V c t) := by
  have hN : t.val < 256 := lt_of_lt_of_eq t.isLt (show cfg1.N = 256 from N_1)
  have h1 : ¬c1_1 (grid1.coords t) := fun h => by have := (hc1_1 t).mp h; omega
  have h2 : ¬c1_2 (grid1.coords t) := fun h => by have := (hc1_2 t).mp h; omega
  have h3 : c1_3 (grid1.coords t) := (hc1_3 t).mpr (by omega)
  have h4 : ¬c1_4 (grid1.coords t) := fun h => by have := (hc1_4 t).mp h; omega
  have h5 : c1_5 (grid1.coords t) := (hc1_5 t).mpr (by omega)
  have h6 : c1_6 (grid1.coords t) := (hc1_6 t).mpr (by omega)
  have h7 : c1_7 (grid1.coords t) := (hc1_7 t).mpr (by omega)
  unfold bodyPre1 bodyPost1 bodyAt1
  simp only [before1_0, before1_1]
  rw [show (dat1 V c).owesAt () t.succ = (dat1 V c).owesAt () t.castSucc from rfl]
  rw [Phi1_succ, Phi1_castSucc, leaves1_0, leaves1_1]
  rw [leaves1_2_live V c t (by omega), leaves1_3_live V c t (by omega)]
  unfold Phi1
  iintro ⟨⟨%s7, %s8, %s9, H7, H8, H9, %hinv, Hr, Hg⟩, Ho, ⟨%d0, H0⟩, ⟨%d1, H1⟩, ⟨%d2, H2⟩, ⟨%d3, H3⟩⟩
  iapply ((kernelRun1_G c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) h1 h2 h3 h4 h5 h6 h7 (iblk1 V c 0 t) (iblk1 V c 1 t) s7 s8 s9).2.2.2.2.2 Set.univ _)
  isplitl [H0]; · iexact H0
  isplitl [H1]; · iexact H1
  isplitl [H2]; · iexists _; iexact H2
  isplitl [H3]; · iexists _; iexact H3
  isplitl [H7]; · iexact H7
  isplitl [H8]; · iexact H8
  isplitl [H9]; · iexact H9
  iintro ⟨H0, H1, ⟨%f2, H2⟩, ⟨%f3, H3⟩, H7, H8, H9⟩
  isplitl [H7 H8 H9 Hr Hg]
  · iexists _; iexists _; iexists _
    isplitl [H7]; · iapply owns_intro; iexact H7
    isplitl [H8]; · iapply owns_intro; iexact H8
    isplitl [H9]; · iapply owns_intro; iexact H9
    isplitr
    · ipureintro
      exact inv1_G V c t hG _ _ _ _ _ _ _ _ _ _ _ _ _ _ h1 h2 h3 h4 h5 h6 h7 hinv
    isplitl [Hr]; · iexact Hr
    iexact Hg
  isplitl [Ho]; · iexact Ho
  isplitl [H0]; · iexact H0
  isplitl [H1]; · iexact H1
  isplitl [H2]
  · unfold owns; iexists _; isplitr
    swap; · iexact H2
    ipureintro; exact out2_G V c t hG _ _ _ _ _ _ _ _ _ _ _ _ _ _ h1 h2 h3 h4 h5 h6 h7 hinv _
  unfold owns; iexists _; isplitr
  swap; · iexact H3
  ipureintro; exact out3_G V c t hG _ _ _ _ _ _ _ _ _ _ _ _ _ _ h1 h2 h3 h4 h5 h6 h7 hinv _

end Cert.KernelIdeal.H

end
-- ==== Proof.KernelIdeal.R1Body.lean ====
/- The second pallas_call's body obligation: the point number decides which of the seven control cases a grid point is
   in (point t = 64 b + 8 n + m), and that case's lemma applies. -/
import proofs.«134128_j58669253263727_2_alg».proof.Proof.KernelIdeal.R1BodyA
import proofs.«134128_j58669253263727_2_alg».proof.Proof.KernelIdeal.R1BodyB
import proofs.«134128_j58669253263727_2_alg».proof.Proof.KernelIdeal.R1BodyC
import proofs.«134128_j58669253263727_2_alg».proof.Proof.KernelIdeal.R1BodyD
import proofs.«134128_j58669253263727_2_alg».proof.Proof.KernelIdeal.R1BodyE
import proofs.«134128_j58669253263727_2_alg».proof.Proof.KernelIdeal.R1BodyF
import proofs.«134128_j58669253263727_2_alg».proof.Proof.KernelIdeal.R1BodyG

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The body at any point, by cases on n = (t / 8) % 8 and m = t % 8. -/
theorem sound_body1 (c : Dev nD) (t : Fin cfg1.N) :
    bodyPre1 V c t ⊢ wp frame (wpE (defs₀ (F := F)) Variants.none c none) Set.univ (bodyAt1 t) (fun _ => bodyPost1 V c t) := by
  by_cases hA : t.val % 64 = 0
  · exact sound_body1_A V c t hA
  by_cases hG : t.val % 64 = 63
  · exact sound_body1_G V c t hG
  by_cases hn : t.val % 64 < 8
  · by_cases hm : t.val % 8 = 7
    · exact sound_body1_C V c t hn hm
    · exact sound_body1_B V c t hA hn hm
  by_cases hm0 : t.val % 8 = 0
  · exact sound_body1_D V c t hn hm0
  by_cases hm7 : t.val % 8 = 7
  · exact sound_body1_F V c t hG hn hm7
  · exact sound_body1_E V c t hn hm0 hm7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KernelIdeal.Run.lean ====
/- The whole program's run: its two kernel regions and the host lines between and after them composed in order, with
   the contents of every buffer named at each boundary. From it: the argument arrays end as launched, and every result
   buffer ends at the host lines' terms over what the two regions wrote back. -/
import proofs.«134128_j58669253263727_2_alg».proof.Proof.Gen.KernelIdeal.Launch
import proofs.«134128_j58669253263727_2_alg».proof.Proof.Gen.KernelIdeal.Skeleton
import proofs.«134128_j58669253263727_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134128_j58669253263727_2_alg».proof.Proof.Gen.KernelIdeal.Regions
import proofs.«134128_j58669253263727_2_alg».proof.Proof.KernelIdeal.R0
import proofs.«134128_j58669253263727_2_alg».proof.Proof.KernelIdeal.R1Body

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry: no host line comes before it). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what its write-backs leave, every other buffer untouched. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host lines between the regions (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the last host lines: the program's end. -/
abbrev W4 : Dev nD → Valuation τ sig (Elt F) := fun c => StableHlo.after hostOps2 (W3 m ρ c)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0 m ρ) c
  | ⟨1, _⟩ => fun c => dat1 (V2 m ρ) c
abbrev 𝒱₀ : Variants := Variants.none
abbrev L₀ : GSem nD τ sig → Finset Unit := fun _ => ∅
abbrev lv₀ : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region over the thread state: entered from every unscoped buffer at the launch contents, left at `W1`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L₀ lv₀ 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L₀ lv₀ 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm' (pdats m ρ) () defs₀ 𝒱₀ L₀ lv₀) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing faulting,
    and in every final state every unscoped buffer holds the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm' (pdats m ρ) () cellOf_inj emb₁ defs₀ 𝒱₀ L₀ lv₀ m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, Ho⟩
      isplitl [Hh Hp]
      · isplitl [Hh]; · iexact Hh
        iexact Hp
      iexact Ho⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What no segment changes -/

/-- A buffer that neither stretch of host lines writes and that is no output array of a region ends as launched. -/
theorem W4_keep (c : Dev nD) (r : Ref sig .tc) (h2 : r ∉ hostOps2_W) (h1 : r ∉ hostOps1_W)
    (hne : r ≠ main_v0 ∧ r ≠ main_v14_0 ∧ r ≠ main_v14_1) :
    W4 m ρ c (Proc.devRef .tc r) = m ((c : Thread nD τ).loc r) := by
  have e43 : W4 m ρ c (Proc.devRef .tc r) = W3 m ρ c (Proc.devRef .tc r) :=
    StableHlo.after_of_writes_sub hostOps2 _ hostOps2_writes h2
  have e32 : W3 m ρ c (Proc.devRef .tc r) = W2 m ρ c (Proc.devRef .tc r) := by
    by_cases h : ∃ w, Pipeline.arrRef spec1 w = r
    · obtain ⟨w, rfl⟩ := h
      fin_cases w
      · exact (W3_arr m ρ c 0).trans (((dat1 (V2 m ρ) c).arrAt_in 0 rfl _).trans (A_eq1 (V2 m ρ) c 0))
      · exact (W3_arr m ρ c 1).trans (((dat1 (V2 m ρ) c).arrAt_in 1 rfl _).trans (A_eq1 (V2 m ρ) c 1))
      · exact absurd rfl hne.2.1
      · exact absurd rfl hne.2.2
    · exact W3_of_ne m ρ c r fun w e => h ⟨w, e⟩
  have e21 : W2 m ρ c (Proc.devRef .tc r) = W1 m ρ c (Proc.devRef .tc r) :=
    StableHlo.after_of_writes_sub hostOps1 _ hostOps1_writes h1
  have e10 : W1 m ρ c (Proc.devRef .tc r) = W0 m ρ c (Proc.devRef .tc r) := by
    by_cases h : ∃ w, Pipeline.arrRef spec0 w = r
    · obtain ⟨w, rfl⟩ := h
      fin_cases w
      · exact (W1_arr m ρ c 0).trans (((dat0 (V0 m ρ) c).arrAt_in 0 rfl _).trans (A_eq0 (V0 m ρ) c 0))
      · exact (W1_arr m ρ c 1).trans (((dat0 (V0 m ρ) c).arrAt_in 1 rfl _).trans (A_eq0 (V0 m ρ) c 1))
      · exact (W1_arr m ρ c 2).trans (((dat0 (V0 m ρ) c).arrAt_in 2 rfl _).trans (A_eq0 (V0 m ρ) c 2))
      · exact (W1_arr m ρ c 3).trans (((dat0 (V0 m ρ) c).arrAt_in 3 rfl _).trans (A_eq0 (V0 m ρ) c 3))
      · exact (W1_arr m ρ c 4).trans (((dat0 (V0 m ρ) c).arrAt_in 4 rfl _).trans (A_eq0 (V0 m ρ) c 4))
      · exact (W1_arr m ρ c 5).trans (((dat0 (V0 m ρ) c).arrAt_in 5 rfl _).trans (A_eq0 (V0 m ρ) c 5))
      · exact (W1_arr m ρ c 6).trans (((dat0 (V0 m ρ) c).arrAt_in 6 rfl _).trans (A_eq0 (V0 m ρ) c 6))
      · exact (W1_arr m ρ c 7).trans (((dat0 (V0 m ρ) c).arrAt_in 7 rfl _).trans (A_eq0 (V0 m ρ) c 7))
      · exact absurd rfl hne.1
    · exact W1_of_ne m ρ c r fun w e => h ⟨w, e⟩
  exact e43.trans (e32.trans (e21.trans (e10.trans rfl)))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_keep m ρ c main_arg0 (by decide) (by decide) (by decide)),
     (h c _ (mem_uc main_arg1 (by decide))).trans (W4_keep m ρ c main_arg1 (by decide) (by decide) (by decide)),
     (h c _ (mem_uc main_arg2 (by decide))).trans (W4_keep m ρ c main_arg2 (by decide) (by decide) (by decide)),
     (h c _ (mem_uc main_arg3 (by decide))).trans (W4_keep m ρ c main_arg3 (by decide) (by decide) (by decide)),
     (h c _ (mem_uc main_arg4 (by decide))).trans (W4_keep m ρ c main_arg4 (by decide) (by decide) (by decide)),
     (h c _ (mem_uc main_arg5 (by decide))).trans (W4_keep m ρ c main_arg5 (by decide) (by decide) (by decide)),
     (h c _ (mem_uc main_arg6 (by decide))).trans (W4_keep m ρ c main_arg6 (by decide) (by decide) (by decide)),
     (h c _ (mem_uc main_arg7 (by decide))).trans (W4_keep m ρ c main_arg7 (by decide) (by decide) (by decide)),
     (h c _ (mem_uc main_arg8 (by decide))).trans (W4_keep m ρ c main_arg8 (by decide) (by decide) (by decide))⟩)
    (run_all m ρ)

end Cert.KernelIdeal.H

end
-- ==== Proof.KernelIdeal.R0Val.lean ====
import proofs.«134128_j58669253263727_2_alg».proof.Proof.KernelIdeal.R0
import Idealize.ShloMosaic.Lib.Pipeline.Value

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The first pallas_call: its result block as one term over the input blocks

The pieces the two runs found, read as the skeleton's payloads: every load and store of the body goes through the
whole-buffer rectangle at offset zero, so a load reads the buffer's contents and the last store leaves its payload. -/

theorem r0_hz2 : (![0, 0] : Fin 2 → Nat) = fun _ => 0 := funext fun a => by fin_cases a <;> rfl
theorem r0_hz3 : (![0, 0, 0] : Fin 3 → Nat) = fun _ => 0 := funext fun a => by fin_cases a <;> rfl

/-- A load of a whole memref through the whole-buffer rectangle reads the contents the memref is owned at. -/
theorem r0_ld_whole_unread {S : Shape} {e : EltTy} (m : Memref sig .tc .vmem S e) (h : m.IsWhole) {off : Fin S.rank → Nat}
    (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

section Region0

variable (V : (c : Dev nD) → (b : Ref sig .tc) → Buf (Elt F) ((c : Thread nD τ).loc b))

/-- The three whole-array sums the first point leaves in the 3×1 scratch, over the six whole input windows. -/
theorem s0A_1_eq (c : Dev nD) :
    s0A_1 V c = k0_pay1 (k0_pay5 (iblk0 V c 0 t0_0) (iblk0 V c 1 t0_0) (iblk0 V c 2 t0_0) (iblk0 V c 3 t0_0) (iblk0 V c 6 t0_0) (iblk0 V c 7 t0_0)) := by
  unfold s0A_1 sout0_A_1
  unfold kernelRun0_A
  dsimp only
  sl_unfold_words
  refine (View.canon_unit_zero r0_hz2 _ _).trans ?_
  simp only [View.readAt_eq_ld, Memref.IsWhole.read_unread, View.ld_unit_zero (S := S4x8192x3) r0_hz3, View.ld_unit_zero (S := S4x512) r0_hz2]

/-- The running sum the first point leaves in the 1×1 scratch: the first block sum added to zero. -/
theorem s0A_0_eq (c : Dev nD) :
    s0A_0 V c = k0_pay2 (iblk0 V c 4 t0_0) (iblk0 V c 5 t0_0) k0_pay4 := by
  unfold s0A_0 sout0_A_0
  unfold kernelRun0_A
  dsimp only
  sl_unfold_words
  refine (View.canon_cons_unit_zero r0_hz2 _ _ _).trans ?_
  refine congr (congr (congrArg (k0_pay2 (F := F)) ?_) ?_) ?_
  · exact r0_ld_whole_unread (ms0_4 t0_0) _ r0_hz3 _ _
  · exact r0_ld_whole_unread (ms0_5 t0_0) _ r0_hz3 _ _
  · exact View.readCov_unit_zero _ r0_hz2 _ _

/-- The result block the last point assembles. -/
theorem out0B_8_eq (c : Dev nD) :
    out0B_8 V c = k0_pay3 (s0A_1 V c) (k0_pay2 (iblk0 V c 4 t0_1) (iblk0 V c 5 t0_1) (s0A_0 V c)) := by
  unfold out0B_8 out0_B_8
  unfold kernelRun0_B
  dsimp only
  sl_unfold_words
  refine (View.canon_unit_zero r0_hz2 _ _).trans ?_
  refine congr (congrArg (k0_pay3 (F := F)) ?_) ?_
  · exact r0_ld_whole_unread scM0_1 _ r0_hz2 _ _
  · refine (View.readCov_unit_zero _ r0_hz2 _ _).trans ?_
    refine congr (congr (congrArg (k0_pay2 (F := F)) ?_) ?_) ?_
    · exact r0_ld_whole_unread (ms0_4 t0_1) _ r0_hz3 _ _
    · exact r0_ld_whole_unread (ms0_5 t0_1) _ r0_hz3 _ _
    · exact r0_ld_whole_unread scM0_0 _ r0_hz2 _ _

/-- WHAT THE RESULT WINDOW HOLDS after the last point, as one term over the input blocks: the three whole-array sums
    of the first point and the sum of the two points' block sums, assembled. -/
theorem after0_8_last (c : Dev nD) :
    (dat0 V c).after 8 t0_1 = k0_pay3 (k0_pay1 (k0_pay5 (iblk0 V c 0 t0_0) (iblk0 V c 1 t0_0) (iblk0 V c 2 t0_0) (iblk0 V c 3 t0_0) (iblk0 V c 6 t0_0) (iblk0 V c 7 t0_0))) (k0_pay2 (iblk0 V c 4 t0_1) (iblk0 V c 5 t0_1) (k0_pay2 (iblk0 V c 4 t0_0) (iblk0 V c 5 t0_0) k0_pay4)) := by
  rw [after0_8, out0B_8_eq, s0A_1_eq, s0A_0_eq]

end Region0

end Cert.KernelIdeal.H

end
-- ==== Proof.KernelIdeal.WinRead.lean ====
/- The kernel's input windows read through their views at an index, for arbitrary contents of the window's array:
   a window whose block is the whole array reads the array itself; a window of row blocks reads the array at the
   block's first row plus the row inside the block. -/
import proofs.«134128_j58669253263727_2_alg».proof.Proof.Gen.KernelIdeal.Launch
import proofs.«134128_j58669253263727_2_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem
open Idealize.ShloMosaic.ValueIdx

namespace Cert.KernelIdeal.H

open Cert.KernelIdeal Cert.KernelIdeal.Gen

variable {F : FTy → Type} [FloatOps F]

/-! ## The second kernel's two point clouds -/

/-- The block indices of the second kernel's input windows at point t = 64 b + 8 n + m: (b, n, 0) and (b, m, 0). -/
theorem idx1_in : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = t.val % 8 ∧ win1_1.index t (2 : Fin 3) = 0 :=
  (by decide +kernel : ∀ t : Fin grid1.N, _)

/-- The first cloud's block at point t = 64 b + 8 n + m: batch b, rows 1024 n … 1024 n + 1023. -/
theorem rd1_0 (A : (⟨S4x8192x3, .f32⟩ : BufTy).Contents (Elt F)) (t : Fin cfg1.N) (p : Fin 1024) (k : Fin 3) :
    ((cfg1.win 0).blk t).view.read (Elt F) A (ix3 (0 : Fin 1) p k)
      = A (ix3 (⟨t.val / 64, by have h : t.val < grid1.N := t.isLt; have := N_1; omega⟩ : Fin 4)
            (⟨1024 * (t.val / 8 % 8) + p.val, by have := p.isLt; omega⟩ : Fin 8192) k) := by
  obtain ⟨e0, e1, e2, -, -, -⟩ := idx1_in t
  rw [View.read_apply]
  show A _ = A _
  refine congrArg A (funext fun a => Fin.ext ?_)
  match a with
  | ⟨0, _⟩ => show win1_0.index t (0 : Fin 3) * 1 + 1 * 0 = t.val / 64; omega
  | ⟨1, _⟩ => show win1_0.index t (1 : Fin 3) * 1024 + 1 * p.val = 1024 * (t.val / 8 % 8) + p.val; omega
  | ⟨2, _⟩ => show win1_0.index t (2 : Fin 3) * 3 + 1 * k.val = k.val; omega

/-- The second cloud's block at point t = 64 b + 8 n + m: batch b, rows 1024 m … 1024 m + 1023. -/
theorem rd1_1 (A : (⟨S4x8192x3, .f32⟩ : BufTy).Contents (Elt F)) (t : Fin cfg1.N) (q : Fin 1024) (k : Fin 3) :
    ((cfg1.win 1).blk t).view.read (Elt F) A (ix3 (0 : Fin 1) q k)
      = A (ix3 (⟨t.val / 64, by have h : t.val < grid1.N := t.isLt; have := N_1; omega⟩ : Fin 4)
            (⟨1024 * (t.val % 8) + q.val, by have := q.isLt; omega⟩ : Fin 8192) k) := by
  obtain ⟨-, -, -, e0, e1, e2⟩ := idx1_in t
  rw [View.read_apply]
  show A _ = A _
  refine congrArg A (funext fun a => Fin.ext ?_)
  match a with
  | ⟨0, _⟩ => show win1_1.index t (0 : Fin 3) * 1 + 1 * 0 = t.val / 64; omega
  | ⟨1, _⟩ => show win1_1.index t (1 : Fin 3) * 1024 + 1 * q.val = 1024 * (t.val % 8) + q.val; omega
  | ⟨2, _⟩ => show win1_1.index t (2 : Fin 3) * 3 + 1 * k.val = k.val; omega

/-! ## The first kernel's windows -/

/-- The block indices of the first kernel's input windows: zero on every axis, except the row axis of windows 4 and 5,
    where it is the point. -/
theorem idx0_0 : ∀ t : Fin cfg0.N, win0_0.index t (0 : Fin 3) = 0 ∧ win0_0.index t (1 : Fin 3) = 0 ∧ win0_0.index t (2 : Fin 3) = 0 :=
  (by decide +kernel : ∀ t : Fin grid0.N, _)
theorem idx0_1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, win0_4.index t (0 : Fin 3) = 0 ∧ win0_4.index t (1 : Fin 3) = t.val ∧ win0_4.index t (2 : Fin 3) = 0 :=
  (by decide +kernel : ∀ t : Fin grid0.N, _)
theorem idx0_5 : ∀ t : Fin cfg0.N, win0_5.index t (0 : Fin 3) = 0 ∧ win0_5.index t (1 : Fin 3) = t.val ∧ win0_5.index t (2 : Fin 3) = 0 :=
  (by decide +kernel : ∀ t : Fin grid0.N, _)
theorem idx0_6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx0_7 : ∀ t : Fin cfg0.N, win0_7.index t (0 : Fin 3) = 0 ∧ win0_7.index t (1 : Fin 3) = 0 ∧ win0_7.index t (2 : Fin 3) = 0 :=
  (by decide +kernel : ∀ t : Fin grid0.N, _)

/-- Window 0 of the first kernel is its whole array at every point. -/
theorem rd0_whole_0 (A : (⟨S4x8192x3, .f32⟩ : BufTy).Contents (Elt F)) (t : Fin cfg0.N) :
    ((cfg0.win 0).blk t).view.read (Elt F) A = A := by
  obtain ⟨e0, e1, e2⟩ := idx0_0 t
  funext j
  rw [View.read_apply]
  show A _ = A j
  refine congrArg A (funext fun a => Fin.ext ?_)
  match a with
  | ⟨0, _⟩ => show win0_0.index t (0 : Fin 3) * 4 + 1 * (j 0).val = (j 0).val; omega
  | ⟨1, _⟩ => show win0_0.index t (1 : Fin 3) * 8192 + 1 * (j 1).val = (j 1).val; omega
  | ⟨2, _⟩ => show win0_0.index t (2 : Fin 3) * 3 + 1 * (j 2).val = (j 2).val; omega

/-- Window 1 of the first kernel is its whole array at every point. -/
theorem rd0_whole_1 (A : (⟨S4x8192x3, .f32⟩ : BufTy).Contents (Elt F)) (t : Fin cfg0.N) :
    ((cfg0.win 1).blk t).view.read (Elt F) A = A := by
  obtain ⟨e0, e1, e2⟩ := idx0_1 t
  funext j
  rw [View.read_apply]
  show A _ = A j
  refine congrArg A (funext fun a => Fin.ext ?_)
  match a with
  | ⟨0, _⟩ => show win0_1.index t (0 : Fin 3) * 4 + 1 * (j 0).val = (j 0).val; omega
  | ⟨1, _⟩ => show win0_1.index t (1 : Fin 3) * 8192 + 1 * (j 1).val = (j 1).val; omega
  | ⟨2, _⟩ => show win0_1.index t (2 : Fin 3) * 3 + 1 * (j 2).val = (j 2).val; omega

/-- Window 2 of the first kernel is its whole array at every point. -/
theorem rd0_whole_2 (A : (⟨S4x512, .f32⟩ : BufTy).Contents (Elt F)) (t : Fin cfg0.N) :
    ((cfg0.win 2).blk t).view.read (Elt F) A = A := by
  obtain ⟨e0, e1⟩ := idx0_2 t
  funext j
  rw [View.read_apply]
  show A _ = A j
  refine congrArg A (funext fun a => Fin.ext ?_)
  match a with
  | ⟨0, _⟩ => show win0_2.index t (0 : Fin 2) * 4 + 1 * (j 0).val = (j 0).val; omega
  | ⟨1, _⟩ => show win0_2.index t (1 : Fin 2) * 512 + 1 * (j 1).val = (j 1).val; omega

/-- Window 3 of the first kernel is its whole array at every point. -/
theorem rd0_whole_3 (A : (⟨S4x512, .f32⟩ : BufTy).Contents (Elt F)) (t : Fin cfg0.N) :
    ((cfg0.win 3).blk t).view.read (Elt F) A = A := by
  obtain ⟨e0, e1⟩ := idx0_3 t
  funext j
  rw [View.read_apply]
  show A _ = A j
  refine congrArg A (funext fun a => Fin.ext ?_)
  match a with
  | ⟨0, _⟩ => show win0_3.index t (0 : Fin 2) * 4 + 1 * (j 0).val = (j 0).val; omega
  | ⟨1, _⟩ => show win0_3.index t (1 : Fin 2) * 512 + 1 * (j 1).val = (j 1).val; omega

/-- Window 4 of the first kernel at point t is rows 512 t … 512 t + 511 of its array. -/
theorem rd0_4 (A : (⟨S4x1024x256, .f32⟩ : BufTy).Contents (Elt F)) (t : Fin cfg0.N) (a : Fin 4) (r : Fin 512) (k : Fin 256) :
    ((cfg0.win 4).blk t).view.read (Elt F) A (ix3 a r k)
      = A (ix3 a (⟨512 * t.val + r.val, by have h : t.val < grid0.N := t.isLt; have := N_0; have := r.isLt; omega⟩ : Fin 1024) k) := by
  obtain ⟨e0, e1, e2⟩ := idx0_4 t
  rw [View.read_apply]
  show A _ = A _
  refine congrArg A (funext fun d => Fin.ext ?_)
  match d with
  | ⟨0, _⟩ => show win0_4.index t (0 : Fin 3) * 4 + 1 * a.val = a.val; omega
  | ⟨1, _⟩ => show win0_4.index t (1 : Fin 3) * 512 + 1 * r.val = 512 * t.val + r.val; omega
  | ⟨2, _⟩ => show win0_4.index t (2 : Fin 3) * 256 + 1 * k.val = k.val; omega

/-- Window 5 of the first kernel at point t is rows 512 t … 512 t + 511 of its array. -/
theorem rd0_5 (A : (⟨S4x1024x256, .f32⟩ : BufTy).Contents (Elt F)) (t : Fin cfg0.N) (a : Fin 4) (r : Fin 512) (k : Fin 256) :
    ((cfg0.win 5).blk t).view.read (Elt F) A (ix3 a r k)
      = A (ix3 a (⟨512 * t.val + r.val, by have h : t.val < grid0.N := t.isLt; have := N_0; have := r.isLt; omega⟩ : Fin 1024) k) := by
  obtain ⟨e0, e1, e2⟩ := idx0_5 t
  rw [View.read_apply]
  show A _ = A _
  refine congrArg A (funext fun d => Fin.ext ?_)
  match d with
  | ⟨0, _⟩ => show win0_5.index t (0 : Fin 3) * 4 + 1 * a.val = a.val; omega
  | ⟨1, _⟩ => show win0_5.index t (1 : Fin 3) * 512 + 1 * r.val = 512 * t.val + r.val; omega
  | ⟨2, _⟩ => show win0_5.index t (2 : Fin 3) * 256 + 1 * k.val = k.val; omega

/-- Window 6 of the first kernel is its whole array at every point. -/
theorem rd0_whole_6 (A : (⟨S4x8192x3, .f32⟩ : BufTy).Contents (Elt F)) (t : Fin cfg0.N) :
    ((cfg0.win 6).blk t).view.read (Elt F) A = A := by
  obtain ⟨e0, e1, e2⟩ := idx0_6 t
  funext j
  rw [View.read_apply]
  show A _ = A j
  refine congrArg A (funext fun a => Fin.ext ?_)
  match a with
  | ⟨0, _⟩ => show win0_6.index t (0 : Fin 3) * 4 + 1 * (j 0).val = (j 0).val; omega
  | ⟨1, _⟩ => show win0_6.index t (1 : Fin 3) * 8192 + 1 * (j 1).val = (j 1).val; omega
  | ⟨2, _⟩ => show win0_6.index t (2 : Fin 3) * 3 + 1 * (j 2).val = (j 2).val; omega

/-- Window 7 of the first kernel is its whole array at every point. -/
theorem rd0_whole_7 (A : (⟨S4x8192x3, .f32⟩ : BufTy).Contents (Elt F)) (t : Fin cfg0.N) :
    ((cfg0.win 7).blk t).view.read (Elt F) A = A := by
  obtain ⟨e0, e1, e2⟩ := idx0_7 t
  funext j
  rw [View.read_apply]
  show A _ = A j
  refine congrArg A (funext fun a => Fin.ext ?_)
  match a with
  | ⟨0, _⟩ => show win0_7.index t (0 : Fin 3) * 4 + 1 * (j 0).val = (j 0).val; omega
  | ⟨1, _⟩ => show win0_7.index t (1 : Fin 3) * 8192 + 1 * (j 1).val = (j 1).val; omega
  | ⟨2, _⟩ => show win0_7.index t (2 : Fin 3) * 3 + 1 * (j 2).val = (j 2).val; omega

end Cert.KernelIdeal.H
-- ==== Proof.KernelIdeal.ArrAt0.lean ====
/- What the first kernel's one write-back leaves in its result array: the result window's block is the whole 4×1 array
   and only the last point writes it back, so the array ends holding what the body left in the block at that point. -/
import proofs.«134128_j58669253263727_2_alg».proof.Proof.KernelIdeal.R0
import Idealize.ShloMosaic.Lib.Pipeline.Value
import Idealize.ShloMosaic.Lib.ValueIdx

noncomputable section

namespace Cert.KernelIdeal.H

open Cert.KernelIdeal Cert.KernelIdeal.Gen
open Idealize.ShloMosaic Idealize.ShloMosaic.TcCoe
open Idealize.SL Idealize.SL.RA Idealize.SL.BI Idealize.SL.Sem
open Idealize.ShloMosaic.Pipeline (Dat)
open Idealize.ShloMosaic.ValueIdx

variable {F : FTy → Type} [FloatOps F]

/-- The result window's block index is (0, 0) at both points. -/
theorem idx0_8 : ∀ t : Fin cfg0.N, win0_8.index t (0 : Fin 2) = 0 ∧ win0_8.index t (1 : Fin 2) = 0 :=
  (by decide +kernel : ∀ t : Fin grid0.N, _)

section Generic

variable {c : Dev nD} (dat : Dat τ (Elt F) Unit ℕ (UR sig nD τ) ℕ cfg0 c)

/-- The one write-back writes the block the last point's body left, read as the whole array. -/
theorem flushed0_8_eq (t : Fin cfg0.N) (hf : (cfg0.win 8).flush t = true) :
    dat.flushed 8 t = ((cfg0.win 8).blk t).view.read (Elt F) (dat.after 8 t0_1 : S4x1.Idx → Elt F .f32) := by
  have h1 : t.val % 2 = 1 := (flush0_8 t).mp hf
  have ht : t = t0_1 := by
    rcases fin_N0 t with rfl | rfl
    · exact absurd h1 (by decide)
    · rfl
  subst ht
  obtain ⟨e0, e1⟩ := idx0_8 t0_1
  show (cfg0.win 8).cut (grid0.coords t0_1) (dat.after 8 t0_1) = _
  funext j
  rw [View.read_apply]
  show dat.after 8 t0_1 ((cfg0.win 8).xinj (grid0.coords t0_1) j) = dat.after 8 t0_1 _
  refine congrArg (dat.after 8 t0_1) (funext fun a => Fin.ext ?_)
  match a with
  | ⟨0, _⟩ => show (j 0).val = win0_8.index t0_1 (0 : Fin 2) * 4 + 1 * (j 0).val; omega
  | ⟨1, _⟩ => show (j 1).val = win0_8.index t0_1 (1 : Fin 2) * 1 + 1 * (j 1).val; omega

/-- Every entry of the result array is in the block the last point writes back. -/
theorem cover0_8 (i : S4x1.Idx) : ∃ t : Fin cfg0.N, (cfg0.win 8).flush t = true ∧ i ∈ ((cfg0.win 8).blk t).view.set := by
  have hi0 : (i 0).val < 4 := (i 0).isLt
  have hi1 : (i 1).val < 1 := (i 1).isLt
  obtain ⟨e0, e1⟩ := idx0_8 t0_1
  refine ⟨t0_1, (flush0_8 t0_1).mpr rfl, ?_⟩
  show i ∈ ((View.whole main_v0).slice (win0_8.rect t0_1)).set
  rw [View.set_slice_whole, Rect.mem_set_unit]
  intro a
  match a with
  | ⟨0, _⟩ => show win0_8.index t0_1 (0 : Fin 2) * 4 ≤ (i 0).val ∧ (i 0).val < win0_8.index t0_1 (0 : Fin 2) * 4 + 4; omega
  | ⟨1, _⟩ => show win0_8.index t0_1 (1 : Fin 2) * 1 ≤ (i 1).val ∧ (i 1).val < win0_8.index t0_1 (1 : Fin 2) * 1 + 1; omega

/-- The result array after the region's write-backs, for any proof data of the first kernel. -/
theorem arrAt0_8_of : dat.arrAt 8 cfg0.N = (dat.after 8 t0_1 : S4x1.Idx → Elt F .f32) :=
  dat.arrAt_eq_of_cover 8 (dat.after 8 t0_1 : S4x1.Idx → Elt F .f32) (flushed0_8_eq dat) cover0_8

end Generic

variable (V : (c : Dev nD) → (b : Ref sig .tc) → Buf (Elt F) ((c : Thread nD τ).loc b))

/-- The first kernel's result array after its region: what the last point's body left in the result block. -/
theorem arrAt0_8 (c : Dev nD) : (dat0 V c).arrAt 8 cfg0.N = ((dat0 V c).after 8 t0_1 : S4x1.Idx → Elt F .f32) :=
  arrAt0_8_of (dat0 V c)

end Cert.KernelIdeal.H
-- ==== Proof.KernelIdeal.PayAt0.lean ====
import proofs.«134128_j58669253263727_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.SL.Sem Idealize.ShloMosaic.ValueIdx
open scoped BigOperators

/-- A total sum over a recast vector is the total sum over the vector: a recast is a bijection of the indices. -/
theorem sum_shapeCast0 {s t : Shape} (x : s.Idx → EReal) (h : s.ShapeCasts t) :
    ∑ j : t.Idx, shapeCast t x h j = ∑ i : s.Idx, x i :=
  Equiv.sum_comp (Shape.reshapeEquiv h) x

/-- The one entry of a one-entry vector recast to rank four. -/
theorem extract_cast4 {α : Type} (v : S1.Idx → α) :
    extractAt ![0, 0, 0, 0] (shapeCast S1x1x1x1 v shapeCasts_S1_S1x1x1x1) inpos_S1x1x1x1_p0_0_0_0 = v (ix1 0) := by
  unfold extractAt
  exact shapeCast_apply v _ _ _ (by rw [Shape.rowMajor_val_one, Shape.rowMajor_val_four]; rfl)

/-- The one entry of a one-entry vector recast to rank three. -/
theorem extract_cast3' {α : Type} (v : S1.Idx → α) :
    extractAt ![0, 0, 0] (shapeCast S1x1x1 v shapeCasts_S1_S1x1x1) inpos_S1x1x1_p0_0_0 = v (ix1 0) := by
  unfold extractAt
  exact shapeCast_apply v _ _ _ (by rw [Shape.rowMajor_val_one, Shape.rowMajor_val_three]; rfl)

/-- The sum of squared differences of two point arrays. -/
theorem sq_total3 (a b : FVec Ideal S4x8192x3 .f32) :
    extractAt ![0, 0, 0, 0] (shapeCast S1x1x1x1
        (multiReduction .add [1, 2, 3] S1
          (shapeCast S1x4x8192x3 (mulf (subf a b) (subf a b)) shapeCasts_S4x8192x3_S1x4x8192x3)
          0x00000000#32 reduces_S1x4x8192x3_S1 (.inl rfl) rfl) shapeCasts_S1_S1x1x1x1) inpos_S1x1x1x1_p0_0_0_0
      = ∑ i : S4x8192x3.Idx, (a i - b i) * (a i - b i) := by
  refine (extract_cast4 _).trans ?_
  refine (Ideal.multiReduction_add_total _ _ reduces_S1x4x8192x3_S1 (by decide) _ _ (ix1 0)).trans ?_
  exact sum_shapeCast0 _ shapeCasts_S4x8192x3_S1x4x8192x3

/-- The sum of squared differences of two matrices. -/
theorem sq_total2 (p q : FVec Ideal S4x512 .f32) :
    extractAt ![0, 0, 0] (shapeCast S1x1x1
        (multiReduction .add [1, 2] S1
          (shapeCast S1x4x512 (mulf (subf p q) (subf p q)) shapeCasts_S4x512_S1x4x512)
          0x00000000#32 reduces_S1x4x512_S1 (.inl rfl) rfl) shapeCasts_S1_S1x1x1) inpos_S1x1x1_p0_0_0
      = ∑ i : S4x512.Idx, (p i - q i) * (p i - q i) := by
  refine (extract_cast3' _).trans ?_
  refine (Ideal.multiReduction_add_total _ _ reduces_S1x4x512_S1 (by decide) _ _ (ix1 0)).trans ?_
  exact sum_shapeCast0 _ shapeCasts_S4x512_S1x4x512

/-- The sum of squared differences of two feature blocks. -/
theorem sq_total3f (a b : FVec Ideal S4x512x256 .f32) :
    extractAt ![0, 0, 0, 0] (shapeCast S1x1x1x1
        (multiReduction .add [1, 2, 3] S1
          (shapeCast S1x4x512x256 (mulf (subf a b) (subf a b)) shapeCasts_S4x512x256_S1x4x512x256)
          0x00000000#32 reduces_S1x4x512x256_S1 (.inl rfl) rfl) shapeCasts_S1_S1x1x1x1) inpos_S1x1x1x1_p0_0_0_0
      = ∑ i : S4x512x256.Idx, (a i - b i) * (a i - b i) := by
  refine (extract_cast4 _).trans ?_
  refine (Ideal.multiReduction_add_total _ _ reduces_S1x4x512x256_S1 (by decide) _ _ (ix1 0)).trans ?_
  exact sum_shapeCast0 _ shapeCasts_S4x512x256_S1x4x512x256

/-- A three-entry vector viewed as a column reads its entry. -/
theorem cast_col3 {α : Type} (v : S3.Idx → α) (i : Fin 3) (u : Fin 1) :
    shapeCast S3x1 v shapeCasts_S3_S3x1 (ix2 i u) = v (ix1 i) :=
  shapeCast_apply v _ _ _ (by
    have hu : u.val = 0 := by omega
    rw [Shape.rowMajor_val_one, Shape.rowMajor_val_two]
    show i.val = i.val * 1 + u.val
    rw [hu, Nat.mul_one, Nat.add_zero])

/-- Three one-entry vectors laid end to end read, at each position, that vector's entry. -/
theorem concat3_at {α : Type} (x0 x1 x2 : S1.Idx → α) :
    concatenate S3 0 [⟨S1, x0⟩, ⟨S1, x1⟩, ⟨S1, x2⟩] concatenates_S1_S1_S1_S3_d0 (ix1 0) = x0 (ix1 0)
    ∧ concatenate S3 0 [⟨S1, x0⟩, ⟨S1, x1⟩, ⟨S1, x2⟩] concatenates_S1_S1_S1_S3_d0 (ix1 1) = x1 (ix1 0)
    ∧ concatenate S3 0 [⟨S1, x0⟩, ⟨S1, x1⟩, ⟨S1, x2⟩] concatenates_S1_S1_S1_S3_d0 (ix1 2) = x2 (ix1 0) := by
  refine ⟨?_, ?_, ?_⟩
  · exact concatenate_apply_piece (t := S3) 0 [⟨S1, x0⟩, ⟨S1, x1⟩, ⟨S1, x2⟩] concatenates_S1_S1_S1_S3_d0 (ix1 0) 0 (by show (0 : Nat) < 3; omega)
      S1 x0 rfl rfl 0 rfl (ix1 0) (fun b hb => absurd (Subsingleton.elim _ _) hb) rfl
  · exact concatenate_apply_piece (t := S3) 0 [⟨S1, x0⟩, ⟨S1, x1⟩, ⟨S1, x2⟩] concatenates_S1_S1_S1_S3_d0 (ix1 1) 1 (by show (1 : Nat) < 3; omega)
      S1 x1 rfl rfl 1 rfl (ix1 0) (fun b hb => absurd (Subsingleton.elim _ _) hb) rfl
  · exact concatenate_apply_piece (t := S3) 0 [⟨S1, x0⟩, ⟨S1, x1⟩, ⟨S1, x2⟩] concatenates_S1_S1_S1_S3_d0 (ix1 2) 2 (by show (2 : Nat) < 3; omega)
      S1 x2 rfl rfl 2 rfl (ix1 0) (fun b hb => absurd (Subsingleton.elim _ _) hb) rfl

/-- Four one-by-one blocks stacked in a column read, at each row, that block's entry. -/
theorem concat4_at {α : Type} (x0 x1 x2 x3 : S1x1.Idx → α) :
    concatenate S4x1 0 [⟨S1x1, x0⟩, ⟨S1x1, x1⟩, ⟨S1x1, x2⟩, ⟨S1x1, x3⟩] concatenates_S1x1_S1x1_S1x1_S1x1_S4x1_d0 (ix2 0 0) = x0 (ix2 0 0)
    ∧ concatenate S4x1 0 [⟨S1x1, x0⟩, ⟨S1x1, x1⟩, ⟨S1x1, x2⟩, ⟨S1x1, x3⟩] concatenates_S1x1_S1x1_S1x1_S1x1_S4x1_d0 (ix2 1 0) = x1 (ix2 0 0)
    ∧ concatenate S4x1 0 [⟨S1x1, x0⟩, ⟨S1x1, x1⟩, ⟨S1x1, x2⟩, ⟨S1x1, x3⟩] concatenates_S1x1_S1x1_S1x1_S1x1_S4x1_d0 (ix2 2 0) = x2 (ix2 0 0)
    ∧ concatenate S4x1 0 [⟨S1x1, x0⟩, ⟨S1x1, x1⟩, ⟨S1x1, x2⟩, ⟨S1x1, x3⟩] concatenates_S1x1_S1x1_S1x1_S1x1_S4x1_d0 (ix2 3 0) = x3 (ix2 0 0) := by
  have hi : ∀ (j0 : Fin 4) (b : Fin S1x1.rank), b.cast (rfl : S1x1.rank = S4x1.rank) ≠ (0 : Fin S4x1.rank) →
      ((ix2 (0 : Fin 1) (0 : Fin 1) : S1x1.Idx) b).val = ((ix2 j0 (0 : Fin 1) : S4x1.Idx) (b.cast rfl)).val := fun j0 b hb => by
    match b with
    | ⟨0, _⟩ => exact absurd rfl hb
    | ⟨1, _⟩ => rfl
  refine ⟨?_, ?_, ?_, ?_⟩
  · exact concatenate_apply_piece (t := S4x1) 0 [⟨S1x1, x0⟩, ⟨S1x1, x1⟩, ⟨S1x1, x2⟩, ⟨S1x1, x3⟩] concatenates_S1x1_S1x1_S1x1_S1x1_S4x1_d0
      (ix2 0 0) 0 (by show (0 : Nat) < 4; omega) S1x1 x0 rfl rfl 0 rfl (ix2 0 0) (hi 0) rfl
  · exact concatenate_apply_piece (t := S4x1) 0 [⟨S1x1, x0⟩, ⟨S1x1, x1⟩, ⟨S1x1, x2⟩, ⟨S1x1, x3⟩] concatenates_S1x1_S1x1_S1x1_S1x1_S4x1_d0
      (ix2 1 0) 1 (by show (1 : Nat) < 4; omega) S1x1 x1 rfl rfl 1 rfl (ix2 0 0) (hi 1) rfl
  · exact concatenate_apply_piece (t := S4x1) 0 [⟨S1x1, x0⟩, ⟨S1x1, x1⟩, ⟨S1x1, x2⟩, ⟨S1x1, x3⟩] concatenates_S1x1_S1x1_S1x1_S1x1_S4x1_d0
      (ix2 2 0) 2 (by show (2 : Nat) < 4; omega) S1x1 x2 rfl rfl 2 rfl (ix2 0 0) (hi 2) rfl
  · exact concatenate_apply_piece (t := S4x1) 0 [⟨S1x1, x0⟩, ⟨S1x1, x1⟩, ⟨S1x1, x2⟩, ⟨S1x1, x3⟩] concatenates_S1x1_S1x1_S1x1_S1x1_S4x1_d0
      (ix2 3 0) 3 (by show (3 : Nat) < 4; omega) S1x1 x3 rfl rfl 3 rfl (ix2 0 0) (hi 3) rfl

/-- The three sums, first row: the squared differences of the first pair of point arrays. -/
theorem pay5_apply0 (a b : Vec Ideal S4x8192x3 .f32) (p q : Vec Ideal S4x512 .f32) (e g : Vec Ideal S4x8192x3 .f32) :
    k0_pay5 (F := Ideal) a b p q e g (ix2 0 0) = ∑ i : S4x8192x3.Idx, (a i - b i) * (a i - b i) := by
  unfold k0_pay5
  refine (cast_col3 _ 0 0).trans ((concat3_at _ _ _).1.trans ((broadcast_apply _ _).trans ?_))
  exact sq_total3 a b

/-- Second row: the squared differences of the pair of matrices. -/
theorem pay5_apply1 (a b : Vec Ideal S4x8192x3 .f32) (p q : Vec Ideal S4x512 .f32) (e g : Vec Ideal S4x8192x3 .f32) :
    k0_pay5 (F := Ideal) a b p q e g (ix2 1 0) = ∑ i : S4x512.Idx, (p i - q i) * (p i - q i) := by
  unfold k0_pay5
  refine (cast_col3 _ 1 0).trans ((concat3_at _ _ _).2.1.trans ((broadcast_apply _ _).trans ?_))
  exact sq_total2 p q

/-- Third row: the squared differences of the second pair of point arrays. -/
theorem pay5_apply2 (a b : Vec Ideal S4x8192x3 .f32) (p q : Vec Ideal S4x512 .f32) (e g : Vec Ideal S4x8192x3 .f32) :
    k0_pay5 (F := Ideal) a b p q e g (ix2 2 0) = ∑ i : S4x8192x3.Idx, (e i - g i) * (e i - g i) := by
  unfold k0_pay5
  refine (cast_col3 _ 2 0).trans ((concat3_at _ _ _).2.2.trans ((broadcast_apply _ _).trans ?_))
  exact sq_total3 e g

/-- The stored sums are the sums. -/
theorem pay1_eq0 (v : FVec Ideal S3x1 .f32) : k0_pay1 (F := Ideal) v = v := by
  unfold k0_pay1
  exact shapeCast_self _ _

/-- The accumulator's initial value is zero. -/
theorem pay4_apply0 : k0_pay4 (F := Ideal) (ix2 0 0) = 0 := by
  unfold k0_pay4
  rw [shapeCast_self]
  exact Ideal.ofBits_zero_f32

/-- The accumulated sum of squared feature differences: the stored value plus this block's sum. -/
theorem pay2_apply0 (v3 v4 : Vec Ideal S4x512x256 .f32) (v6 : Vec Ideal S1x1 .f32) :
    k0_pay2 (F := Ideal) v3 v4 v6 (ix2 0 0)
      = v6 (ix2 0 0) + ∑ i : S4x512x256.Idx, (v3 i - v4 i) * (v3 i - v4 i) := by
  unfold k0_pay2
  rw [shapeCast_self]
  refine (addf_apply _ _ _).trans (congrArg (v6 (ix2 0 0) + ·) ?_)
  refine (broadcast_apply _ _).trans ?_
  exact sq_total3f v3 v4

/-- A one-by-one slice of a column at row `o` reads that row. -/
theorem slice_row {α : Type} (v : S3x1.Idx → α) (o : Fin 3) (h : S3x1.Slices ![o.val, 0] S1x1) :
    extractStridedSlice S1x1 ![o.val, 0] v h (ix2 0 0) = v (ix2 o 0) :=
  extractStridedSlice_apply _ v h (ix2 0 0) (ix2 o 0) fun a => by
    match a with
    | ⟨0, _⟩ => rfl
    | ⟨1, _⟩ => rfl

/-- The four losses in their output order: the first two sums, the accumulated feature sum, then the third sum. -/
theorem pay3_apply0 (v20 : Vec Ideal S3x1 .f32) (v21 : Vec Ideal S1x1 .f32) :
    k0_pay3 (F := Ideal) v20 v21 (ix2 0 0) = v20 (ix2 0 0) ∧ k0_pay3 (F := Ideal) v20 v21 (ix2 1 0) = v20 (ix2 1 0)
      ∧ k0_pay3 (F := Ideal) v20 v21 (ix2 2 0) = v21 (ix2 0 0) ∧ k0_pay3 (F := Ideal) v20 v21 (ix2 3 0) = v20 (ix2 2 0) := by
  unfold k0_pay3
  refine ⟨?_, ?_, ?_, ?_⟩
  · exact (concat4_at _ _ _ _).1.trans (slice_row v20 0 _)
  · exact (concat4_at _ _ _ _).2.1.trans (slice_row v20 1 _)
  · exact (concat4_at _ _ _ _).2.2.1
  · exact (concat4_at _ _ _ _).2.2.2.trans (slice_row v20 2 _)

end Cert.KernelIdeal.PayAt

end
-- ==== Proof.Ref.Imports.lean ====
/- The reference's run and its operations read at an index (generated modules), gathered for the modules that
   compare the reference's results with the kernel's. -/
import proofs.«134128_j58669253263727_2_alg».proof.Proof.Gen.ReferenceIdeal.Run
import proofs.«134128_j58669253263727_2_alg».proof.Proof.Gen.ReferenceIdeal.Read
-- ==== Proof.KernelIdeal.Bridge0.lean ====
/- The first kernel's four sums of squares, from the block its last point leaves to the reference's four results: each row
   of the block is the sum of the squared differences of a pair of arguments, the host lines that follow slice the rows
   out and divide them by the same constants as the reference, so the four results are the reference's. -/
import proofs.«134128_j58669253263727_2_alg».proof.Proof.KernelIdeal.Run
import proofs.«134128_j58669253263727_2_alg».proof.Proof.KernelIdeal.R0Val
import proofs.«134128_j58669253263727_2_alg».proof.Proof.KernelIdeal.WinRead
import proofs.«134128_j58669253263727_2_alg».proof.Proof.KernelIdeal.ArrAt0
import proofs.«134128_j58669253263727_2_alg».proof.Proof.KernelIdeal.PayAt0
import proofs.«134128_j58669253263727_2_alg».proof.Proof.Ref.Imports

set_option maxRecDepth 16384

noncomputable section

namespace Cert.KernelIdeal.H

open Cert.KernelIdeal Cert.KernelIdeal.Gen Cert.KernelIdeal.PayAt
open Idealize.ShloMosaic Idealize.ShloMosaic.TcCoe Idealize.ShloMosaic.Tactic Idealize.ShloMosaic.ValueIdx
open Idealize.SL.Sem
open scoped BigOperators

section AtEntry
variable (V : (c : Dev nD) → (b : Ref sig .tc) → Buf (Elt Ideal) ((c : Thread nD τ).loc b))

/-! ## The rows of the first call's result block -/

section Rows
variable (c : Dev nD)

/-- Two halves of the rows: the feature array's row index is the half times 512 plus the row inside the half. -/
def rowSplit : Fin 2 × S4x512x256.Idx ≃ S4x1024x256.Idx where
  toFun p := ix3 (p.2 0 : Fin 4)
    (⟨512 * p.1.val + (p.2 1).val, by
      have h1 : (p.2 1).val < 512 := (p.2 1).isLt
      have h2 := p.1.isLt
      omega⟩ : Fin 1024) (p.2 2 : Fin 256)
  invFun j := (⟨(j 1).val / 512, by
      have h1 : (j 1).val < 1024 := (j 1).isLt
      omega⟩,
    ix3 (j 0 : Fin 4) (⟨(j 1).val % 512, by omega⟩ : Fin 512) (j 2 : Fin 256))
  left_inv p := by
    have h1 : (p.2 1).val < 512 := (p.2 1).isLt
    refine Prod.ext (Fin.ext ?_) (funext fun a => ?_)
    · show (512 * p.1.val + (p.2 1).val) / 512 = p.1.val
      omega
    · match a with
      | ⟨0, _⟩ => rfl
      | ⟨1, _⟩ =>
        refine Fin.ext ?_
        show (512 * p.1.val + (p.2 1).val) % 512 = (p.2 1).val
        omega
      | ⟨2, _⟩ => rfl
  right_inv j := funext fun a => by
    match a with
    | ⟨0, _⟩ => rfl
    | ⟨1, _⟩ =>
      refine Fin.ext ?_
      show 512 * ((j 1).val / 512) + (j 1).val % 512 = (j 1).val
      omega
    | ⟨2, _⟩ => rfl

/-- A sum over the feature array is the sum over its first 512 rows plus the sum over its last 512 rows. -/
theorem sum_rows_split (g : S4x1024x256.Idx → EReal) :
    ∑ j : S4x1024x256.Idx, g j
      = (∑ i : S4x512x256.Idx, g (rowSplit (0, i))) + ∑ i : S4x512x256.Idx, g (rowSplit (1, i)) := by
  refine (Equiv.sum_comp rowSplit g).symm.trans ?_
  refine (Fintype.sum_prod_type _).trans ?_
  exact Fin.sum_univ_two _

/-- A block of 512 rows of a feature array, read at an index, is the array at the split index. -/
theorem blk4_at (A : (⟨S4x1024x256, .f32⟩ : BufTy).Contents (Elt Ideal)) (t : Fin cfg0.N) (t' : Fin 2) (ht : t.val = t'.val)
    (i : S4x512x256.Idx) :
    ((cfg0.win 4).blk t).view.read (Elt Ideal) A i = A (rowSplit (t', i)) := by
  refine (congrArg (((cfg0.win 4).blk t).view.read (Elt Ideal) A) (eq_ix3 i)).trans ?_
  refine (rd0_4 A t (i 0) (i 1) (i 2)).trans (congrArg A (funext fun a => Fin.ext ?_))
  match a with
  | ⟨0, _⟩ => rfl
  | ⟨1, _⟩ =>
    show 512 * t.val + (i 1).val = 512 * t'.val + (i 1).val
    rw [ht]
  | ⟨2, _⟩ => rfl

theorem blk5_at (A : (⟨S4x1024x256, .f32⟩ : BufTy).Contents (Elt Ideal)) (t : Fin cfg0.N) (t' : Fin 2) (ht : t.val = t'.val)
    (i : S4x512x256.Idx) :
    ((cfg0.win 5).blk t).view.read (Elt Ideal) A i = A (rowSplit (t', i)) := by
  refine (congrArg (((cfg0.win 5).blk t).view.read (Elt Ideal) A) (eq_ix3 i)).trans ?_
  refine (rd0_5 A t (i 0) (i 1) (i 2)).trans (congrArg A (funext fun a => Fin.ext ?_))
  match a with
  | ⟨0, _⟩ => rfl
  | ⟨1, _⟩ =>
    show 512 * t.val + (i 1).val = 512 * t'.val + (i 1).val
    rw [ht]
  | ⟨2, _⟩ => rfl

end Rows

/-! ## The rows of the block the first call leaves

Each is stated over the contents named as functions of the index (`o` the block, `a` and `b` the two arguments), with the
equations that say which buffers they are. -/

section Block
variable (c : Dev nD)

/-- Row 0: the squared differences of the first pair of point arrays, summed. -/
theorem after8_row0 (o : S4x1.Idx → EReal) (ho : (dat0 V c).after 8 t0_1 = o)
    (a b : S4x8192x3.Idx → EReal) (ha : V c main_arg0 = a) (hb : V c main_arg1 = b) :
    o (ix2 0 0) = ∑ i : S4x8192x3.Idx, (a i - b i) * (a i - b i) := by
  subst ho ha hb
  refine (congrFun (after0_8_last V c) (ix2 0 0)).trans ?_
  refine (pay3_apply0 _ _).1.trans ?_
  refine (congrFun (pay1_eq0 _) (ix2 0 0)).trans ?_
  refine (pay5_apply0 _ _ _ _ _ _).trans ?_
  have h0 : iblk0 V c 0 t0_0 = V c main_arg0 := rd0_whole_0 _ t0_0
  have h1 : iblk0 V c 1 t0_0 = V c main_arg1 := rd0_whole_1 _ t0_0
  exact congrArg₂ (fun (a b : S4x8192x3.Idx → EReal) => ∑ i : S4x8192x3.Idx, (a i - b i) * (a i - b i)) h0 h1

/-- Row 1: the squared differences of the pair of matrices, summed. -/
theorem after8_row1 (o : S4x1.Idx → EReal) (ho : (dat0 V c).after 8 t0_1 = o)
    (a b : S4x512.Idx → EReal) (ha : V c main_arg2 = a) (hb : V c main_arg3 = b) :
    o (ix2 1 0) = ∑ i : S4x512.Idx, (a i - b i) * (a i - b i) := by
  subst ho ha hb
  refine (congrFun (after0_8_last V c) (ix2 1 0)).trans ?_
  refine (pay3_apply0 _ _).2.1.trans ?_
  refine (congrFun (pay1_eq0 _) (ix2 1 0)).trans ?_
  refine (pay5_apply1 _ _ _ _ _ _).trans ?_
  have h0 : iblk0 V c 2 t0_0 = V c main_arg2 := rd0_whole_2 _ t0_0
  have h1 : iblk0 V c 3 t0_0 = V c main_arg3 := rd0_whole_3 _ t0_0
  exact congrArg₂ (fun (a b : S4x512.Idx → EReal) => ∑ i : S4x512.Idx, (a i - b i) * (a i - b i)) h0 h1

/-- Row 3: the squared differences of the second pair of point arrays, summed. -/
theorem after8_row3 (o : S4x1.Idx → EReal) (ho : (dat0 V c).after 8 t0_1 = o)
    (a b : S4x8192x3.Idx → EReal) (ha : V c main_arg7 = a) (hb : V c main_arg8 = b) :
    o (ix2 3 0) = ∑ i : S4x8192x3.Idx, (a i - b i) * (a i - b i) := by
  subst ho ha hb
  refine (congrFun (after0_8_last V c) (ix2 3 0)).trans ?_
  refine (pay3_apply0 _ _).2.2.2.trans ?_
  refine (congrFun (pay1_eq0 _) (ix2 2 0)).trans ?_
  refine (pay5_apply2 _ _ _ _ _ _).trans ?_
  have h0 : iblk0 V c 6 t0_0 = V c main_arg7 := rd0_whole_6 _ t0_0
  have h1 : iblk0 V c 7 t0_0 = V c main_arg8 := rd0_whole_7 _ t0_0
  exact congrArg₂ (fun (a b : S4x8192x3.Idx → EReal) => ∑ i : S4x8192x3.Idx, (a i - b i) * (a i - b i)) h0 h1

/-- Row 2: the squared differences of the pair of feature arrays, summed: the two points' block sums, added to zero in
    turn, are the sum over all the rows. -/
theorem after8_row2 (o : S4x1.Idx → EReal) (ho : (dat0 V c).after 8 t0_1 = o)
    (a b : S4x1024x256.Idx → EReal) (ha : V c main_arg4 = a) (hb : V c main_arg5 = b) :
    o (ix2 2 0) = ∑ j : S4x1024x256.Idx, (a j - b j) * (a j - b j) := by
  subst ho
  refine (congrFun (after0_8_last V c) (ix2 2 0)).trans ?_
  refine (pay3_apply0 _ _).2.2.1.trans ?_
  refine (pay2_apply0 _ _ _).trans ?_
  refine (congrArg (· + _) ((pay2_apply0 _ _ _).trans (congrArg (· + _) pay4_apply0))).trans ?_
  rw [zero_add]
  refine Eq.trans ?_ (sum_rows_split (fun j => (a j - b j) * (a j - b j))).symm
  refine congrArg₂ (· + ·) (Finset.sum_congr rfl fun i _ => ?_) (Finset.sum_congr rfl fun i _ => ?_)
  · have e4 : iblk0 V c 4 t0_0 i = a (rowSplit (0, i)) := (blk4_at _ t0_0 0 rfl i).trans (congrFun ha _)
    have e5 : iblk0 V c 5 t0_0 i = b (rowSplit (0, i)) := (blk5_at _ t0_0 0 rfl i).trans (congrFun hb _)
    exact congrArg₂ (fun (x y : EReal) => (x - y) * (x - y)) e4 e5
  · have e4 : iblk0 V c 4 t0_1 i = a (rowSplit (1, i)) := (blk4_at _ t0_1 1 rfl i).trans (congrFun ha _)
    have e5 : iblk0 V c 5 t0_1 i = b (rowSplit (1, i)) := (blk5_at _ t0_1 1 rfl i).trans (congrFun hb _)
    exact congrArg₂ (fun (x y : EReal) => (x - y) * (x - y)) e4 e5

end Block

end AtEntry

/-- A one-by-one slice of the result column at row `q`, recast to a scalar, reads the column's row `q`. -/
theorem scalar_of_row (W : S4x1.Idx → EReal) (q : Fin 4) (h : S4x1.Slices ![q.val, 0] S1x1) (i : S_.Idx) :
    shapeCast S_ (extractStridedSlice S1x1 ![q.val, 0] W h) shapeCasts_S1x1_S_ i = W (ix2 q 0) := by
  refine (shapeCast_apply _ _ i (ix2 0 0) ?_).trans ?_
  · have h1 : (S_.rowMajor i).val < S_.numel := (S_.rowMajor i).isLt
    have h2 : S_.numel = 1 := rfl
    rw [Shape.rowMajor_val_two]
    show 0 * 1 + 0 = (S_.rowMajor i).val
    omega
  · exact extractStridedSlice_apply _ W h (ix2 0 0) (ix2 q 0) fun a => by
      match a with
      | ⟨0, _⟩ => rfl
      | ⟨1, _⟩ => rfl

section Bridge
variable (m : (ℓ : Loc nD τ sig) → Buf (Elt Ideal) ℓ) (ρ : Dev nD → PrngReg)

/-- The first call's result array after its region: the block its last point assembles. -/
theorem W1_v0 (c : Dev nD) : W1 m ρ c (Proc.devRef .tc main_v0) = (dat0 (V0 m ρ) c).after 8 t0_1 :=
  (W1_arr m ρ c 8).trans (arrAt0_8 (V0 m ρ) c)

/-- Row 0 of the first call's result array: the squared differences of the launch contents of its pair of arguments,
    summed. -/
theorem B0_0 (c : Dev nD) (o : S4x1.Idx → EReal) (ho : W1 m ρ c (Proc.devRef .tc main_v0) = o)
    (a b : S4x8192x3.Idx → EReal) (ha : m ((c : Thread nD τ).loc main_arg0) = a) (hb : m ((c : Thread nD τ).loc main_arg1) = b) :
    o (ix2 0 0) = ∑ i : S4x8192x3.Idx, (a i - b i) * (a i - b i) :=
  after8_row0 (V0 m ρ) c o ((W1_v0 m ρ c).symm.trans ho) a b ha hb

/-- Row 1 of the first call's result array: the squared differences of the launch contents of its pair of arguments,
    summed. -/
theorem B0_1 (c : Dev nD) (o : S4x1.Idx → EReal) (ho : W1 m ρ c (Proc.devRef .tc main_v0) = o)
    (a b : S4x512.Idx → EReal) (ha : m ((c : Thread nD τ).loc main_arg2) = a) (hb : m ((c : Thread nD τ).loc main_arg3) = b) :
    o (ix2 1 0) = ∑ i : S4x512.Idx, (a i - b i) * (a i - b i) :=
  after8_row1 (V0 m ρ) c o ((W1_v0 m ρ c).symm.trans ho) a b ha hb

/-- Row 2 of the first call's result array: the squared differences of the launch contents of its pair of arguments,
    summed. -/
theorem B0_2 (c : Dev nD) (o : S4x1.Idx → EReal) (ho : W1 m ρ c (Proc.devRef .tc main_v0) = o)
    (a b : S4x1024x256.Idx → EReal) (ha : m ((c : Thread nD τ).loc main_arg4) = a) (hb : m ((c : Thread nD τ).loc main_arg5) = b) :
    o (ix2 2 0) = ∑ i : S4x1024x256.Idx, (a i - b i) * (a i - b i) :=
  after8_row2 (V0 m ρ) c o ((W1_v0 m ρ c).symm.trans ho) a b ha hb

/-- Row 3 of the first call's result array: the squared differences of the launch contents of its pair of arguments,
    summed. -/
theorem B0_3 (c : Dev nD) (o : S4x1.Idx → EReal) (ho : W1 m ρ c (Proc.devRef .tc main_v0) = o)
    (a b : S4x8192x3.Idx → EReal) (ha : m ((c : Thread nD τ).loc main_arg7) = a) (hb : m ((c : Thread nD τ).loc main_arg8) = b) :
    o (ix2 3 0) = ∑ i : S4x8192x3.Idx, (a i - b i) * (a i - b i) :=
  after8_row3 (V0 m ρ) c o ((W1_v0 m ρ c).symm.trans ho) a b ha hb

/-- The first loss term at the program's end is the reference's: the first sum over its count. -/
theorem R9 (c : Dev nD) :
    W4 m ρ c (Proc.devRef .tc main_v9)
      = Cert.ReferenceIdeal.Read.val_main_v3 (F := Ideal) (m ((c : Thread nD τ).loc main_arg0)) (m ((c : Thread nD τ).loc main_arg1)) := by
  have e43 : W4 m ρ c (Proc.devRef .tc main_v9) = W3 m ρ c (Proc.devRef .tc main_v9) :=
    StableHlo.after_of_writes_sub hostOps2 _ hostOps2_writes (by decide)
  have e32 : W3 m ρ c (Proc.devRef .tc main_v9) = W2 m ρ c (Proc.devRef .tc main_v9) :=
    W3_of_ne m ρ c main_v9 (by decide)
  refine e43.trans (e32.trans ?_)
  show StableHlo.after hostOps1 (W1 m ρ c) (Proc.devRef .tc main_v9) = _
  after_results
  unfold Cert.ReferenceIdeal.Read.val_main_v3
  refine congr (congrArg _ ?_) rfl
  funext i
  refine (scalar_of_row _ 0 _ i).trans ?_
  refine (B0_0 m ρ c _ rfl _ _ rfl rfl).trans ?_
  refine Eq.symm ((Cert.ReferenceIdeal.Read.val_main_v2_apply _ _ i).trans ?_)
  refine (congrArg (· + _) Ideal.ofBits_zero_f32).trans ((zero_add _).trans ?_)
  exact Finset.sum_congr rfl fun j _ => rfl

/-- The second loss term at the program's end is the reference's: the second sum over its count, negated. -/
theorem R11 (c : Dev nD) :
    W4 m ρ c (Proc.devRef .tc main_v11)
      = Cert.ReferenceIdeal.Read.val_main_v8 (F := Ideal) (m ((c : Thread nD τ).loc main_arg2)) (m ((c : Thread nD τ).loc main_arg3)) := by
  have e43 : W4 m ρ c (Proc.devRef .tc main_v11) = W3 m ρ c (Proc.devRef .tc main_v11) :=
    StableHlo.after_of_writes_sub hostOps2 _ hostOps2_writes (by decide)
  have e32 : W3 m ρ c (Proc.devRef .tc main_v11) = W2 m ρ c (Proc.devRef .tc main_v11) :=
    W3_of_ne m ρ c main_v11 (by decide)
  refine e43.trans (e32.trans ?_)
  show StableHlo.after hostOps1 (W1 m ρ c) (Proc.devRef .tc main_v11) = _
  after_results
  unfold Cert.ReferenceIdeal.Read.val_main_v8 Cert.ReferenceIdeal.Read.val_main_v7
  refine congrArg _ (congr (congrArg _ ?_) rfl)
  funext i
  refine (scalar_of_row _ 1 _ i).trans ?_
  refine (B0_1 m ρ c _ rfl _ _ rfl rfl).trans ?_
  refine Eq.symm ((Cert.ReferenceIdeal.Read.val_main_v6_apply _ _ i).trans ?_)
  refine (congrArg (· + _) Ideal.ofBits_zero_f32).trans ((zero_add _).trans ?_)
  exact Finset.sum_congr rfl fun j _ => rfl

/-- The third loss term at the program's end is the reference's: the feature sum over its count. -/
theorem R12 (c : Dev nD) :
    W4 m ρ c (Proc.devRef .tc main_v12)
      = Cert.ReferenceIdeal.Read.val_main_v12 (F := Ideal) (m ((c : Thread nD τ).loc main_arg4)) (m ((c : Thread nD τ).loc main_arg5)) := by
  have e43 : W4 m ρ c (Proc.devRef .tc main_v12) = W3 m ρ c (Proc.devRef .tc main_v12) :=
    StableHlo.after_of_writes_sub hostOps2 _ hostOps2_writes (by decide)
  have e32 : W3 m ρ c (Proc.devRef .tc main_v12) = W2 m ρ c (Proc.devRef .tc main_v12) :=
    W3_of_ne m ρ c main_v12 (by decide)
  refine e43.trans (e32.trans ?_)
  show StableHlo.after hostOps1 (W1 m ρ c) (Proc.devRef .tc main_v12) = _
  after_results
  unfold Cert.ReferenceIdeal.Read.val_main_v12
  refine congr (congrArg _ ?_) rfl
  funext i
  refine (scalar_of_row _ 2 _ i).trans ?_
  refine (B0_2 m ρ c _ rfl _ _ rfl rfl).trans ?_
  refine Eq.symm ((Cert.ReferenceIdeal.Read.val_main_v11_apply _ _ i).trans ?_)
  refine (congrArg (· + _) Ideal.ofBits_zero_f32).trans ((zero_add _).trans ?_)
  exact Finset.sum_congr rfl fun j _ => rfl

/-- The last loss term at the program's end is the reference's: the third sum over its count. -/
theorem R13 (c : Dev nD) :
    W4 m ρ c (Proc.devRef .tc main_v13)
      = Cert.ReferenceIdeal.Read.val_main_v44 (F := Ideal) (m ((c : Thread nD τ).loc main_arg7)) (m ((c : Thread nD τ).loc main_arg8)) := by
  have e43 : W4 m ρ c (Proc.devRef .tc main_v13) = W3 m ρ c (Proc.devRef .tc main_v13) :=
    StableHlo.after_of_writes_sub hostOps2 _ hostOps2_writes (by decide)
  have e32 : W3 m ρ c (Proc.devRef .tc main_v13) = W2 m ρ c (Proc.devRef .tc main_v13) :=
    W3_of_ne m ρ c main_v13 (by decide)
  refine e43.trans (e32.trans ?_)
  show StableHlo.after hostOps1 (W1 m ρ c) (Proc.devRef .tc main_v13) = _
  after_results
  unfold Cert.ReferenceIdeal.Read.val_main_v44
  refine congr (congrArg _ ?_) rfl
  funext i
  refine (scalar_of_row _ 3 _ i).trans ?_
  refine (B0_3 m ρ c _ rfl _ _ rfl rfl).trans ?_
  refine Eq.symm ((Cert.ReferenceIdeal.Read.val_main_v43_apply _ _ i).trans ?_)
  refine (congrArg (· + _) Ideal.ofBits_zero_f32).trans ((zero_add _).trans ?_)
  exact Finset.sum_congr rfl fun j _ => rfl

end Bridge

end Cert.KernelIdeal.H

end
-- ==== Proof.KernelIdeal.PayAt1.lean ====
import proofs.«134128_j58669253263727_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.SL.Sem Idealize.ShloMosaic.ValueIdx
open scoped BigOperators

/-- The squared norm of a row: a one-axis sum of the squares over the three coordinates. -/
theorem sq_row (v : FVec Ideal S1024x3 .f32) (r : Fin 1024) :
    multiReduction .add [1] S1024 (mulf v v) 0x00000000#32 reduces_S1024x3_S1024 (.inl rfl) rfl (ix1 r)
      = ∑ k : Fin 3, v (ix2 r k) * v (ix2 r k) := by
  refine (Ideal.multiReduction_add_single (mulf v v) _ reduces_S1024x3_S1024 _ _ (ix1 r)).trans ?_
  refine Finset.sum_congr rfl fun k _ => ?_
  have e : reduces_S1024x3_S1024.lift (ix1 r) k = ix2 r k :=
    funext fun a => Fin.ext (by match a with | ⟨0, _⟩ => rfl | ⟨1, _⟩ => rfl)
  rw [e]; rfl

/-- A block with a leading unit axis viewed as a matrix reads the block's row. -/
theorem cast_block (x : Vec Ideal S1x1024x3 .f32) (r : Fin 1024) (k : Fin 3) :
    shapeCast S1024x3 x shapeCasts_S1x1024x3_S1024x3 (ix2 r k) = x (ix3 0 r k) :=
  shapeCast_1ab_ab_apply x _ r k

/-- A vector viewed as a column reads its entry. -/
theorem cast_col {α : Type} (v : S1024.Idx → α) (r : Fin 1024) (u : Fin 1) :
    shapeCast S1024x1 v shapeCasts_S1024_S1024x1 (ix2 r u) = v (ix1 r) :=
  shapeCast_apply v _ _ _ (by
    have hu : u.val = 0 := by omega
    rw [Shape.rowMajor_val_one, Shape.rowMajor_val_two]
    show r.val = r.val * 1 + u.val
    rw [hu, Nat.mul_one, Nat.add_zero])

/-- A vector viewed as a row reads its entry. -/
theorem cast_row {α : Type} (v : S1024.Idx → α) (u : Fin 1) (c : Fin 1024) :
    shapeCast S1x1024 v shapeCasts_S1024_S1x1024 (ix2 u c) = v (ix1 c) :=
  shapeCast_a_1a_apply v _ u c

/-- A column broadcast over the columns reads the column's entry of the row. -/
theorem bcast_col {α : Type} (v : S1024x1.Idx → α) (r c : Fin 1024) :
    broadcastTo S1024x1024 v broadcasts_S1024x1_S1024x1024 (ix2 r c) = v (ix2 r 0) := by
  refine broadcastTo_apply v _ (ix2 r c) (ix2 r 0) fun ax => ?_
  match ax with
  | ⟨0, _⟩ => rfl
  | ⟨1, _⟩ => rfl

/-- A row broadcast over the rows reads the row's entry of the column. -/
theorem bcast_row {α : Type} (v : S1x1024.Idx → α) (r c : Fin 1024) :
    broadcastTo S1024x1024 v broadcasts_S1x1024_S1024x1024 (ix2 r c) = v (ix2 0 c) :=
  broadcastTo_1b_ab_apply v _ r c

/-- The matrix product of the two point blocks against the zero accumulator reads, at row `r` and column `c`, the
    inner product of row `r` of the left operand with row `c` of the right one. -/
theorem dot_apply (a b : FVec Ideal S1024x3 .f32) (r c : Fin 1024) :
    matmul dot_S1024x3_S1024x3_S1024x1024_1_1_0_0_n_n (some .fp32) a b (constant S1024x1024 .f32 0x00000000#32) (ix2 r c)
      = ∑ k : Fin 3, a (ix2 r k) * b (ix2 c k) := by
  refine (Ideal.matmul_constant_zero_apply dot_S1024x3_S1024x3_S1024x1024_1_1_0_0_n_n (some .fp32) a b (ix2 r c)).trans ?_
  rw [← Equiv.sum_comp (contrEquiv1 dot_S1024x3_S1024x3_S1024x1024_1_1_0_0_n_n 3 rfl rfl).symm]
  refine Finset.sum_congr rfl fun k _ => ?_
  have hk := contrEquiv1_symm_val dot_S1024x3_S1024x3_S1024x1024_1_1_0_0_n_n 3 rfl rfl k
  have el : dot_S1024x3_S1024x3_S1024x1024_1_1_0_0_n_n.lhsIdx (ix2 r c) ((contrEquiv1 dot_S1024x3_S1024x3_S1024x1024_1_1_0_0_n_n 3 rfl rfl).symm k) = ix2 r k :=
    funext fun ax => Fin.ext (by
      match ax with
      | ⟨0, _⟩ =>
        show (dot_S1024x3_S1024x3_S1024x1024_1_1_0_0_n_n.lhsIdx (ix2 r c) _ 0).val = r.val
        unfold DotDims.lhsIdx
        rw [dif_neg (show ¬(0 : Fin S1024x3.rank) ∈ dot_S1024x3_S1024x3_S1024x1024_1_1_0_0_n_n.lhsBatch by decide),
          dif_pos (show (0 : Fin S1024x3.rank) ∈ dot_S1024x3_S1024x3_S1024x1024_1_1_0_0_n_n.lhsNonContracting by decide)]
        rfl
      | ⟨1, _⟩ => exact ((dot_S1024x3_S1024x3_S1024x1024_1_1_0_0_n_n).lhsIdx_val_of_single (cl := 1) rfl _ _).trans hk)
  have er : dot_S1024x3_S1024x3_S1024x1024_1_1_0_0_n_n.rhsIdx (ix2 r c) ((contrEquiv1 dot_S1024x3_S1024x3_S1024x1024_1_1_0_0_n_n 3 rfl rfl).symm k) = ix2 c k :=
    funext fun ax => Fin.ext (by
      match ax with
      | ⟨0, _⟩ =>
        show (dot_S1024x3_S1024x3_S1024x1024_1_1_0_0_n_n.rhsIdx (ix2 r c) _ 0).val = c.val
        unfold DotDims.rhsIdx
        rw [dif_neg (show ¬(0 : Fin S1024x3.rank) ∈ dot_S1024x3_S1024x3_S1024x1024_1_1_0_0_n_n.rhsBatch by decide),
          dif_pos (show (0 : Fin S1024x3.rank) ∈ dot_S1024x3_S1024x3_S1024x1024_1_1_0_0_n_n.rhsNonContracting by decide)]
        rfl
      | ⟨1, _⟩ => exact ((dot_S1024x3_S1024x3_S1024x1024_1_1_0_0_n_n).rhsIdx_val_of_single (cr := 1) rfl _ _).trans hk)
  rw [el, er]

/-- The tile of squared distances, read at row `r` and column `c`: the squared norm of point `r` of the first block plus
    that of point `c` of the second, less twice their inner product. -/
theorem pay7_apply (x y : Vec Ideal S1x1024x3 .f32) (r c : Fin 1024) :
    k1_pay7 (F := Ideal) x y (ix2 r c)
      = ((∑ k : Fin 3, x (ix3 0 r k) * x (ix3 0 r k)) + (∑ k : Fin 3, y (ix3 0 c k) * y (ix3 0 c k)))
        - Ideal.ofBits .f32 0x40000000#32 * (∑ k : Fin 3, x (ix3 0 r k) * y (ix3 0 c k)) := by
  unfold k1_pay7
  refine (subf_apply _ _ _).trans ?_
  refine congrArg₂ (· - ·) ((addf_apply _ _ _).trans (congrArg₂ (· + ·) ?_ ?_)) ((mulf_apply _ _ _).trans (congrArg₂ (· * ·) rfl ?_))
  · refine (bcast_col _ r c).trans ((cast_col _ r 0).trans ((sq_row _ r).trans ?_))
    exact Finset.sum_congr rfl fun k _ => by rw [cast_block]
  · refine (bcast_row _ r c).trans ((cast_row _ 0 c).trans ((sq_row _ c).trans ?_))
    exact Finset.sum_congr rfl fun k _ => by rw [cast_block]
  · refine (dot_apply _ _ r c).trans ?_
    exact Finset.sum_congr rfl fun k _ => by rw [cast_block, cast_block]

/-- A one-axis minimum, read at a reduced index: the fold of `min` from the accumulator's value over that axis's
    coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  refine (multiReduction_minimumf_eq_fold src acc h hφ hacc j).trans ?_
  exact h.fold_filter_drop_single _ _ src j

/-- The row minima of the tile: at row `r`, the least squared distance over the columns, from `+∞`. -/
theorem pay8_apply (x y : Vec Ideal S1x1024x3 .f32) (r : Fin 1024) :
    k1_pay8 (F := Ideal) x y (ix2 r 0)
      = (Finset.univ : Finset (Fin 1024)).fold min (Ideal.ofBits .f32 0x7F800000#32)
          (fun c => k1_pay7 (F := Ideal) x y (ix2 r c)) := by
  unfold k1_pay8
  refine (cast_col _ r 0).trans ((min_single (k1_pay7 (F := Ideal) x y) _ reduces_S1024x1024_S1024 _ _ (ix1 r)).trans ?_)
  refine congrArg (fun f => Finset.fold min (Ideal.ofBits .f32 0x7F800000#32) f (Finset.univ : Finset (Fin 1024))) ?_
  exact funext fun c => congrArg (k1_pay7 (F := Ideal) x y)
    (funext fun a => Fin.ext (by match a with | ⟨0, _⟩ => rfl | ⟨1, _⟩ => rfl))

/-- The column minima of the tile: at column `c`, the least squared distance over the rows, from `+∞`. -/
theorem pay9_apply (x y : Vec Ideal S1x1024x3 .f32) (c : Fin 1024) :
    k1_pay9 (F := Ideal) x y (ix2 0 c)
      = (Finset.univ : Finset (Fin 1024)).fold min (Ideal.ofBits .f32 0x7F800000#32)
          (fun r => k1_pay7 (F := Ideal) x y (ix2 r c)) := by
  unfold k1_pay9
  refine (cast_row _ 0 c).trans ((min_single (k1_pay7 (F := Ideal) x y) _ reduces_S1024x1024_S1024_2 _ _ (ix1 c)).trans ?_)
  refine congrArg (fun f => Finset.fold min (Ideal.ofBits .f32 0x7F800000#32) f (Finset.univ : Finset (Fin 1024))) ?_
  exact funext fun r => congrArg (k1_pay7 (F := Ideal) x y)
    (funext fun a => Fin.ext (by match a with | ⟨0, _⟩ => rfl | ⟨1, _⟩ => rfl))

/-- The stored row minima are the row minima. -/
theorem pay10_eq (x y : Vec Ideal S1x1024x3 .f32) : k1_pay10 (F := Ideal) x y = k1_pay8 (F := Ideal) x y := by
  unfold k1_pay10
  exact shapeCast_self _ _

/-- The running row minima: the stored value against the tile's row minimum. -/
theorem pay11_apply (x y : Vec Ideal S1x1024x3 .f32) (s : Vec Ideal S1024x1 .f32) (r : Fin 1024) :
    k1_pay11 (F := Ideal) x y s (ix2 r 0) = min (s (ix2 r 0)) (k1_pay8 (F := Ideal) x y (ix2 r 0)) := by
  unfold k1_pay11
  rw [shapeCast_self]
  rfl

/-- The stored column minima are the column minima. -/
theorem pay1_eq (v : FVec Ideal S1x1024 .f32) : k1_pay1 (F := Ideal) v = v := by
  unfold k1_pay1
  exact shapeCast_self _ _

/-- The running column minima: the stored value against the tile's column minimum. -/
theorem pay2_apply (v : FVec Ideal S1x1024 .f32) (w : Vec Ideal S1x1024 .f32) (c : Fin 1024) :
    k1_pay2 (F := Ideal) v w (ix2 0 c) = min (w (ix2 0 c)) (v (ix2 0 c)) := by
  unfold k1_pay2
  rw [shapeCast_self]
  rfl

/-- The accumulator's initial value is zero. -/
theorem pay6_apply : k1_pay6 (F := Ideal) (ix2 0 0) = 0 := by
  unfold k1_pay6
  rw [shapeCast_self]
  exact Ideal.ofBits_zero_f32

/-- A total sum over a recast vector is the total sum over the vector: a recast is a bijection of the indices. -/
theorem sum_shapeCast {s t : Shape} (x : s.Idx → EReal) (h : s.ShapeCasts t) :
    ∑ j : t.Idx, shapeCast t x h j = ∑ i : s.Idx, x i :=
  Equiv.sum_comp (Shape.reshapeEquiv h) x

/-- The total sum of a column is the sum of its entries. -/
theorem sum_col (f : S1024x1.Idx → EReal) : ∑ i : S1024x1.Idx, f i = ∑ r : Fin 1024, f (ix2 r 0) := by
  rw [sum_idx2]
  exact Finset.sum_congr rfl fun r _ => Fin.sum_univ_one _

/-- The total sum of a row is the sum of its entries. -/
theorem sum_lane (f : S1x8192.Idx → EReal) : ∑ i : S1x8192.Idx, f i = ∑ c : Fin 8192, f (ix2 0 c) := by
  rw [sum_idx2]
  exact Fin.sum_univ_one _

/-- The one entry of a one-entry vector recast to rank three. -/
theorem extract_cast3 {α : Type} (v : S1.Idx → α) :
    extractAt ![0, 0, 0] (shapeCast S1x1x1 v shapeCasts_S1_S1x1x1) inpos_S1x1x1_p0_0_0 = v (ix1 0) := by
  unfold extractAt
  exact shapeCast_apply v _ _ _ (by rw [Shape.rowMajor_val_one, Shape.rowMajor_val_three]; rfl)

/-- The accumulated sum of distances: the stored value plus the sum over the rows of the root of the clamped row
    minimum. -/
theorem pay3_apply (s7 : Vec Ideal S1024x1 .f32) (s9 : Vec Ideal S1x1 .f32) :
    k1_pay3 (F := Ideal) s7 s9 (ix2 0 0)
      = s9 (ix2 0 0) + ∑ r : Fin 1024, Ideal.sqrt (max (s7 (ix2 r 0)) 0) := by
  unfold k1_pay3
  rw [shapeCast_self]
  refine (addf_apply _ _ _).trans (congrArg (s9 (ix2 0 0) + ·) ?_)
  refine (extract_cast3 _).trans ?_
  refine (Ideal.multiReduction_add_total _ _ reduces_S1x1024x1_S1 (by decide) _ _ (ix1 0)).trans ?_
  refine (sum_shapeCast _ shapeCasts_S1024x1_S1x1024x1).trans ((sum_col _).trans ?_)
  refine Finset.sum_congr rfl fun r _ => ?_
  show Ideal.sqrt (max (s7 (ix2 r 0)) (Ideal.ofBits .f32 0x00000000#32)) = _
  rw [Ideal.ofBits_zero_f32]

/-- The first mean: the accumulated sum over the number of points. -/
theorem pay4_apply (s9 : Vec Ideal S1x1 .f32) :
    k1_pay4 (F := Ideal) s9 (ix3 0 0 0) = Ideal.div (s9 (ix2 0 0)) (Ideal.ofBits .f32 0x46000000#32) := by
  unfold k1_pay4
  exact (shapeCast_ab_1ab_apply _ shapeCasts_S1x1_S1x1x1 0 0 0).trans rfl

/-- The second mean: the sum over the columns of the root of the clamped column minimum, over the number of points. -/
theorem pay5_apply (s8 : Vec Ideal S1x8192 .f32) :
    k1_pay5 (F := Ideal) s8 (ix3 0 0 0)
      = Ideal.div (∑ c : Fin 8192, Ideal.sqrt (max (s8 (ix2 0 c)) 0)) (Ideal.ofBits .f32 0x46000000#32) := by
  unfold k1_pay5
  refine (shapeCast_ab_1ab_apply _ shapeCasts_S1x1_S1x1x1 0 0 0).trans ?_
  refine (divf_apply _ _ _).trans (congrArg (Ideal.div · (Ideal.ofBits .f32 0x46000000#32)) ?_)
  refine (extract_cast3 _).trans ?_
  refine (Ideal.multiReduction_add_total _ _ reduces_S1x1x8192_S1 (by decide) _ _ (ix1 0)).trans ?_
  refine (sum_shapeCast _ shapeCasts_S1x8192_S1x1x8192).trans ((sum_lane _).trans ?_)
  refine Finset.sum_congr rfl fun c _ => ?_
  show Ideal.sqrt (max (s8 (ix2 0 c)) (Ideal.ofBits .f32 0x00000000#32)) = _
  rw [Ideal.ofBits_zero_f32]

end Cert.KernelIdeal.PayAt

end
-- ==== Proof.Ref.Chamfer.lean ====
/- The reference's chamfer stages read at an index, at the ideal instance: the squared distance between point n of one
   cloud and point m of the other as |p|² + |q|² − 2·⟨p, q⟩, its clamped square root, the minimum over either axis as a
   fold from +∞, and the mean of those minima over the remaining axis. -/
import proofs.«134128_j58669253263727_2_alg».proof.Proof.Ref.Imports

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-- The squared distance, expanded: |p_n|² + |q_m|² − 2·⟨p_n, q_m⟩, with p the left operand of the product. -/
theorem v25_apply (x6 x7 : (⟨S4x8192x3, .f32⟩ : BufTy).Contents (Elt Ideal)) (b : Fin 4) (n m : Fin 8192) :
    val_main_v25 (F := Ideal) x6 x7 (ix3 b n m)
      = ((∑ k : Fin 3, x7 (ix3 b n k) * x7 (ix3 b n k)) + (∑ k : Fin 3, x6 (ix3 b m k) * x6 (ix3 b m k)))
          - Ideal.ofBits .f32 0x40000000#32 * (∑ k : Fin 3, x7 (ix3 b n k) * x6 (ix3 b m k)) := by
  rw [val_main_v25_apply, val_main_v22_apply, val_main_v24_apply, val_main_v20_apply, val_main_v21_apply,
    val_main_v18_apply, val_main_v19_apply, val_main_v14_apply, val_main_v16_apply, val_main_v23_apply,
    val_main_v17_apply, val_main_cst_5_apply, val_main_cst_6_apply, val_main_cst_7_apply]
  simp only [val_main_v13_apply, val_main_v15_apply]
  have e14 : ∀ k : Fin 3, idx_main_v14 (idx_main_v18 (idx_main_v20 (ix3 b n m))) k = ix3 b n k := fun k =>
    funext fun a => by match a with | ⟨0, _⟩ => rfl | ⟨1, _⟩ => rfl | ⟨2, _⟩ => rfl
  have e16 : ∀ k : Fin 3, idx_main_v16 (idx_main_v19 (idx_main_v21 (ix3 b n m))) k = ix3 b m k := fun k =>
    funext fun a => by match a with | ⟨0, _⟩ => rfl | ⟨1, _⟩ => rfl | ⟨2, _⟩ => rfl
  have el : ∀ k : Fin 3, lidx_main_v17 (ix3 b n m) k = ix3 b n k := fun k =>
    funext fun a => by match a with | ⟨0, _⟩ => rfl | ⟨1, _⟩ => rfl | ⟨2, _⟩ => rfl
  have er : ∀ k : Fin 3, ridx_main_v17 (ix3 b n m) k = ix3 b m k := fun k =>
    funext fun a => by match a with | ⟨0, _⟩ => rfl | ⟨1, _⟩ => rfl | ⟨2, _⟩ => rfl
  simp only [e14, e16, el, er]
  show (Ideal.ofBits .f32 0x00000000#32 + ∑ k : Fin 3, x7 (ix3 b n k) * x7 (ix3 b n k))
        + (Ideal.ofBits .f32 0x00000000#32 + ∑ k : Fin 3, x6 (ix3 b m k) * x6 (ix3 b m k))
      - Ideal.ofBits .f32 0x40000000#32 * (∑ k : Fin 3, x7 (ix3 b n k) * x6 (ix3 b m k)) = _
  rw [Ideal.ofBits_zero_f32, zero_add, zero_add]

/-- The distance: the square root of the squared distance clamped at zero from below. -/
theorem v28_apply (x6 x7 : (⟨S4x8192x3, .f32⟩ : BufTy).Contents (Elt Ideal)) (b : Fin 4) (n m : Fin 8192) :
    val_main_v28 (F := Ideal) x6 x7 (ix3 b n m) = Ideal.sqrt (max (val_main_v25 (F := Ideal) x6 x7 (ix3 b n m)) 0) := by
  rw [val_main_v28_apply, val_main_v27_apply, val_main_v26_apply, val_main_cst_8_apply]
  show Ideal.sqrt (max (val_main_v25 (F := Ideal) x6 x7 (ix3 b n m)) (Ideal.ofBits .f32 0x00000000#32)) = _
  rw [Ideal.ofBits_zero_f32]

/-- The reduced index (b, n) with coordinate k put back on the last axis is (b, n, k). -/
theorem lift_d2 (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  fin_cases c <;> rfl

/-- The reduced index (b, m) with coordinate k put back on the middle axis is (b, k, m). -/
theorem lift_d1 (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext
  fin_cases c <;> rfl

/-- The nearest point of the second cloud to point n of the first: the minimum over m, folded from +∞. -/
theorem v29_apply (x6 x7 : (⟨S4x8192x3, .f32⟩ : BufTy).Contents (Elt Ideal)) (b : Fin 4) (n : Fin 8192) :
    val_main_v29 (F := Ideal) x6 x7 (ix2 b n)
      = (Finset.univ : Finset (Fin 8192)).fold min (Ideal.ofBits .f32 0x7F800000#32)
          (fun m => val_main_v28 (F := Ideal) x6 x7 (ix3 b n m)) := by
  have hr : S4x8192x8192.Reduces [2] S4x8192 :=
    ⟨reducesTo_S4x8192x8192_S4x8192_d2.1, Nat.two_pos, reducesTo_S4x8192x8192_S4x8192_d2.2⟩
  unfold val_main_v29
  generalize val_main_v28 (F := Ideal) x6 x7 = y
  refine (Host.reduce_eq_fold_single _ y _ reducesTo_S4x8192x8192_S4x8192_d2 hr h_S_ (ix2 b n)).trans ?_
  have hf : (y ∘ hr.lift (ix2 b n)) = fun m : Fin 8192 => y (ix3 b n m) := funext fun k => congrArg y (lift_d2 hr b n k)
  exact congrArg (fun f => Finset.fold min (Ideal.ofBits .f32 0x7F800000#32) f (Finset.univ : Finset (Fin 8192))) hf

/-- The nearest point of the first cloud to point m of the second: the minimum over n, folded from +∞. -/
theorem v33_apply (x6 x7 : (⟨S4x8192x3, .f32⟩ : BufTy).Contents (Elt Ideal)) (b : Fin 4) (m : Fin 8192) :
    val_main_v33 (F := Ideal) x6 x7 (ix2 b m)
      = (Finset.univ : Finset (Fin 8192)).fold min (Ideal.ofBits .f32 0x7F800000#32)
          (fun n => val_main_v28 (F := Ideal) x6 x7 (ix3 b n m)) := by
  have hr : S4x8192x8192.Reduces [1] S4x8192 :=
    ⟨reducesTo_S4x8192x8192_S4x8192_d1.1, Nat.two_pos, reducesTo_S4x8192x8192_S4x8192_d1.2⟩
  unfold val_main_v33
  generalize val_main_v28 (F := Ideal) x6 x7 = y
  refine (Host.reduce_eq_fold_single _ y _ reducesTo_S4x8192x8192_S4x8192_d1 hr h_S_ (ix2 b m)).trans ?_
  have hf : (y ∘ hr.lift (ix2 b m)) = fun n : Fin 8192 => y (ix3 b n m) := funext fun k => congrArg y (lift_d1 hr b m k)
  exact congrArg (fun f => Finset.fold min (Ideal.ofBits .f32 0x7F800000#32) f (Finset.univ : Finset (Fin 8192))) hf

/-- The first cloud's mean distance to its nearest neighbour: the sum over n of the minima, divided by 8192. -/
theorem v32_apply (x6 x7 : (⟨S4x8192x3, .f32⟩ : BufTy).Contents (Elt Ideal)) (b : Fin 4) :
    val_main_v32 (F := Ideal) x6 x7 (ix1 b)
      = Ideal.div (∑ n : Fin 8192, val_main_v29 (F := Ideal) x6 x7 (ix2 b n)) (Ideal.ofBits .f32 0x46000000#32) := by
  rw [val_main_v32_apply, val_main_v30_apply, val_main_v31_apply, val_main_cst_10_apply, val_main_cst_11_apply]
  have e : ∀ k : Fin 8192, idx_main_v30 (ix1 b) k = ix2 b k := fun k =>
    funext fun a => by match a with | ⟨0, _⟩ => rfl | ⟨1, _⟩ => rfl
  simp only [e]
  show Ideal.div (Ideal.ofBits .f32 0x00000000#32 + ∑ n : Fin 8192, val_main_v29 (F := Ideal) x6 x7 (ix2 b n))
      (Ideal.ofBits .f32 0x46000000#32) = _
  rw [Ideal.ofBits_zero_f32, zero_add]

/-- The second cloud's mean distance to its nearest neighbour: the sum over m of the minima, divided by 8192. -/
theorem v36_apply (x6 x7 : (⟨S4x8192x3, .f32⟩ : BufTy).Contents (Elt Ideal)) (b : Fin 4) :
    val_main_v36 (F := Ideal) x6 x7 (ix1 b)
      = Ideal.div (∑ m : Fin 8192, val_main_v33 (F := Ideal) x6 x7 (ix2 b m)) (Ideal.ofBits .f32 0x46000000#32) := by
  rw [val_main_v36_apply, val_main_v34_apply, val_main_v35_apply, val_main_cst_13_apply, val_main_cst_14_apply]
  have e : ∀ k : Fin 8192, idx_main_v34 (ix1 b) k = ix2 b k := fun k =>
    funext fun a => by match a with | ⟨0, _⟩ => rfl | ⟨1, _⟩ => rfl
  simp only [e]
  show Ideal.div (Ideal.ofBits .f32 0x00000000#32 + ∑ m : Fin 8192, val_main_v33 (F := Ideal) x6 x7 (ix2 b m))
      (Ideal.ofBits .f32 0x46000000#32) = _
  rw [Ideal.ofBits_zero_f32, zero_add]

end Cert.ReferenceIdeal.RefValue
-- ==== Proof.LibTiledMinSum.lean ====
import Idealize.ShloMosaic.PureOps.Ideal
import Mathlib.Data.EReal.Basic
import Mathlib.Data.Finset.Fold
import Mathlib.Algebra.BigOperators.Fin
import Mathlib.Algebra.BigOperators.Group.Finset.Basic
import Mathlib.Logic.Equiv.Fin.Basic
import Mathlib.Analysis.SpecialFunctions.Pow.Real

/-!
# Tiled minima and tiled sums over the extended reals

A matrix of extended reals is scanned in square tiles. Row minima are taken tile by
tile (a running minimum of the tiles' minima), a clamped square root is applied, and the
results are summed, again tile by tile. This file shows that the outcome is the plain
"minimum over the whole row of the entrywise clamped root, summed over all rows", and
the same with rows and columns exchanged.

The ingredients are: a monotone map that fixes the top element commutes with a fold
of minima started at the top; a fold of minima (or a sum) over a * b positions is the fold
(sum) over the a tiles of the tiles' folds (sums); a running minimum (running sum) is the
fold (sum) over an initial segment.
-/

namespace TiledMinSum

open Idealize.ShloMosaic

/-! ### The clamped square root -/

/-- The clamped square root x ↦ √(max x 0) on the extended reals: negative values and the
bottom element go to 0, the top element to itself. -/
noncomputable def clampRoot (x : EReal) : EReal := Ideal.sqrt (max x 0)

/-- The square root of the extended reals is monotone on the non-negative half line. -/
theorem sqrt_le_sqrt_of_nonneg {u v : EReal} (hu : 0 ≤ u) (huv : u ≤ v) :
    Ideal.sqrt u ≤ Ideal.sqrt v := by
  induction u using EReal.rec with
  | bot => exact absurd hu (by simp)
  | top =>
    have : v = ⊤ := top_le_iff.mp huv
    subst this; exact le_rfl
  | coe a =>
    induction v using EReal.rec with
    | bot => exact absurd huv (by simp)
    | top => simp
    | coe b =>
      have ha : 0 ≤ a := by exact_mod_cast hu
      have hab : a ≤ b := by exact_mod_cast huv
      have hb : 0 ≤ b := ha.trans hab
      simp only [Ideal.sqrt_coe, not_lt.mpr ha, not_lt.mpr hb, if_false]
      exact_mod_cast Real.sqrt_le_sqrt hab

/-- The clamped square root is monotone: clamping at 0 is monotone and lands in the
non-negative half line, where the square root is monotone. -/
theorem clampRoot_mono : Monotone clampRoot := by
  intro x y hxy
  exact sqrt_le_sqrt_of_nonneg (le_max_right _ _) (max_le_max hxy le_rfl)

/-- The clamped square root fixes the top element. -/
theorem clampRoot_top : clampRoot ⊤ = ⊤ := by
  simp [clampRoot]

/-! ### Monotone maps and folds of minima -/

/-- A monotone map g with g ⊤ = ⊤ commutes with the minimum of a finite family (a fold
of min started at ⊤), over any finite index set. -/
theorem map_fold_min_finset {ι : Type*} (s : Finset ι) (g : EReal → EReal) (hg : Monotone g)
    (htop : g ⊤ = ⊤) (f : ι → EReal) :
    g (s.fold min ⊤ f) = s.fold min ⊤ (fun k => g (f k)) := by
  have h := Finset.fold_hom (op := min) (op' := min) (s := s) (b := (⊤ : EReal)) (f := f)
    (m := g) (fun x y => hg.map_min)
  rw [htop] at h
  exact h.symm

/-- A monotone map g with g ⊤ = ⊤ commutes with the minimum over all of Fin n. -/
theorem map_fold_min {n : ℕ} (g : EReal → EReal) (hg : Monotone g) (htop : g ⊤ = ⊤)
    (f : Fin n → EReal) :
    g ((Finset.univ : Finset (Fin n)).fold min ⊤ f)
      = (Finset.univ : Finset (Fin n)).fold min ⊤ (fun k => g (f k)) :=
  map_fold_min_finset _ g hg htop f

/-! ### Tiling a range of a * b positions -/

/-- Every position below a * b lies in exactly one tile: it is i * b + p for the tile
i = x / b and the offset p = x % b. -/
theorem exists_tile {n a b : ℕ} (hn : n = a * b) (r : Fin a → Fin b → Fin n)
    (hr : ∀ i p, (r i p).val = i.val * b + p.val) (x : Fin n) : ∃ i p, r i p = x := by
  have hx : x.val < a * b := hn ▸ x.isLt
  have hb : 0 < b := by
    rcases Nat.eq_zero_or_pos b with h | h
    · subst h; simp at hx
    · exact h
  refine ⟨⟨x.val / b, (Nat.div_lt_iff_lt_mul hb).mpr hx⟩, ⟨x.val % b, Nat.mod_lt _ hb⟩, ?_⟩
  apply Fin.ext
  rw [hr]
  exact Nat.div_add_mod' _ _

/-- The minimum over n = a * b positions is the minimum over the a tiles of the tiles'
minima (each tile has b consecutive positions, tile i holding i * b + p for p < b). -/
theorem fold_min_tiles {n a b : ℕ} (hn : n = a * b) (f : Fin n → EReal)
    (r : Fin a → Fin b → Fin n) (hr : ∀ i p, (r i p).val = i.val * b + p.val) :
    (Finset.univ : Finset (Fin n)).fold min ⊤ f
      = (Finset.univ : Finset (Fin a)).fold min ⊤
          (fun i => (Finset.univ : Finset (Fin b)).fold min ⊤ (fun p => f (r i p))) := by
  apply eq_of_forall_le_iff
  intro c
  simp only [Finset.le_fold_min, le_top, true_and, Finset.mem_univ, forall_true_left]
  constructor
  · intro h i p; exact h _
  · intro h x
    obtain ⟨i, p, rfl⟩ := exists_tile hn r hr x
    exact h i p

/-- The sum over n = a * b positions is the sum over the a tiles of the tiles' sums, in any
commutative additive monoid. -/
theorem sum_tiles_fin {M : Type*} [AddCommMonoid M] {n a b : ℕ} (hn : n = a * b) (f : Fin n → M)
    (r : Fin a → Fin b → Fin n) (hr : ∀ i p, (r i p).val = i.val * b + p.val) :
    ∑ x : Fin n, f x = ∑ i : Fin a, ∑ p : Fin b, f (r i p) := by
  subst hn
  rw [← Fintype.sum_prod_type' (f := fun i p => f (r i p))]
  symm
  apply Fintype.sum_equiv finProdFinEquiv
  rintro ⟨i, p⟩
  congr 1
  apply Fin.ext
  rw [hr]
  simp [finProdFinEquiv, Nat.mul_comm, Nat.add_comm]

/-! ### Running minima and running sums -/

/-- The running minimum of a sequence: runMin h j = min (h 0) (h 1) ... (h j), built from
the left. -/
noncomputable def runMin (h : ℕ → EReal) : ℕ → EReal
  | 0 => h 0
  | j + 1 => min (runMin h j) (h (j + 1))

/-- The running minimum up to j is the minimum over the initial segment 0, ..., j. -/
theorem runMin_eq (h : ℕ → EReal) (j : ℕ) :
    runMin h j = (Finset.range (j + 1)).fold min ⊤ h := by
  induction j with
  | zero => simp [runMin]
  | succ j ih =>
    rw [Finset.range_add_one, Finset.fold_insert (by simp), ← ih, min_comm]
    rfl

/-- The minimum over the initial segment 0, ..., T, indexed by naturals, is the minimum
over Fin (T + 1). -/
theorem fold_min_range_eq_univ (m : ℕ) (h : ℕ → EReal) :
    (Finset.range m).fold min ⊤ h
      = (Finset.univ : Finset (Fin m)).fold min ⊤ (fun j => h j.val) := by
  apply eq_of_forall_le_iff
  intro c
  simp only [Finset.le_fold_min, le_top, true_and, Finset.mem_univ, forall_true_left,
    Finset.mem_range]
  constructor
  · intro hc j; exact hc j.val j.isLt
  · intro hc k hk; exact hc ⟨k, hk⟩

/-- The running minimum up to T is the minimum over Fin (T + 1). -/
theorem runMin_eq_univ (T : ℕ) (h : ℕ → EReal) :
    runMin h T = (Finset.univ : Finset (Fin (T + 1))).fold min ⊤ (fun j => h j.val) := by
  rw [runMin_eq, fold_min_range_eq_univ]

/-- The running sum of a sequence on top of a starting value s:
runSum s h j = ((s + h 0) + h 1) + ... + h j, nested to the left. -/
def runSum {M : Type*} [AddCommMonoid M] (s : M) (h : ℕ → M) : ℕ → M
  | 0 => s + h 0
  | j + 1 => runSum s h j + h (j + 1)

/-- The running sum up to j is the starting value plus the sum over 0, ..., j. -/
theorem runSum_eq {M : Type*} [AddCommMonoid M] (s : M) (h : ℕ → M) (j : ℕ) :
    runSum s h j = s + ∑ k ∈ Finset.range (j + 1), h k := by
  induction j with
  | zero => simp [runSum]
  | succ j ih =>
    rw [Finset.sum_range_succ _ (j + 1), ← add_assoc, ← ih]
    rfl

/-- The running sum up to T is the starting value plus the sum over Fin (T + 1). -/
theorem runSum_eq_univ {M : Type*} [AddCommMonoid M] (s : M) (T : ℕ) (h : ℕ → M) :
    runSum s h T = s + ∑ j : Fin (T + 1), h j.val := by
  rw [runSum_eq, Finset.sum_range]

/-! ### Pointwise agreement, and the pattern of +∞ -/

/-- A running minimum depends only on the terms up to its index. -/
theorem runMin_congr {h h' : ℕ → EReal} (j : ℕ) (H : ∀ k, k ≤ j → h k = h' k) :
    runMin h j = runMin h' j := by
  induction j with
  | zero => exact H 0 le_rfl
  | succ j ih =>
    show min (runMin h j) (h (j + 1)) = min (runMin h' j) (h' (j + 1))
    rw [ih (fun k hk => H k (Nat.le_succ_of_le hk)), H (j + 1) le_rfl]

/-- A running sum depends only on the terms up to its index. -/
theorem runSum_congr {M : Type*} [AddCommMonoid M] (s : M) {h h' : ℕ → M} (j : ℕ)
    (H : ∀ k, k ≤ j → h k = h' k) : runSum s h j = runSum s h' j := by
  induction j with
  | zero => show s + h 0 = s + h' 0; rw [H 0 le_rfl]
  | succ j ih =>
    show runSum s h j + h (j + 1) = runSum s h' j + h' (j + 1)
    rw [ih (fun k hk => H k (Nat.le_succ_of_le hk)), H (j + 1) le_rfl]

/-- The single-precision pattern of +∞ denotes the top element of the extended reals. -/
theorem ofBits_f32_inf : Ideal.ofBits .f32 0x7F800000#32 = ⊤ := by
  simp [Ideal.ofBits, Ideal.ieee]

/-! ### The two totals -/

/-- Core identity, tiles indexed by Fin a: summing, over all a * b rows tile by tile, the
clamped root of the row's minimum (itself taken tile by tile over the a * b columns) gives
the sum over all rows of the minimum over all columns of the entrywise clamped root. -/
theorem tiled_rowmin_sum {n a b : ℕ} (hn : n = a * b) (d : Fin n → Fin n → EReal)
    (r : Fin a → Fin b → Fin n) (hr : ∀ i p, (r i p).val = i.val * b + p.val) :
    ∑ tn : Fin a, ∑ p : Fin b, clampRoot ((Finset.univ : Finset (Fin a)).fold min ⊤
        (fun tm => (Finset.univ : Finset (Fin b)).fold min ⊤ (fun q => d (r tn p) (r tm q))))
      = ∑ i : Fin n, (Finset.univ : Finset (Fin n)).fold min ⊤ (fun k => clampRoot (d i k)) := by
  rw [sum_tiles_fin hn _ r hr]
  refine Finset.sum_congr rfl fun tn _ => Finset.sum_congr rfl fun p _ => ?_
  refine Eq.trans ?_
    (map_fold_min clampRoot clampRoot_mono clampRoot_top (fun k => d (r tn p) k))
  congr 1
  exact (fold_min_tiles hn (fun k => d (r tn p) k) r hr).symm

/-- Column version of the core identity: for each column, the clamped root of the column's
minimum taken tile by tile over the a * b rows is the minimum over all rows of the entrywise
clamped root. -/
theorem tiled_colmin {n a b : ℕ} (hn : n = a * b) (d : Fin n → Fin n → EReal)
    (r : Fin a → Fin b → Fin n) (hr : ∀ i p, (r i p).val = i.val * b + p.val) (k : Fin n) :
    clampRoot ((Finset.univ : Finset (Fin a)).fold min ⊤
        (fun tn => (Finset.univ : Finset (Fin b)).fold min ⊤ (fun p => d (r tn p) k)))
      = (Finset.univ : Finset (Fin n)).fold min ⊤ (fun i => clampRoot (d i k)) := by
  refine Eq.trans ?_
    (map_fold_min clampRoot clampRoot_mono clampRoot_top (fun i => d i k))
  congr 1
  exact (fold_min_tiles hn (fun i => d i k) r hr).symm

/-- Row total, in running form with tiles counted by naturals 0, ..., T: the running sum over
row tiles of the tile's sum of clamped roots of running row minima equals the sum over all
rows of the minimum over all columns of the entrywise clamped root. The position map rr
sends tile t < T + 1 and offset p to position t * B + p. -/
theorem rows_total {n T B : ℕ} (hn : n = (T + 1) * B) (d : Fin n → Fin n → EReal)
    (rr : ℕ → Fin B → Fin n) (hrr : ∀ t, t < T + 1 → ∀ p, (rr t p).val = t * B + p.val) :
    runSum 0 (fun tn => ∑ p : Fin B, clampRoot (runMin (fun tm =>
        (Finset.univ : Finset (Fin B)).fold min ⊤ (fun q => d (rr tn p) (rr tm q))) T)) T
      = 0 + ∑ i : Fin n,
          (Finset.univ : Finset (Fin n)).fold min ⊤ (fun k => clampRoot (d i k)) := by
  rw [runSum_eq_univ]
  congr 1
  rw [← tiled_rowmin_sum hn d (fun i p => rr i.val p) (fun i p => hrr i.val i.isLt p)]
  refine Finset.sum_congr rfl fun tn _ => Finset.sum_congr rfl fun p _ => ?_
  rw [runMin_eq_univ]

/-- Column total, the sum over columns taken in one go: for each column the clamped root of
the running minimum over row tiles, summed over all columns, equals the sum over all columns
of the minimum over all rows of the entrywise clamped root. -/
theorem cols_total {n T B : ℕ} (hn : n = (T + 1) * B) (d : Fin n → Fin n → EReal)
    (rr : ℕ → Fin B → Fin n) (hrr : ∀ t, t < T + 1 → ∀ p, (rr t p).val = t * B + p.val) :
    0 + ∑ k : Fin n, clampRoot (runMin (fun tn =>
        (Finset.univ : Finset (Fin B)).fold min ⊤ (fun p => d (rr tn p) k)) T)
      = 0 + ∑ k : Fin n,
          (Finset.univ : Finset (Fin n)).fold min ⊤ (fun i => clampRoot (d i k)) := by
  congr 1
  refine Finset.sum_congr rfl fun k _ => ?_
  rw [runMin_eq_univ]
  exact tiled_colmin hn d (fun i p => rr i.val p) (fun i p => hrr i.val i.isLt p) k

/-- Column total with the sum over columns also accumulated tile by tile in running form:
rows_total applied to the transposed matrix. -/
theorem cols_total_tiled {n T B : ℕ} (hn : n = (T + 1) * B) (d : Fin n → Fin n → EReal)
    (rr : ℕ → Fin B → Fin n) (hrr : ∀ t, t < T + 1 → ∀ p, (rr t p).val = t * B + p.val) :
    runSum 0 (fun tk => ∑ q : Fin B, clampRoot (runMin (fun tn =>
        (Finset.univ : Finset (Fin B)).fold min ⊤ (fun p => d (rr tn p) (rr tk q))) T)) T
      = 0 + ∑ k : Fin n,
          (Finset.univ : Finset (Fin n)).fold min ⊤ (fun i => clampRoot (d i k)) :=
  rows_total hn (fun k i => d i k) rr hrr

end TiledMinSum
-- ==== Proof.KernelIdeal.Val1Math.lean ====
/- The second kernel's scratch buffers after a whole batch, as mathematics: from the one-point recursion for the row
   minima, the column minima and the running sum to the tiled minima and sums of the squared-distance tiles, and from
   those to the reference's two means of nearest-neighbour distances. -/
import proofs.«134128_j58669253263727_2_alg».proof.Proof.KernelIdeal.R1State
import proofs.«134128_j58669253263727_2_alg».proof.Proof.KernelIdeal.PayAt1
import proofs.«134128_j58669253263727_2_alg».proof.Proof.Ref.Chamfer
import proofs.«134128_j58669253263727_2_alg».proof.Proof.LibTiledMinSum

noncomputable section

namespace Cert.KernelIdeal.H

open Cert.KernelIdeal Cert.KernelIdeal.Gen Cert.KernelIdeal.PayAt
open Idealize.ShloMosaic Idealize.ShloMosaic.ValueIdx
open TiledMinSum

/-! ### One point's effect, read at an index -/

/-- The state after one more point is one step from the state before it. -/
theorem run1_succ (xs ys : ℕ → Vec Ideal S1x1024x3 .f32) (k : ℕ) :
    run1 xs ys (k + 1) = step1 k (xs k) (ys k) (run1 xs ys k) := rfl

/-- The row-minimum buffer after a step. -/
theorem step1_fst (t : ℕ) (x y : Vec Ideal S1x1024x3 .f32) (s : St Ideal) :
    (step1 t x y s).1 = if t % 8 = 0 then k1_pay10 x y else k1_pay11 x y s.1 := rfl

/-- The column-minimum buffer after a step. -/
theorem step1_snd_fst (t : ℕ) (x y : Vec Ideal S1x1024x3 .f32) (s : St Ideal) :
    (step1 t x y s).2.1
      = if t % 64 < 8 then upd8 s.2.1 (t % 8) (k1_pay1 (k1_pay9 x y))
        else upd8 s.2.1 (t % 8) (k1_pay2 (k1_pay9 x y) (blk8 s.2.1 (t % 8))) := rfl

/-- The running sum after a step. -/
theorem step1_snd_snd (t : ℕ) (x y : Vec Ideal S1x1024x3 .f32) (s : St Ideal) :
    (step1 t x y s).2.2
      = if t % 8 = 7 then k1_pay3 (step1 t x y s).1 (if t % 64 = 0 then k1_pay6 (F := Ideal) else s.2.2)
        else (if t % 64 = 0 then k1_pay6 (F := Ideal) else s.2.2) := rfl

/-- A tile's row minimum from +∞, with +∞ written as the top element. -/
theorem pay8_top (x y : Vec Ideal S1x1024x3 .f32) (r : Fin 1024) :
    k1_pay8 (F := Ideal) x y (ix2 r 0)
      = (Finset.univ : Finset (Fin 1024)).fold min ⊤ (fun c => k1_pay7 (F := Ideal) x y (ix2 r c)) := by
  refine (pay8_apply x y r).trans ?_
  rw [ofBits_f32_inf]

/-- A tile's column minimum from +∞, with +∞ written as the top element. -/
theorem pay9_top (x y : Vec Ideal S1x1024x3 .f32) (c : Fin 1024) :
    k1_pay9 (F := Ideal) x y (ix2 0 c)
      = (Finset.univ : Finset (Fin 1024)).fold min ⊤ (fun r => k1_pay7 (F := Ideal) x y (ix2 r c)) := by
  refine (pay9_apply x y c).trans ?_
  rw [ofBits_f32_inf]

/-- Row minima, one point on: a fresh tile minimum at the first column tile, else the stored value against the tile's. -/
theorem run1_row_at (xs ys : ℕ → Vec Ideal S1x1024x3 .f32) (t : ℕ) (p : Fin 1024) :
    (run1 xs ys (t + 1)).1 (ix2 p 0)
      = if t % 8 = 0 then k1_pay8 (F := Ideal) (xs t) (ys t) (ix2 p 0)
        else min ((run1 xs ys t).1 (ix2 p 0)) (k1_pay8 (F := Ideal) (xs t) (ys t) (ix2 p 0)) := by
  rw [run1_succ, step1_fst]
  by_cases h : t % 8 = 0
  · rw [if_pos h, if_pos h, pay10_eq]
  · rw [if_neg h, if_neg h]
    exact pay11_apply _ _ _ p

/-- Column minima, one point on: only the point's own column block changes; in the first row tile it takes the tile's
    column minimum, later the stored value against it. -/
theorem run1_col_at (xs ys : ℕ → Vec Ideal S1x1024x3 .f32) (t : ℕ) (col : Fin 8192) :
    (run1 xs ys (t + 1)).2.1 (ix2 0 col)
      = if col.val / 1024 = t % 8 then
          (if t % 64 < 8 then
            k1_pay9 (F := Ideal) (xs t) (ys t) (ix2 0 ⟨col.val % 1024, Nat.mod_lt _ (by norm_num)⟩)
          else min ((run1 xs ys t).2.1 (ix2 0 col))
            (k1_pay9 (F := Ideal) (xs t) (ys t) (ix2 0 ⟨col.val % 1024, Nat.mod_lt _ (by norm_num)⟩)))
        else (run1 xs ys t).2.1 (ix2 0 col) := by
  rw [run1_succ, step1_snd_fst]
  by_cases h8 : t % 64 < 8
  · rw [if_pos h8]
    show (if col.val / 1024 = t % 8 then _ else _) = _
    by_cases hj : col.val / 1024 = t % 8
    · rw [if_pos hj, if_pos hj, if_pos h8, pay1_eq]
    · rw [if_neg hj, if_neg hj]
  · rw [if_neg h8]
    show (if col.val / 1024 = t % 8 then _ else _) = _
    by_cases hj : col.val / 1024 = t % 8
    · rw [if_pos hj, if_pos hj, if_neg h8]
      refine (pay2_apply _ _ _).trans ?_
      refine congrArg (fun z => min z _) ?_
      show (run1 xs ys t).2.1 (ix2 0 _) = _
      refine congrArg (fun c : Fin 8192 => (run1 xs ys t).2.1 (ix2 0 c)) (Fin.ext ?_)
      show (1024 * (t % 8) + col.val % 1024) % 8192 = col.val
      have := col.isLt
      omega
    · rw [if_neg hj, if_neg hj]

/-- The running sum, one point on: reset to zero at a batch's first point, and at the last column tile of a row tile
    increased by the sum over the rows of the clamped root of the finished row minima. -/
theorem run1_sum_at (xs ys : ℕ → Vec Ideal S1x1024x3 .f32) (t : ℕ) :
    (run1 xs ys (t + 1)).2.2 (ix2 0 0)
      = if t % 8 = 7 then
          (run1 xs ys t).2.2 (ix2 0 0) + ∑ r : Fin 1024, clampRoot ((run1 xs ys (t + 1)).1 (ix2 r 0))
        else if t % 64 = 0 then 0 else (run1 xs ys t).2.2 (ix2 0 0) := by
  rw [run1_succ, step1_snd_snd]
  by_cases h7 : t % 8 = 7
  · have h0 : ¬ t % 64 = 0 := by omega
    rw [if_pos h7, if_pos h7, if_neg h0]
    exact pay3_apply _ _
  · rw [if_neg h7, if_neg h7]
    by_cases h0 : t % 64 = 0
    · rw [if_pos h0, if_pos h0]; exact pay6_apply
    · rw [if_neg h0, if_neg h0]

/-! ### A whole batch -/

section Batch

variable (xb yb xs ys : ℕ → Vec Ideal S1x1024x3 .f32)

/-- The squared distance between point p of x block u and point q of y block v. -/
def D (u v : ℕ) (p q : Fin 1024) : EReal := k1_pay7 (F := Ideal) (xb u) (yb v) (ix2 p q)

/-- The sum, over the rows of row tile tn of batch b, of the clamped root of the row's minimum over the batch's eight
    column tiles. -/
def rowSum (b tn : ℕ) : EReal :=
  ∑ p : Fin 1024, clampRoot (runMin (fun tm =>
    (Finset.univ : Finset (Fin 1024)).fold min ⊤ (fun q => D xb yb (8 * b + tn) (8 * b + tm) p q)) 7)

variable {xb yb xs ys}

/-- Row minima within a row tile: after column tile m the buffer holds, at row p, the running minimum of the tile minima
    of column tiles 0 to m. -/
theorem rowbuf (hxs : ∀ k, k < 256 → xs k = xb (k / 8)) (hys : ∀ k, k < 256 → ys k = yb (k / 64 * 8 + k % 8))
    (b n : ℕ) (hb : b < 4) (hn : n < 8) (p : Fin 1024) (m : ℕ) (hm : m < 8) (t : ℕ) (ht : t = 64 * b + 8 * n + m) :
    (run1 xs ys (t + 1)).1 (ix2 p 0)
      = runMin (fun tm => (Finset.univ : Finset (Fin 1024)).fold min ⊤
          (fun q => D xb yb (8 * b + n) (8 * b + tm) p q)) m := by
  induction m generalizing t with
  | zero =>
    rw [run1_row_at, if_pos (by omega), pay8_top, hxs t (by omega), hys t (by omega),
      show t / 8 = 8 * b + n by omega, show t / 64 * 8 + t % 8 = 8 * b + 0 by omega]
    rfl
  | succ m ih =>
    obtain ⟨t', rfl⟩ : ∃ t', t = t' + 1 := ⟨t - 1, by omega⟩
    rw [run1_row_at, if_neg (by omega), ih (by omega) t' (by omega), pay8_top, hxs (t' + 1) (by omega),
      hys (t' + 1) (by omega), show (t' + 1) / 8 = 8 * b + n by omega,
      show (t' + 1) / 64 * 8 + (t' + 1) % 8 = 8 * b + (m + 1) by omega]
    rfl

/-- The running sum within a batch: after the batch's point number j it is the sum of the finished row tiles' sums. -/
theorem sumbuf (hxs : ∀ k, k < 256 → xs k = xb (k / 8)) (hys : ∀ k, k < 256 → ys k = yb (k / 64 * 8 + k % 8))
    (b : ℕ) (hb : b < 4) (j : ℕ) (hj : j < 64) (t : ℕ) (ht : t = 64 * b + j) :
    (run1 xs ys (t + 1)).2.2 (ix2 0 0) = ∑ i ∈ Finset.range ((j + 1) / 8), rowSum xb yb b i := by
  induction j generalizing t with
  | zero =>
    rw [run1_sum_at, if_neg (by omega), if_pos (by omega)]
    rfl
  | succ j ih =>
    obtain ⟨t', rfl⟩ : ∃ t', t = t' + 1 := ⟨t - 1, by omega⟩
    rw [run1_sum_at]
    by_cases h7 : (t' + 1) % 8 = 7
    · rw [if_pos h7, ih (by omega) t' (by omega), show (j + 1 + 1) / 8 = (j + 1) / 8 + 1 by omega,
        Finset.sum_range_succ]
      refine congrArg (_ + ·) ?_
      unfold rowSum
      refine Finset.sum_congr rfl fun r _ => congrArg clampRoot ?_
      exact rowbuf hxs hys b ((j + 1) / 8) hb (by omega) r 7 (by norm_num) (t' + 1) (by omega)
    · rw [if_neg h7, if_neg (by omega), ih (by omega) t' (by omega), show (j + 1 + 1) / 8 = (j + 1) / 8 by omega]

/-- Column minima within a batch: i points after the batch's first visit to a column's block, the buffer holds at that
    column the running minimum of the tile minima of row tiles 0 to i / 8. -/
theorem colbuf (hxs : ∀ k, k < 256 → xs k = xb (k / 8)) (hys : ∀ k, k < 256 → ys k = yb (k / 64 * 8 + k % 8))
    (b : ℕ) (hb : b < 4) (col : Fin 8192) (i : ℕ) (hi : i + col.val / 1024 < 64) (t : ℕ)
    (ht : t = 64 * b + col.val / 1024 + i) :
    (run1 xs ys (t + 1)).2.1 (ix2 0 col)
      = runMin (fun tn => (Finset.univ : Finset (Fin 1024)).fold min ⊤
          (fun p => D xb yb (8 * b + tn) (8 * b + col.val / 1024) p
            ⟨col.val % 1024, Nat.mod_lt _ (by norm_num)⟩)) (i / 8) := by
  have hc := col.isLt
  induction i generalizing t with
  | zero =>
    rw [run1_col_at, if_pos (by omega), if_pos (by omega), pay9_top, hxs t (by omega), hys t (by omega),
      show t / 8 = 8 * b + 0 by omega, show t / 64 * 8 + t % 8 = 8 * b + col.val / 1024 by omega]
    rfl
  | succ i ih =>
    obtain ⟨t', rfl⟩ : ∃ t', t = t' + 1 := ⟨t - 1, by omega⟩
    rw [run1_col_at]
    by_cases h : col.val / 1024 = (t' + 1) % 8
    · rw [if_pos h, if_neg (by omega), ih (by omega) t' (by omega), pay9_top, hxs (t' + 1) (by omega),
        hys (t' + 1) (by omega), show (t' + 1) / 8 = 8 * b + (i / 8 + 1) by omega,
        show (t' + 1) / 64 * 8 + (t' + 1) % 8 = 8 * b + col.val / 1024 by omega,
        show (i + 1) / 8 = i / 8 + 1 by omega]
      rfl
    · rw [if_neg h, ih (by omega) t' (by omega), show (i + 1) / 8 = i / 8 by omega]

/-- The running sum after a whole batch: the left-nested sum over the eight row tiles of the tiles' sums. -/
theorem T1 (hxs : ∀ k, k < 256 → xs k = xb (k / 8)) (hys : ∀ k, k < 256 → ys k = yb (k / 64 * 8 + k % 8))
    (b : ℕ) (hb : b < 4) :
    (run1 xs ys (64 * b + 64)).2.2 (ix2 0 0)
      = runSum 0 (fun tn => ∑ p : Fin 1024, clampRoot (runMin (fun tm =>
          (Finset.univ : Finset (Fin 1024)).fold min ⊤ (fun q => D xb yb (8 * b + tn) (8 * b + tm) p q)) 7)) 7 := by
  rw [show 64 * b + 64 = 64 * b + 63 + 1 by omega, sumbuf hxs hys b hb 63 (by norm_num) (64 * b + 63) rfl,
    runSum_eq, zero_add]
  rfl

/-- The column minima after a whole batch: at every column, the running minimum over the eight row tiles of the tile's
    column minimum. -/
theorem T2 (hxs : ∀ k, k < 256 → xs k = xb (k / 8)) (hys : ∀ k, k < 256 → ys k = yb (k / 64 * 8 + k % 8))
    (b : ℕ) (hb : b < 4) (col : Fin 8192) :
    (run1 xs ys (64 * b + 64)).2.1 (ix2 0 col)
      = runMin (fun tn => (Finset.univ : Finset (Fin 1024)).fold min ⊤
          (fun p => D xb yb (8 * b + tn) (8 * b + col.val / 1024) p
            ⟨col.val % 1024, Nat.mod_lt _ (by norm_num)⟩)) 7 := by
  have hc := col.isLt
  rw [show 64 * b + 64 = 64 * b + 63 + 1 by omega,
    colbuf hxs hys b hb col (63 - col.val / 1024) (by omega) (64 * b + 63) (by omega),
    show (63 - col.val / 1024) / 8 = 7 by omega]

/-- The first output after a whole batch: the running sum over the number of points. -/
theorem T3 (hxs : ∀ k, k < 256 → xs k = xb (k / 8)) (hys : ∀ k, k < 256 → ys k = yb (k / 64 * 8 + k % 8))
    (b : ℕ) (hb : b < 4) :
    k1_pay4 (F := Ideal) (run1 xs ys (64 * b + 64)).2.2 (ix3 0 0 0)
      = Ideal.div (runSum 0 (fun tn => ∑ p : Fin 1024, clampRoot (runMin (fun tm =>
          (Finset.univ : Finset (Fin 1024)).fold min ⊤ (fun q => D xb yb (8 * b + tn) (8 * b + tm) p q)) 7)) 7)
          (Ideal.ofBits .f32 0x46000000#32) := by
  rw [pay4_apply, T1 hxs hys b hb]

/-- The second output after a whole batch: the sum over the columns of the clamped root of the column minima, over the
    number of points. -/
theorem T4 (hxs : ∀ k, k < 256 → xs k = xb (k / 8)) (hys : ∀ k, k < 256 → ys k = yb (k / 64 * 8 + k % 8))
    (b : ℕ) (hb : b < 4) :
    k1_pay5 (F := Ideal) (run1 xs ys (64 * b + 64)).2.1 (ix3 0 0 0)
      = Ideal.div (∑ col : Fin 8192, clampRoot (runMin (fun tn => (Finset.univ : Finset (Fin 1024)).fold min ⊤
          (fun p => D xb yb (8 * b + tn) (8 * b + col.val / 1024) p
            ⟨col.val % 1024, Nat.mod_lt _ (by norm_num)⟩)) 7))
          (Ideal.ofBits .f32 0x46000000#32) := by
  rw [pay5_apply]
  refine congrArg (Ideal.div · _) (Finset.sum_congr rfl fun col _ => ?_)
  rw [T2 hxs hys b hb col]
  rfl

end Batch

/-! ### Against the reference -/

section Ref

variable {xb yb xs ys : ℕ → Vec Ideal S1x1024x3 .f32}
variable (x6 x7 : (⟨S4x8192x3, .f32⟩ : BufTy).Contents (Elt Ideal))

/-- Position p of tile i among 8192 positions in eight tiles of 1024. -/
def pos (i : Fin 8) (p : Fin 1024) : Fin 8192 :=
  ⟨i.val * 1024 + p.val, by have := i.isLt; have := p.isLt; omega⟩

/-- A tile's squared distance is the reference's squared distance at the two points' positions in the batch. -/
theorem D_eq_v25
    (hxb : ∀ (b : ℕ) (hb : b < 4) (n : ℕ) (hn : n < 8) (p : Fin 1024) (k : Fin 3),
      xb (8 * b + n) (ix3 0 p k)
        = x7 (ix3 (⟨b, hb⟩ : Fin 4) (⟨1024 * n + p.val, by have := p.isLt; omega⟩ : Fin 8192) k))
    (hyb : ∀ (b : ℕ) (hb : b < 4) (m : ℕ) (hm : m < 8) (q : Fin 1024) (k : Fin 3),
      yb (8 * b + m) (ix3 0 q k)
        = x6 (ix3 (⟨b, hb⟩ : Fin 4) (⟨1024 * m + q.val, by have := q.isLt; omega⟩ : Fin 8192) k))
    (b : Fin 4) (tn tm : Fin 8) (p q : Fin 1024) :
    D xb yb (8 * b.val + tn.val) (8 * b.val + tm.val) p q
      = Cert.ReferenceIdeal.Read.val_main_v25 (F := Ideal) x6 x7 (ix3 b (pos tn p) (pos tm q)) := by
  have ex : ∀ k : Fin 3, xb (8 * b.val + tn.val) (ix3 0 p k) = x7 (ix3 b (pos tn p) k) := fun k =>
    (hxb b.val b.isLt tn.val tn.isLt p k).trans
      (congrArg (fun i : Fin 8192 => x7 (ix3 b i k)) (Fin.ext (by
        show 1024 * tn.val + p.val = tn.val * 1024 + p.val
        omega)))
  have ey : ∀ k : Fin 3, yb (8 * b.val + tm.val) (ix3 0 q k) = x6 (ix3 b (pos tm q) k) := fun k =>
    (hyb b.val b.isLt tm.val tm.isLt q k).trans
      (congrArg (fun i : Fin 8192 => x6 (ix3 b i k)) (Fin.ext (by
        show 1024 * tm.val + q.val = tm.val * 1024 + q.val
        omega)))
  unfold D
  rw [pay7_apply, Cert.ReferenceIdeal.RefValue.v25_apply]
  simp only [ex, ey]

/-- The first output of a batch is the reference's first mean: the sum over the batch's rows of the distance to the
    nearest column point, over the number of points. -/
theorem G1 (hxs : ∀ k, k < 256 → xs k = xb (k / 8)) (hys : ∀ k, k < 256 → ys k = yb (k / 64 * 8 + k % 8))
    (hxb : ∀ (b : ℕ) (hb : b < 4) (n : ℕ) (hn : n < 8) (p : Fin 1024) (k : Fin 3),
      xb (8 * b + n) (ix3 0 p k)
        = x7 (ix3 (⟨b, hb⟩ : Fin 4) (⟨1024 * n + p.val, by have := p.isLt; omega⟩ : Fin 8192) k))
    (hyb : ∀ (b : ℕ) (hb : b < 4) (m : ℕ) (hm : m < 8) (q : Fin 1024) (k : Fin 3),
      yb (8 * b + m) (ix3 0 q k)
        = x6 (ix3 (⟨b, hb⟩ : Fin 4) (⟨1024 * m + q.val, by have := q.isLt; omega⟩ : Fin 8192) k))
    (b : Fin 4) :
    k1_pay4 (F := Ideal) (run1 xs ys (64 * b.val + 64)).2.2 (ix3 0 0 0)
      = Cert.ReferenceIdeal.Read.val_main_v32 (F := Ideal) x6 x7 (ix1 b) := by
  rw [pay4_apply, Cert.ReferenceIdeal.RefValue.v32_apply, T1 hxs hys b.val b.isLt, runSum_eq_univ, zero_add]
  refine congrArg (Ideal.div · _) ?_
  have key := tiled_rowmin_sum (n := 8192) (a := 8) (b := 1024) (by norm_num)
    (fun i k => Cert.ReferenceIdeal.Read.val_main_v25 (F := Ideal) x6 x7 (ix3 b i k)) pos (fun i p => rfl)
  refine Eq.trans ?_ (key.trans ?_)
  · refine Finset.sum_congr rfl fun tn _ => Finset.sum_congr rfl fun p _ => congrArg clampRoot ?_
    rw [runMin_eq_univ]
    exact Finset.fold_congr fun tm _ => Finset.fold_congr fun q _ => D_eq_v25 x6 x7 hxb hyb b tn tm p q
  · refine Finset.sum_congr rfl fun i _ => ?_
    rw [Cert.ReferenceIdeal.RefValue.v29_apply, ofBits_f32_inf]
    refine Finset.fold_congr fun k _ => ?_
    rw [Cert.ReferenceIdeal.RefValue.v28_apply]
    rfl

/-- The second output of a batch is the reference's second mean: the sum over the batch's columns of the distance to the
    nearest row point, over the number of points. -/
theorem G2 (hxs : ∀ k, k < 256 → xs k = xb (k / 8)) (hys : ∀ k, k < 256 → ys k = yb (k / 64 * 8 + k % 8))
    (hxb : ∀ (b : ℕ) (hb : b < 4) (n : ℕ) (hn : n < 8) (p : Fin 1024) (k : Fin 3),
      xb (8 * b + n) (ix3 0 p k)
        = x7 (ix3 (⟨b, hb⟩ : Fin 4) (⟨1024 * n + p.val, by have := p.isLt; omega⟩ : Fin 8192) k))
    (hyb : ∀ (b : ℕ) (hb : b < 4) (m : ℕ) (hm : m < 8) (q : Fin 1024) (k : Fin 3),
      yb (8 * b + m) (ix3 0 q k)
        = x6 (ix3 (⟨b, hb⟩ : Fin 4) (⟨1024 * m + q.val, by have := q.isLt; omega⟩ : Fin 8192) k))
    (b : Fin 4) :
    k1_pay5 (F := Ideal) (run1 xs ys (64 * b.val + 64)).2.1 (ix3 0 0 0)
      = Cert.ReferenceIdeal.Read.val_main_v36 (F := Ideal) x6 x7 (ix1 b) := by
  rw [pay5_apply, Cert.ReferenceIdeal.RefValue.v36_apply]
  refine congrArg (Ideal.div · _) ?_
  refine Finset.sum_congr rfl fun col _ => ?_
  have hc := col.isLt
  rw [T2 hxs hys b.val b.isLt col, Cert.ReferenceIdeal.RefValue.v33_apply, ofBits_f32_inf, runMin_eq_univ]
  have key := tiled_colmin (n := 8192) (a := 8) (b := 1024) (by norm_num)
    (fun i k => Cert.ReferenceIdeal.Read.val_main_v25 (F := Ideal) x6 x7 (ix3 b i k)) pos (fun i p => rfl) col
  refine Eq.trans ?_ (key.trans ?_)
  · refine congrArg clampRoot (Finset.fold_congr fun tn _ => Finset.fold_congr fun p _ => ?_)
    refine (D_eq_v25 x6 x7 hxb hyb b tn ⟨col.val / 1024, by omega⟩ p
      ⟨col.val % 1024, Nat.mod_lt _ (by norm_num)⟩).trans ?_
    refine congrArg (fun c : Fin 8192 =>
      Cert.ReferenceIdeal.Read.val_main_v25 (F := Ideal) x6 x7 (ix3 b (pos tn p) c)) (Fin.ext ?_)
    show col.val / 1024 * 1024 + col.val % 1024 = col.val
    omega
  · refine Finset.fold_congr fun i _ => ?_
    rw [Cert.ReferenceIdeal.RefValue.v28_apply]
    rfl

end Ref

end Cert.KernelIdeal.H

end
-- ==== Proof.KernelIdeal.ArrAt1.lean ====
/- What the second kernel's write-backs leave in its two result arrays: entry (b, 0, 0) of each is what the body left in
   the result block at the last point of batch b, the point 64 b + 63. -/
import proofs.«134128_j58669253263727_2_alg».proof.Proof.KernelIdeal.R1
import Idealize.ShloMosaic.Lib.Pipeline.Value
import Idealize.ShloMosaic.Lib.ValueIdx

noncomputable section

namespace Cert.KernelIdeal.H

open Cert.KernelIdeal Cert.KernelIdeal.Gen
open Idealize.ShloMosaic Idealize.ShloMosaic.TcCoe
open Idealize.SL Idealize.SL.RA Idealize.SL.BI Idealize.SL.Sem
open Idealize.ShloMosaic.Pipeline (Dat)
open Idealize.ShloMosaic.ValueIdx

variable {F : FTy → Type} [FloatOps F]

/-- The result windows' block index at point t = 64 b + 8 n + m is (b, 0, 0). -/
theorem idx1_out : ∀ t : Fin cfg1.N,
    win1_2.index t (0 : Fin 3) = t.val / 64 ∧ win1_2.index t (1 : Fin 3) = 0 ∧ win1_2.index t (2 : Fin 3) = 0
    ∧ win1_3.index t (0 : Fin 3) = t.val / 64 ∧ win1_3.index t (1 : Fin 3) = 0 ∧ win1_3.index t (2 : Fin 3) = 0 :=
  (by decide +kernel : ∀ t : Fin grid1.N, _)

/-- A result array, whole, from the result block `P k` the body leaves at point k − 1: entry (b, 0, 0) is the block after
    the points of batch b. -/
def GLast (P : ℕ → Vec F S1x1x1 .f32) : S4x1x1.Idx → Elt F .f32 :=
  fun i => P (64 * (i 0).val + 64) (ix3 (0 : Fin 1) (0 : Fin 1) (0 : Fin 1))

theorem GLast_ix3 (P : ℕ → Vec F S1x1x1 .f32) (b : Fin 4) :
    GLast P (ix3 b (0 : Fin 1) (0 : Fin 1)) = P (64 * b.val + 64) (ix3 (0 : Fin 1) (0 : Fin 1) (0 : Fin 1)) := rfl

/-- The last point of batch b. -/
def tLast (i0 : Fin 4) : Fin cfg1.N := ⟨64 * i0.val + 63, by have := N_1; have := i0.isLt; show 64 * i0.val + 63 < grid1.N; omega⟩

section Generic

variable {c : Dev nD} (dat : Dat τ (Elt F) Unit ℕ (UR sig nD τ) ℕ cfg1 c) (P : ℕ → Vec F S1x1x1 .f32)

/-- What a point 64 b + 63 writes back to the first result array is block (b, 0, 0) of the whole array. -/
theorem flushed1_2_eq (h : ∀ t : Fin cfg1.N, dat.after 2 t = P (t.val + 1)) (t : Fin cfg1.N) (hf : (cfg1.win 2).flush t = true) :
    dat.flushed 2 t = ((cfg1.win 2).blk t).view.read (Elt F) (GLast P) := by
  have h63 : t.val % 64 = 63 := (flush1_2 t).mp hf
  obtain ⟨e0, e1, e2, -, -, -⟩ := idx1_out t
  show (cfg1.win 2).cut (grid1.coords t) (dat.after 2 t) = _
  rw [h t]
  funext j
  rw [View.read_apply]
  have hj0 : (j 0).val < 1 := (j 0).isLt
  have hj1 : (j 1).val < 1 := (j 1).isLt
  have hj2 : (j 2).val < 1 := (j 2).isLt
  show P (t.val + 1) ((cfg1.win 2).xinj (grid1.coords t) j)
    = P (64 * (win1_2.index t (0 : Fin 3) * 1 + 1 * (j 0).val) + 64) (ix3 (0 : Fin 1) (0 : Fin 1) (0 : Fin 1))
  have hn : 64 * (win1_2.index t (0 : Fin 3) * 1 + 1 * (j 0).val) + 64 = t.val + 1 := by omega
  rw [hn]
  refine congrArg _ (funext fun a => Fin.ext ?_)
  match a with
  | ⟨0, _⟩ => show (j 0).val = 0; omega
  | ⟨1, _⟩ => show (j 1).val = 0; omega
  | ⟨2, _⟩ => show (j 2).val = 0; omega

/-- What a point 64 b + 63 writes back to the second result array is block (b, 0, 0) of the whole array. -/
theorem flushed1_3_eq (h : ∀ t : Fin cfg1.N, dat.after 3 t = P (t.val + 1)) (t : Fin cfg1.N) (hf : (cfg1.win 3).flush t = true) :
    dat.flushed 3 t = ((cfg1.win 3).blk t).view.read (Elt F) (GLast P) := by
  have h63 : t.val % 64 = 63 := (flush1_3 t).mp hf
  obtain ⟨-, -, -, e0, e1, e2⟩ := idx1_out t
  show (cfg1.win 3).cut (grid1.coords t) (dat.after 3 t) = _
  rw [h t]
  funext j
  rw [View.read_apply]
  have hj0 : (j 0).val < 1 := (j 0).isLt
  have hj1 : (j 1).val < 1 := (j 1).isLt
  have hj2 : (j 2).val < 1 := (j 2).isLt
  show P (t.val + 1) ((cfg1.win 3).xinj (grid1.coords t) j)
    = P (64 * (win1_3.index t (0 : Fin 3) * 1 + 1 * (j 0).val) + 64) (ix3 (0 : Fin 1) (0 : Fin 1) (0 : Fin 1))
  have hn : 64 * (win1_3.index t (0 : Fin 3) * 1 + 1 * (j 0).val) + 64 = t.val + 1 := by omega
  rw [hn]
  refine congrArg _ (funext fun a => Fin.ext ?_)
  match a with
  | ⟨0, _⟩ => show (j 0).val = 0; omega
  | ⟨1, _⟩ => show (j 1).val = 0; omega
  | ⟨2, _⟩ => show (j 2).val = 0; omega

end Generic

/-- Every entry (b, 0, 0) of the first result array is in the block the point 64 b + 63 writes back. -/
theorem cover1_2 (i : S4x1x1.Idx) : ∃ t : Fin cfg1.N, (cfg1.win 2).flush t = true ∧ i ∈ ((cfg1.win 2).blk t).view.set := by
  have hi0 : (i 0).val < 4 := (i 0).isLt
  have hi1 : (i 1).val < 1 := (i 1).isLt
  have hi2 : (i 2).val < 1 := (i 2).isLt
  have ht : (tLast ⟨(i 0).val, hi0⟩).val = 64 * (i 0).val + 63 := rfl
  obtain ⟨e0, e1, e2, -, -, -⟩ := idx1_out (tLast ⟨(i 0).val, hi0⟩)
  refine ⟨tLast ⟨(i 0).val, hi0⟩, (flush1_2 _).mpr (by rw [ht]; omega), ?_⟩
  show i ∈ ((View.whole main_v14_0).slice (win1_2.rect (tLast ⟨(i 0).val, hi0⟩))).set
  rw [View.set_slice_whole, Rect.mem_set_unit]
  intro a
  match a with
  | ⟨0, _⟩ => show win1_2.index (tLast ⟨(i 0).val, hi0⟩) (0 : Fin 3) * 1 ≤ (i 0).val ∧ (i 0).val < win1_2.index (tLast ⟨(i 0).val, hi0⟩) (0 : Fin 3) * 1 + 1; omega
  | ⟨1, _⟩ => show win1_2.index (tLast ⟨(i 0).val, hi0⟩) (1 : Fin 3) * 1 ≤ (i 1).val ∧ (i 1).val < win1_2.index (tLast ⟨(i 0).val, hi0⟩) (1 : Fin 3) * 1 + 1; omega
  | ⟨2, _⟩ => show win1_2.index (tLast ⟨(i 0).val, hi0⟩) (2 : Fin 3) * 1 ≤ (i 2).val ∧ (i 2).val < win1_2.index (tLast ⟨(i 0).val, hi0⟩) (2 : Fin 3) * 1 + 1; omega

/-- The same for the second result array. -/
theorem cover1_3 (i : S4x1x1.Idx) : ∃ t : Fin cfg1.N, (cfg1.win 3).flush t = true ∧ i ∈ ((cfg1.win 3).blk t).view.set := by
  have hi0 : (i 0).val < 4 := (i 0).isLt
  have hi1 : (i 1).val < 1 := (i 1).isLt
  have hi2 : (i 2).val < 1 := (i 2).isLt
  have ht : (tLast ⟨(i 0).val, hi0⟩).val = 64 * (i 0).val + 63 := rfl
  obtain ⟨-, -, -, e0, e1, e2⟩ := idx1_out (tLast ⟨(i 0).val, hi0⟩)
  refine ⟨tLast ⟨(i 0).val, hi0⟩, (flush1_3 _).mpr (by rw [ht]; omega), ?_⟩
  show i ∈ ((View.whole main_v14_1).slice (win1_3.rect (tLast ⟨(i 0).val, hi0⟩))).set
  rw [View.set_slice_whole, Rect.mem_set_unit]
  intro a
  match a with
  | ⟨0, _⟩ => show win1_3.index (tLast ⟨(i 0).val, hi0⟩) (0 : Fin 3) * 1 ≤ (i 0).val ∧ (i 0).val < win1_3.index (tLast ⟨(i 0).val, hi0⟩) (0 : Fin 3) * 1 + 1; omega
  | ⟨1, _⟩ => show win1_3.index (tLast ⟨(i 0).val, hi0⟩) (1 : Fin 3) * 1 ≤ (i 1).val ∧ (i 1).val < win1_3.index (tLast ⟨(i 0).val, hi0⟩) (1 : Fin 3) * 1 + 1; omega
  | ⟨2, _⟩ => show win1_3.index (tLast ⟨(i 0).val, hi0⟩) (2 : Fin 3) * 1 ≤ (i 2).val ∧ (i 2).val < win1_3.index (tLast ⟨(i 0).val, hi0⟩) (2 : Fin 3) * 1 + 1; omega

variable (V : (c : Dev nD) → (b : Ref sig .tc) → Buf (Elt F) ((c : Thread nD τ).loc b))

/-- The first result array after the region's write-backs. -/
theorem final1_2 (c : Dev nD) : (dat1 V c).arrAt 2 cfg1.N = GLast (fun k => k1_pay4 (st1 V c k).2.2) :=
  (dat1 V c).arrAt_eq_of_cover 2 (GLast (fun k => k1_pay4 (st1 V c k).2.2))
    (flushed1_2_eq (dat1 V c) (fun k => k1_pay4 (st1 V c k).2.2) (fun t => after1_2 V c t)) cover1_2

/-- The second result array after the region's write-backs. -/
theorem final1_3 (c : Dev nD) : (dat1 V c).arrAt 3 cfg1.N = GLast (fun k => k1_pay5 (st1 V c k).2.1) :=
  (dat1 V c).arrAt_eq_of_cover 3 (GLast (fun k => k1_pay5 (st1 V c k).2.1))
    (flushed1_3_eq (dat1 V c) (fun k => k1_pay5 (st1 V c k).2.1) (fun t => after1_3 V c t)) cover1_3

/-- Entry (b, 0, 0) of the first result array: the first result block after the points of batch b. -/
theorem arrAt1_2 (c : Dev nD) (b : Fin 4) :
    (dat1 V c).arrAt 2 cfg1.N (ix3 b (0 : Fin 1) (0 : Fin 1))
      = k1_pay4 (st1 V c (64 * b.val + 64)).2.2 (ix3 (0 : Fin 1) (0 : Fin 1) (0 : Fin 1)) :=
  (congrFun (final1_2 V c) (ix3 b (0 : Fin 1) (0 : Fin 1))).trans (GLast_ix3 (fun k => k1_pay4 (st1 V c k).2.2) b)

/-- Entry (b, 0, 0) of the second result array: the second result block after the points of batch b. -/
theorem arrAt1_3 (c : Dev nD) (b : Fin 4) :
    (dat1 V c).arrAt 3 cfg1.N (ix3 b (0 : Fin 1) (0 : Fin 1))
      = k1_pay5 (st1 V c (64 * b.val + 64)).2.1 (ix3 (0 : Fin 1) (0 : Fin 1) (0 : Fin 1)) :=
  (congrFun (final1_3 V c) (ix3 b (0 : Fin 1) (0 : Fin 1))).trans (GLast_ix3 (fun k => k1_pay5 (st1 V c k).2.1) b)

end Cert.KernelIdeal.H
-- ==== Proof.KernelIdeal.Bridge1.lean ====
/- From the second kernel's window blocks to the reference: the blocks a grid point is handed are rows of the two point
   clouds, so the two result blocks a batch's last point leaves are the reference's two means for that batch. -/
import proofs.«134128_j58669253263727_2_alg».proof.Proof.KernelIdeal.R1State
import proofs.«134128_j58669253263727_2_alg».proof.Proof.KernelIdeal.WinRead
import proofs.«134128_j58669253263727_2_alg».proof.Proof.KernelIdeal.Val1Math
import proofs.«134128_j58669253263727_2_alg».proof.Proof.KernelIdeal.ArrAt1
import proofs.«134128_j58669253263727_2_alg».proof.Proof.KernelIdeal.Run

noncomputable section

namespace Cert.KernelIdeal.H

open Cert.KernelIdeal Cert.KernelIdeal.Gen
open Idealize.ShloMosaic Idealize.ShloMosaic.TcCoe Idealize.SL.Sem
open Idealize.ShloMosaic.ValueIdx
open Idealize.ShloMosaic.Pipeline (Dat)

/-! ### The blocks by number -/

section Blocks

variable (V : (c : Dev nD) → (b : Ref sig .tc) → Buf (Elt Ideal) ((c : Thread nD τ).loc b))

/-- The x block number u = 8 b + n: rows 1024 n … 1024 n + 1023 of batch b of the first cloud. -/
def xbOf (c : Dev nD) (u : ℕ) : Vec Ideal S1x1024x3 .f32 := fun j =>
  V c main_arg7 (ix3 (⟨u / 8 % 4, Nat.mod_lt _ (by norm_num)⟩ : Fin 4)
    (⟨(1024 * (u % 8) + (j 1).val) % 8192, Nat.mod_lt _ (by norm_num)⟩ : Fin 8192)
    (⟨(j 2).val % 3, Nat.mod_lt _ (by norm_num)⟩ : Fin 3))

/-- The y block number v = 8 b + m: rows 1024 m … 1024 m + 1023 of batch b of the second cloud. -/
def ybOf (c : Dev nD) (v : ℕ) : Vec Ideal S1x1024x3 .f32 := fun j =>
  V c main_arg6 (ix3 (⟨v / 8 % 4, Nat.mod_lt _ (by norm_num)⟩ : Fin 4)
    (⟨(1024 * (v % 8) + (j 1).val) % 8192, Nat.mod_lt _ (by norm_num)⟩ : Fin 8192)
    (⟨(j 2).val % 3, Nat.mod_lt _ (by norm_num)⟩ : Fin 3))

/-- The x block handed to point k is block number k / 8. -/
theorem hxs_of (c : Dev nD) : ∀ k, k < 256 → xsOf V c k = xbOf V c (k / 8) := by
  intro k hk
  have hN : k < cfg1.N := by have := N_1; show k < grid1.N; omega
  unfold xsOf
  rw [dif_pos hN]
  funext j
  obtain ⟨a, p, q, rfl⟩ : ∃ (a : Fin 1) (p : Fin 1024) (q : Fin 3), j = ix3 a p q := ⟨j 0, j 1, j 2, eq_ix3 j⟩
  obtain rfl : a = 0 := Subsingleton.elim _ _
  have hp := p.isLt
  have hq := q.isLt
  refine (rd1_0 (V c main_arg7) ⟨k, hN⟩ p q).trans ?_
  show V c main_arg7 _ = V c main_arg7 _
  refine congrArg (V c main_arg7) (funext fun d => Fin.ext ?_)
  match d with
  | ⟨0, _⟩ => show k / 64 = k / 8 / 8 % 4; omega
  | ⟨1, _⟩ => show 1024 * (k / 8 % 8) + p.val = (1024 * (k / 8 % 8) + p.val) % 8192; omega
  | ⟨2, _⟩ => show q.val = q.val % 3; omega

/-- The y block handed to point k is block number 8 (k / 64) + k % 8. -/
theorem hys_of (c : Dev nD) : ∀ k, k < 256 → ysOf V c k = ybOf V c (k / 64 * 8 + k % 8) := by
  intro k hk
  have hN : k < cfg1.N := by have := N_1; show k < grid1.N; omega
  unfold ysOf
  rw [dif_pos hN]
  funext j
  obtain ⟨a, p, q, rfl⟩ : ∃ (a : Fin 1) (p : Fin 1024) (q : Fin 3), j = ix3 a p q := ⟨j 0, j 1, j 2, eq_ix3 j⟩
  obtain rfl : a = 0 := Subsingleton.elim _ _
  have hp := p.isLt
  have hq := q.isLt
  refine (rd1_1 (V c main_arg6) ⟨k, hN⟩ p q).trans ?_
  show V c main_arg6 _ = V c main_arg6 _
  refine congrArg (V c main_arg6) (funext fun d => Fin.ext ?_)
  match d with
  | ⟨0, _⟩ => show k / 64 = (k / 64 * 8 + k % 8) / 8 % 4; omega
  | ⟨1, _⟩ => show 1024 * (k % 8) + p.val = (1024 * ((k / 64 * 8 + k % 8) % 8) + p.val) % 8192; omega
  | ⟨2, _⟩ => show q.val = q.val % 3; omega

/-- Row p of x block 8 b + n is row 1024 n + p of batch b of the first cloud. -/
theorem hxb_of (c : Dev nD) : ∀ (b : ℕ) (hb : b < 4) (n : ℕ) (hn : n < 8) (p : Fin 1024) (k : Fin 3),
    xbOf V c (8 * b + n) (ix3 0 p k)
      = V c main_arg7 (ix3 (⟨b, hb⟩ : Fin 4) (⟨1024 * n + p.val, by have := p.isLt; omega⟩ : Fin 8192) k) := by
  intro b hb n hn p k
  have hp := p.isLt
  have hk := k.isLt
  show V c main_arg7 _ = V c main_arg7 _
  refine congrArg (V c main_arg7) (funext fun d => Fin.ext ?_)
  match d with
  | ⟨0, _⟩ => show (8 * b + n) / 8 % 4 = b; omega
  | ⟨1, _⟩ => show (1024 * ((8 * b + n) % 8) + p.val) % 8192 = 1024 * n + p.val; omega
  | ⟨2, _⟩ => show k.val % 3 = k.val; omega

/-- Row q of y block 8 b + m is row 1024 m + q of batch b of the second cloud. -/
theorem hyb_of (c : Dev nD) : ∀ (b : ℕ) (hb : b < 4) (m : ℕ) (hm : m < 8) (q : Fin 1024) (k : Fin 3),
    ybOf V c (8 * b + m) (ix3 0 q k)
      = V c main_arg6 (ix3 (⟨b, hb⟩ : Fin 4) (⟨1024 * m + q.val, by have := q.isLt; omega⟩ : Fin 8192) k) := by
  intro b hb m hm q k
  have hq := q.isLt
  have hk := k.isLt
  show V c main_arg6 _ = V c main_arg6 _
  refine congrArg (V c main_arg6) (funext fun d => Fin.ext ?_)
  match d with
  | ⟨0, _⟩ => show (8 * b + m) / 8 % 4 = b; omega
  | ⟨1, _⟩ => show (1024 * ((8 * b + m) % 8) + q.val) % 8192 = 1024 * m + q.val; omega
  | ⟨2, _⟩ => show k.val % 3 = k.val; omega

/-- The first result block after batch b is the reference's first mean for batch b. -/
theorem val1_2 (c : Dev nD) (b : Fin 4) :
    k1_pay4 (F := Ideal) (st1 V c (64 * b.val + 64)).2.2 (ix3 0 0 0)
      = Cert.ReferenceIdeal.Read.val_main_v32 (F := Ideal) (V c main_arg6) (V c main_arg7) (ix1 b) :=
  G1 (xb := xbOf V c) (yb := ybOf V c) (xs := xsOf V c) (ys := ysOf V c) (V c main_arg6) (V c main_arg7)
    (hxs_of V c) (hys_of V c) (hxb_of V c) (hyb_of V c) b

/-- The second result block after batch b is the reference's second mean for batch b. -/
theorem val1_3 (c : Dev nD) (b : Fin 4) :
    k1_pay5 (F := Ideal) (st1 V c (64 * b.val + 64)).2.1 (ix3 0 0 0)
      = Cert.ReferenceIdeal.Read.val_main_v36 (F := Ideal) (V c main_arg6) (V c main_arg7) (ix1 b) :=
  G2 (xb := xbOf V c) (yb := ybOf V c) (xs := xsOf V c) (ys := ysOf V c) (V c main_arg6) (V c main_arg7)
    (hxs_of V c) (hys_of V c) (hxb_of V c) (hyb_of V c) b

end Blocks

/-! ### Through the program's run -/

section Run

variable (m : (ℓ : Loc nD τ sig) → Buf (Elt Ideal) ℓ) (ρ : Dev nD → PrngReg)

/-- A buffer that the host lines between the two regions do not write, and that is not the first region's result, holds at
    the second region's entry what the launch put there. -/
theorem W2_keep (c : Dev nD) (r : Ref sig .tc) (h1 : r ∉ hostOps1_W) (hne : r ≠ main_v0) :
    W2 m ρ c (Proc.devRef .tc r) = m ((c : Thread nD τ).loc r) := by
  have e21 : W2 m ρ c (Proc.devRef .tc r) = W1 m ρ c (Proc.devRef .tc r) :=
    StableHlo.after_of_writes_sub hostOps1 _ hostOps1_writes h1
  have e10 : W1 m ρ c (Proc.devRef .tc r) = W0 m ρ c (Proc.devRef .tc r) := by
    by_cases h : ∃ w, Pipeline.arrRef spec0 w = r
    · obtain ⟨w, rfl⟩ := h
      fin_cases w
      · exact (W1_arr m ρ c 0).trans (((dat0 (V0 m ρ) c).arrAt_in 0 rfl _).trans (A_eq0 (V0 m ρ) c 0))
      · exact (W1_arr m ρ c 1).trans (((dat0 (V0 m ρ) c).arrAt_in 1 rfl _).trans (A_eq0 (V0 m ρ) c 1))
      · exact (W1_arr m ρ c 2).trans (((dat0 (V0 m ρ) c).arrAt_in 2 rfl _).trans (A_eq0 (V0 m ρ) c 2))
      · exact (W1_arr m ρ c 3).trans (((dat0 (V0 m ρ) c).arrAt_in 3 rfl _).trans (A_eq0 (V0 m ρ) c 3))
      · exact (W1_arr m ρ c 4).trans (((dat0 (V0 m ρ) c).arrAt_in 4 rfl _).trans (A_eq0 (V0 m ρ) c 4))
      · exact (W1_arr m ρ c 5).trans (((dat0 (V0 m ρ) c).arrAt_in 5 rfl _).trans (A_eq0 (V0 m ρ) c 5))
      · exact (W1_arr m ρ c 6).trans (((dat0 (V0 m ρ) c).arrAt_in 6 rfl _).trans (A_eq0 (V0 m ρ) c 6))
      · exact (W1_arr m ρ c 7).trans (((dat0 (V0 m ρ) c).arrAt_in 7 rfl _).trans (A_eq0 (V0 m ρ) c 7))
      · exact absurd rfl hne
    · exact W1_of_ne m ρ c r fun w e => h ⟨w, e⟩
  exact e21.trans (e10.trans rfl)

/-- The second cloud at the second region's entry is the launched one. -/
theorem V2_arg6 (c : Dev nD) : V2 m ρ c main_arg6 = m ((c : Thread nD τ).loc main_arg6) :=
  W2_keep m ρ c main_arg6 (by decide) (by decide)

/-- The first cloud at the second region's entry is the launched one. -/
theorem V2_arg7 (c : Dev nD) : V2 m ρ c main_arg7 = m ((c : Thread nD τ).loc main_arg7) :=
  W2_keep m ρ c main_arg7 (by decide) (by decide)

/-- After the second region, entry (b, 0, 0) of its first result array is the reference's first mean for batch b. -/
theorem B1a (c : Dev nD) (b : Fin 4) :
    W3 m ρ c (Proc.devRef .tc main_v14_0) (ix3 b (0 : Fin 1) (0 : Fin 1))
      = Cert.ReferenceIdeal.Read.val_main_v32 (F := Ideal) (m ((c : Thread nD τ).loc main_arg6))
          (m ((c : Thread nD τ).loc main_arg7)) (ix1 b) := by
  refine (congrFun (W3_arr m ρ c 2) (ix3 b (0 : Fin 1) (0 : Fin 1))).trans ?_
  refine (arrAt1_2 (V2 m ρ) c b).trans ?_
  refine (val1_2 (V2 m ρ) c b).trans ?_
  rw [V2_arg6, V2_arg7]

/-- After the second region, entry (b, 0, 0) of its second result array is the reference's second mean for batch b. -/
theorem B1b (c : Dev nD) (b : Fin 4) :
    W3 m ρ c (Proc.devRef .tc main_v14_1) (ix3 b (0 : Fin 1) (0 : Fin 1))
      = Cert.ReferenceIdeal.Read.val_main_v36 (F := Ideal) (m ((c : Thread nD τ).loc main_arg6))
          (m ((c : Thread nD τ).loc main_arg7)) (ix1 b) := by
  refine (congrFun (W3_arr m ρ c 3) (ix3 b (0 : Fin 1) (0 : Fin 1))).trans ?_
  refine (arrAt1_3 (V2 m ρ) c b).trans ?_
  refine (val1_3 (V2 m ρ) c b).trans ?_
  rw [V2_arg6, V2_arg7]

end Run

/-! ### The host lines after the second region -/

section Host

/-- The tail both programs share: the two per-batch means added, summed over the four batches, and divided by 4 and
    by 2. -/
def tail40 (a b : (⟨S4, .f32⟩ : BufTy).Contents (Elt Ideal)) : (⟨S_, .f32⟩ : BufTy).Contents (Elt Ideal) :=
  Host.divf (F := Ideal)
    (Host.divf (F := Ideal)
      (Host.reduceAdd (F := Ideal) (addf a b) (constant (F := Ideal) S_ .f32 0x00000000#32) reducesTo_S4_S_d0 h_S_)
      (constant (F := Ideal) S_ .f32 0x40800000#32))
    (constant (F := Ideal) S_ .f32 0x40000000#32)

/-- What the last host lines leave in the chamfer term's buffer, over any contents before them. -/
theorem after2_v22 (Wv : Valuation τ sig (Elt Ideal)) :
    StableHlo.after hostOps2 Wv (Proc.devRef .tc main_v22)
      = tail40
          (shapeCast S4 (shapeCast S4x1 (Wv (Proc.devRef .tc main_v14_0)) shapeCasts_S4x1x1_S4x1) shapeCasts_S4x1_S4)
          (shapeCast S4 (shapeCast S4x1 (Wv (Proc.devRef .tc main_v14_1)) shapeCasts_S4x1x1_S4x1) shapeCasts_S4x1_S4) := by
  after_results_simp
  rfl

/-- The reference's chamfer term is the shared tail of its two per-batch means. -/
theorem v40_eq_tail (x6 x7 : (⟨S4x8192x3, .f32⟩ : BufTy).Contents (Elt Ideal)) :
    Cert.ReferenceIdeal.Read.val_main_v40 (F := Ideal) x6 x7
      = tail40 (Cert.ReferenceIdeal.Read.val_main_v32 (F := Ideal) x6 x7)
          (Cert.ReferenceIdeal.Read.val_main_v36 (F := Ideal) x6 x7) := rfl

/-- A 4×1×1 array recast to 4×1 and then to 4 reads, at b, its entry (b, 0, 0). -/
theorem cast_mean (A : (⟨S4x1x1, .f32⟩ : BufTy).Contents (Elt Ideal)) (b : Fin 4) :
    shapeCast S4 (shapeCast S4x1 A shapeCasts_S4x1x1_S4x1) shapeCasts_S4x1_S4 (ix1 b)
      = A (ix3 b (0 : Fin 1) (0 : Fin 1)) := by
  refine (shapeCast_apply _ shapeCasts_S4x1_S4 (ix1 b) (ix2 b (0 : Fin 1)) ?_).trans
    (shapeCast_apply A shapeCasts_S4x1x1_S4x1 (ix2 b (0 : Fin 1)) (ix3 b (0 : Fin 1) (0 : Fin 1)) ?_)
  · rw [Shape.rowMajor_val_two, Shape.rowMajor_val_one]
    show b.val * 1 + 0 = b.val
    omega
  · rw [Shape.rowMajor_val_three, Shape.rowMajor_val_two]
    show (b.val * 1 + 0) * 1 + 0 = b.val * 1 + 0
    omega

variable (m : (ℓ : Loc nD τ sig) → Buf (Elt Ideal) ℓ) (ρ : Dev nD → PrngReg)

/-- The chamfer term's buffer at the program's end holds the reference's chamfer term of the two launched clouds. -/
theorem R22 (c : Dev nD) :
    W4 m ρ c (Proc.devRef .tc main_v22)
      = Cert.ReferenceIdeal.Read.val_main_v40 (F := Ideal) (m ((c : Thread nD τ).loc main_arg6))
          (m ((c : Thread nD τ).loc main_arg7)) := by
  refine (after2_v22 (W3 m ρ c)).trans ?_
  rw [v40_eq_tail]
  refine congrArg₂ tail40 (funext fun i => ?_) (funext fun i => ?_)
  · obtain ⟨b, rfl⟩ : ∃ b : Fin 4, i = ix1 b := ⟨i 0, eq_ix1 i⟩
    exact (cast_mean _ b).trans (B1a m ρ c b)
  · obtain ⟨b, rfl⟩ : ∃ b : Fin 4, i = ix1 b := ⟨i 0, eq_ix1 i⟩
    exact (cast_mean _ b).trans (B1b m ρ c b)

end Host

end Cert.KernelIdeal.H

end
-- ==== Proof.KernelIdeal.Bridge.lean ====
/- The kernel program's last result, the weighted total, is the same host expression of the five losses on both sides. -/
import proofs.«134128_j58669253263727_2_alg».proof.Proof.KernelIdeal.Bridge0
import proofs.«134128_j58669253263727_2_alg».proof.Proof.KernelIdeal.Bridge1
import Idealize.ShloMosaic.Lib.StableHlo.Run

set_option maxRecDepth 16384

noncomputable section

namespace Cert.KernelIdeal.H

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

set_option maxHeartbeats 4000000 in
/-- The last host lines compute the total from the four earlier results and the cycle loss, whatever the buffers held. -/
theorem total_of (W : Valuation τ sig (Elt Ideal)) :
    StableHlo.after hostOps2 W (Proc.devRef .tc main_v31)
      = (addf (F := Ideal) (addf (F := Ideal) (addf (F := Ideal) (addf (F := Ideal)
            (mulf (F := Ideal) (constant (F := Ideal) S_ .f32 0x3F800000#32) (W (Proc.devRef .tc main_v9) : FVec Ideal S_ .f32))
            (mulf (F := Ideal) (constant (F := Ideal) S_ .f32 0x3F000000#32) (W (Proc.devRef .tc main_v11) : FVec Ideal S_ .f32)))
          (mulf (F := Ideal) (constant (F := Ideal) S_ .f32 0x3F000000#32) (W (Proc.devRef .tc main_v12) : FVec Ideal S_ .f32)))
        (mulf (F := Ideal) (constant (F := Ideal) S_ .f32 0x3F800000#32) (StableHlo.after hostOps2 W (Proc.devRef .tc main_v22) : FVec Ideal S_ .f32)))
      (mulf (F := Ideal) (constant (F := Ideal) S_ .f32 0x3F000000#32) (W (Proc.devRef .tc main_v13) : FVec Ideal S_ .f32)) : FVec Ideal S_ .f32) := by
  after_results_simp

/-- A result the last host lines do not write is what it was before them. -/
theorem W4_eq_W3 (c : Dev nD) (r : Ref sig .tc) (h : r ∉ hostOps2_W) :
    W4 m ρ c (Proc.devRef .tc r) = W3 m ρ c (Proc.devRef .tc r) :=
  StableHlo.after_of_writes_sub hostOps2 _ hostOps2_writes h

/-- The total: the same weighted sum of the five losses as the reference's. -/
theorem R31 (c : Dev nD) :
    W4 m ρ c (Proc.devRef .tc main_v31)
      = Cert.ReferenceIdeal.Read.val_main_v53 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  show StableHlo.after hostOps2 (W3 m ρ c) (Proc.devRef .tc main_v31) = _
  rw [total_of]
  rw [← W4_eq_W3 m ρ c main_v9 (by decide), ← W4_eq_W3 m ρ c main_v11 (by decide), ← W4_eq_W3 m ρ c main_v12 (by decide),
    ← W4_eq_W3 m ρ c main_v13 (by decide), R9 m ρ c, R11 m ρ c, R12 m ρ c, R13 m ρ c,
    show StableHlo.after hostOps2 (W3 m ρ c) (Proc.devRef .tc main_v22) = _ from R22 m ρ c]
  rfl

end Cert.KernelIdeal.H

end
-- ==== Proof.lean ====
/- The proof of `Cert.Claim`: the three programs' frames, the (empty) idealization ledger, and the equality of the two
   idealized programs' results as extended reals.

   The kernel program computes four sums of squared differences in one grid of two points (the fourth array pair tiled
   in two blocks and accumulated) and, in a second grid over (batch, row tile, column tile), the two directed chamfer
   sums: for squared distances d(i,k) between row i of one point cloud and row k of the other it keeps a running row
   minimum per row tile, a running column minimum per column, applies x ↦ √(max x 0) to the FINISHED minima and sums.
   The reference applies that map to every d(i,k) first and then takes the minima and the sums over whole axes. The
   map is monotone and fixes +∞, so it commutes with a minimum; minima and sums over 8192 positions are minima and sums
   over 8 tiles of 1024; the divisions and the final weighted total are the same host operations on both sides. No
   finiteness of the inputs is used. -/
import proofs.«134128_j58669253263727_2_alg».proof.Defs
import proofs.«134128_j58669253263727_2_alg».proof.Proof.Gen.Kernel
import proofs.«134128_j58669253263727_2_alg».proof.Proof.Gen.KernelIdeal
import proofs.«134128_j58669253263727_2_alg».proof.Proof.Gen.ReferenceIdeal
import proofs.«134128_j58669253263727_2_alg».proof.Proof.Gen.Pre_finite_inputs
import proofs.«134128_j58669253263727_2_alg».proof.Proof.Kernel.Run
import proofs.«134128_j58669253263727_2_alg».proof.Proof.KernelIdeal.Run
import proofs.«134128_j58669253263727_2_alg».proof.Proof.KernelIdeal.Bridge
import proofs.«134128_j58669253263727_2_alg».proof.Proof.Ref.Imports
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end and leaves its arguments as launched. -/
theorem frame_k [Cert.Kernel.Facts] [Cert.Pre_finite_inputs.Facts] : Cert.frame_Kernel :=
  fun m ρ _ => Cert.Kernel.H.frame (F := Bits) m ρ

/-- So does the idealized kernel program. -/
theorem frame_ki [Cert.KernelIdeal.Facts] [Cert.Pre_finite_inputs.Facts] : Cert.frame_KernelIdeal :=
  fun m ρ _ => Cert.KernelIdeal.H.frame (F := Ideal) m ρ

/-- The reference is a line of host operations: its run, with the results dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2.2.2.2)
    (Cert.ReferenceIdeal.Value.run (F := Ideal) m ρ)

/-- The ideal pass rewrote nothing. -/
theorem preserves : Cert.preserves_Kernel_KernelIdeal := trivial

open Cert.KernelIdeal.H in
/-- Both idealized programs end with the reference's six stages of the (shared) argument arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v8 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v12 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v40 (F := Ideal) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v44 (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v53 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.H.run_all (F := Ideal) m ρ)
    exact ⟨(h c _ (mem_uc Cert.KernelIdeal.main_v9 (by decide))).trans (R9 m ρ c),
      (h c _ (mem_uc Cert.KernelIdeal.main_v11 (by decide))).trans (R11 m ρ c),
      (h c _ (mem_uc Cert.KernelIdeal.main_v12 (by decide))).trans (R12 m ρ c),
      (h c _ (mem_uc Cert.KernelIdeal.main_v22 (by decide))).trans (R22 m ρ c),
      (h c _ (mem_uc Cert.KernelIdeal.main_v13 (by decide))).trans (R13 m ρ c),
      (h c _ (mem_uc Cert.KernelIdeal.main_v31 (by decide))).trans (R31 m ρ c),
      (h c _ (mem_uc Cert.KernelIdeal.main_arg0 (by decide))).trans (W4_keep m ρ c Cert.KernelIdeal.main_arg0 (by decide) (by decide) (by decide)),
      (h c _ (mem_uc Cert.KernelIdeal.main_arg1 (by decide))).trans (W4_keep m ρ c Cert.KernelIdeal.main_arg1 (by decide) (by decide) (by decide)),
      (h c _ (mem_uc Cert.KernelIdeal.main_arg2 (by decide))).trans (W4_keep m ρ c Cert.KernelIdeal.main_arg2 (by decide) (by decide) (by decide)),
      (h c _ (mem_uc Cert.KernelIdeal.main_arg3 (by decide))).trans (W4_keep m ρ c Cert.KernelIdeal.main_arg3 (by decide) (by decide) (by decide)),
      (h c _ (mem_uc Cert.KernelIdeal.main_arg4 (by decide))).trans (W4_keep m ρ c Cert.KernelIdeal.main_arg4 (by decide) (by decide) (by decide)),
      (h c _ (mem_uc Cert.KernelIdeal.main_arg5 (by decide))).trans (W4_keep m ρ c Cert.KernelIdeal.main_arg5 (by decide) (by decide) (by decide)),
      (h c _ (mem_uc Cert.KernelIdeal.main_arg6 (by decide))).trans (W4_keep m ρ c Cert.KernelIdeal.main_arg6 (by decide) (by decide) (by decide)),
      (h c _ (mem_uc Cert.KernelIdeal.main_arg7 (by decide))).trans (W4_keep m ρ c Cert.KernelIdeal.main_arg7 (by decide) (by decide) (by decide)),
      (h c _ (mem_uc Cert.KernelIdeal.main_arg8 (by decide))).trans (W4_keep m ρ c Cert.KernelIdeal.main_arg8 (by decide) (by decide) (by decide))⟩
  · refine (θ_run Cert.ReferenceIdeal.defs _ _).mono (fun r h c => ?_) (Cert.ReferenceIdeal.Value.run (F := Ideal) m' ρ')
    obtain ⟨a0, a1, a2, a3, a4, a5, a6, a7, a8⟩ := hagree c
    obtain ⟨r0, r1, r2, r3, r4, r5, k0, k1, k2, k3, k4, k5, k6, k7, k8⟩ := h c
    refine ⟨?_, ?_, ?_, ?_, ?_, ?_, k0, k1, k2, k3, k4, k5, k6, k7, k8⟩
    · rw [r0, Cert.ReferenceIdeal.Read.val_main_v3_eq, a0, a1]
    · rw [r1, Cert.ReferenceIdeal.Read.val_main_v8_eq, a2, a3]
    · rw [r2, Cert.ReferenceIdeal.Read.val_main_v12_eq, a4, a5]
    · rw [r3, Cert.ReferenceIdeal.Read.val_main_v40_eq, a6, a7]
    · rw [r4, Cert.ReferenceIdeal.Read.val_main_v44_eq, a7, a8]
    · rw [r5, Cert.ReferenceIdeal.Read.val_main_v53_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
